-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x4096x4096 : Shape := ⟨3, ![4, 4096, 4096]⟩
abbrev S4x4096 : Shape := ⟨2, ![4, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x4096x4096 : S_.BroadcastsInDim S4x4096x4096 (![] : Fin 0 → Fin S4x4096x4096.rank)
  reducesTo_S4x4096x4096_S_d0_1_2 : S4x4096x4096.ReducesTo [0, 1, 2] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_arg4 : FVec F S4x4096 .f32) (main_arg5 : FVec F S4x4096x4096 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x4096 .f32 := Host.absf main_arg4
  let main_cst_6 : FVec F S_ .f32 := constant S_ .f32 0x7F800000#32
  let main_v20 : FVec F S4x4096 .f32 := broadcastInDim S4x4096 ![] bcast_S_S4x4096 main_cst_6
  let main_v21 : IVec S4x4096 1 := cmpf .olt main_v19 main_v20
  let main_c_7 : IVec S_ 1 := constantI S_ 1 1#1
  let main_v22 : IVec S_ 1 := (fun x v => Host.reduce IntOp.andi x v reducesTo_S4x4096_S_d0_1 h_S_) main_v21 main_c_7
  let main_v23 : IVec S_ 1 := andi main_v18 main_v22
  let main_v24 : FVec F S4x4096x4096 .f32 := Host.absf main_arg5
  let main_cst_8 : FVec F S_ .f32 := constant S_ .f32 0x7F800000#32
  let main_v25 : FVec F S4x4096x4096 .f32 := broadcastInDim S4x4096x4096 ![] bcast_S_S4x4096x4096 main_cst_8
  let main_v26 : IVec S4x4096x4096 1 := cmpf .olt main_v24 main_v25
  let main_c_9 : IVec S_ 1 := constantI S_ 1 1#1
  let main_v27 : IVec S_ 1 := (fun x v => Host.reduce IntOp.andi x v reducesTo_S4x4096x4096_S_d0_1_2 h_S_) main_v26 main_c_9
  let main_v28 : IVec S_ 1 := andi main_v23 main_v27
  main_v28

def fn {F : FTy → Type} [FloatOps F] (main_arg0 : FVec F S4096x4096 .f32) (main_arg1 : FVec F S4x4096x4096 .f32) (main_arg2 : FVec F S4x4096x4096 .f32) (main_arg3 : FVec F S4x4096 .f32) (main_arg4 : FVec F S4x4096 .f32) (main_arg5 : FVec F S4x4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x4096x4096 .f32 := Host.absf main_arg1
  let main_cst_0 : FVec F S_ .f32 := constant S_ .f32 0x7F800000#32
  let main_v5 : FVec F S4x4096x4096 .f32 := broadcastInDim S4x4096x4096 ![] bcast_S_S4x4096x4096 main_cst_0
  let main_v6 : IVec S4x4096x4096 1 := cmpf .olt main_v4 main_v5
  let main_c_1 : IVec S_ 1 := constantI S_ 1 1#1
  let main_v7 : IVec S_ 1 := (fun x v => Host.reduce IntOp.andi x v reducesTo_S4x4096x4096_S_d0_1_2 h_S_) main_v6 main_c_1
  let main_v8 : IVec S_ 1 := andi main_v3 main_v7
  let main_v9 : FVec F S4x4096x4096 .f32 := Host.absf main_arg2
  let main_cst_2 : FVec F S_ .f32 := constant S_ .f32 0x7F800000#32
  let main_v10 : FVec F S4x4096x4096 .f32 := broadcastInDim S4x4096x4096 ![] bcast_S_S4x4096x4096 main_cst_2
  let main_v11 : IVec S4x4096x4096 1 := cmpf .olt main_v9 main_v10
  let main_c_3 : IVec S_ 1 := constantI S_ 1 1#1
  let main_v12 : IVec S_ 1 := (fun x v => Host.reduce IntOp.andi x v reducesTo_S4x4096x4096_S_d0_1_2 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_v13 main_v16
-- ==== Kernel.lean ====
abbrev S4096x4096 : Shape := ⟨2, ![4096, 4096]⟩
abbrev S4x4096x4096 : Shape := ⟨3, ![4, 4096, 4096]⟩
abbrev S4x4096 : Shape := ⟨2, ![4, 4096]⟩
abbrev S4x1x4096 : Shape := ⟨3, ![4, 1, 4096]⟩
abbrev S1024x1024 : Shape := ⟨2, ![1024, 1024]⟩
abbrev S1x512x1024 : Shape := ⟨3, ![1, 512, 1024]⟩
abbrev S1x1x512 : Shape := ⟨3, ![1, 1, 512]⟩
abbrev S1x1024x512 : Shape := ⟨3, ![1, 1024, 512]⟩
abbrev S1024x512 : Shape := ⟨2, ![1024, 512]⟩
abbrev S512x1024 : Shape := ⟨2, ![512, 1024]⟩
abbrev S1x512 : Shape := ⟨2, ![1, 512]⟩
abbrev S4096x16384 : Shape := ⟨2, ![4096, 16384]⟩

abbrev nBuf : Space → Nat
  | .hbm => 13
  | .vmem => 60
  | .smem => 0
  | _ => 0

abbrev bufTy : (tb : Table) → Fin (tcTables nBuf tb) → BufTy
  | .hbm, ⟨0, _⟩ => ⟨S4096x4096, .f32⟩
  | .hbm, ⟨1, _⟩ => ⟨S4x4096x4096, .f32⟩
  | .hbm, ⟨2, _⟩ => ⟨S4x4096x4096, .f32⟩
  | .hbm, ⟨3, _⟩ => ⟨S4x4096, .f32⟩
  | .hbm, ⟨4, _⟩ => ⟨S4x4096, .f32⟩
  | .hbm, ⟨5, _⟩ => ⟨S4x4096x4096, .f32⟩
  | .hbm, ⟨6, _⟩ => ⟨S4x1x4096, .f32⟩
  | .hbm, ⟨7, _⟩ => ⟨S4x1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x16384, .f32⟩
  | .local _ .vmem, ⟨0, _⟩ => ⟨S1024x1024, .f32⟩
  | .local _ .vmem, ⟨1, _⟩ => ⟨S1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x1024, .f32⟩
  | .local _ .vmem, ⟨16, _⟩ => ⟨S1024x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x1x512, .f32⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1024x512, .f32⟩
  | .local _ .vmem, ⟨26, _⟩ => ⟨S1x1024x512, .f32⟩
  | .local _ .vmem, ⟨27, _⟩ => ⟨S1024x512, .f32⟩
  | .local _ .vmem, ⟨28, _⟩ => ⟨S1024x512, .f32⟩
  | .local _ .vmem, ⟨29, _⟩ => ⟨S1024x512, .f32⟩
  | .local _ .vmem, ⟨30, _⟩ => ⟨S1024x1024, .f32⟩
  | .local _ .vmem, ⟨31, _⟩ => ⟨S1024x1024, .f32⟩
  | .local _ .vmem, ⟨32, _⟩ => ⟨S1x512x1024, .f32⟩
  | .local _ .vmem, ⟨33, _⟩ => ⟨S1x512x1024, .f32⟩
  | .local _ .vmem, ⟨34, _⟩ => ⟨S1x512x1024, .f32⟩
  | .local _ .vmem, ⟨35, _⟩ => ⟨S1x512x1024, .f32⟩
  | .local _ .vmem, ⟨36, _⟩ => ⟨S1x1x512, .f32⟩
  | .local _ .vmem, ⟨37, _⟩ => ⟨S1x1x512, .f32⟩
  | .local _ .vmem, ⟨38, _⟩ => ⟨S1x1x512, .f32⟩
  | .local _ .vmem, ⟨39, _⟩ => ⟨S1x1x512, .f32⟩
  | .local _ .vmem, ⟨40, _⟩ => ⟨S1x1024x512, .f32⟩
  | .local _ .vmem, ⟨41, _⟩ => ⟨S1x1024x512, .f32⟩
  | .local _ .vmem, ⟨42, _⟩ => ⟨S1024x512, .f32⟩
  | .local _ .vmem, ⟨43, _⟩ => ⟨S1024x512, .f32⟩
  | .local _ .vmem, ⟨44, _⟩ => ⟨S1024x512, .f32⟩
  | .local _ .vmem, ⟨45, _⟩ => ⟨S1024x1024, .f32⟩
  | .local _ .vmem, ⟨46, _⟩ => ⟨S1024x1024, .f32⟩
  | .local _ .vmem, ⟨47, _⟩ => ⟨S1x512x1024, .f32⟩
  | .local _ .vmem, ⟨48, _⟩ => ⟨S1x512x1024, .f32⟩
  | .local _ .vmem, ⟨49, _⟩ => ⟨S1x512x1024, .f32⟩
  | .local _ .vmem, ⟨50, _⟩ => ⟨S1x512x1024, .f32⟩
  | .local _ .vmem, ⟨51, _⟩ => ⟨S1x1x512, .f32⟩
  | .local _ .vmem, ⟨52, _⟩ => ⟨S1x1x512, .f32⟩
  | .local _ .vmem, ⟨53, _⟩ => ⟨S1x1x512, .f32⟩
  | .local _ .vmem, ⟨54, _⟩ => ⟨S1x1x512, .f32⟩
  | .local _ .vmem, ⟨55, _⟩ => ⟨S1x1024x512, .f32⟩
  | .local _ .vmem, ⟨56, _⟩ => ⟨S1x1024x512, .f32⟩
  | .local _ .vmem, ⟨57, _⟩ => ⟨S1024x512, .f32⟩
  | .local _ .vmem, ⟨58, _⟩ => ⟨S1024x512, .f32⟩
  | .local _ .vmem, ⟨59, _⟩ => ⟨S1024x512, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc2_scratch0 : Ref sig .tc := ⟨.vmem, 44, rfl⟩
abbrev cc3_stg0_0 : Ref sig .tc := ⟨.vmem, 45, rfl⟩
abbrev cc3_stg0_1 : Ref sig .tc := ⟨.vmem, 46, rfl⟩
abbrev cc3_stg1_0 : Ref sig .tc := ⟨.vmem, 47, rfl⟩
abbrev cc3_stg1_1 : Ref sig .tc := ⟨.vmem, 48, rfl⟩
abbrev cc3_stg2_0 : Ref sig .tc := ⟨.vmem, 49, rfl⟩
abbrev cc3_stg2_1 : Ref sig .tc := ⟨.vmem, 50, rfl⟩
abbrev cc3_stg3_0 : Ref sig .tc := ⟨.vmem, 51, rfl⟩
abbrev cc3_stg3_1 : Ref sig .tc := ⟨.vmem, 52, rfl⟩
abbrev cc3_stg4_0 : Ref sig .tc := ⟨.vmem, 53, rfl⟩
abbrev cc3_stg4_1 : Ref sig .tc := ⟨.vmem, 54, rfl⟩
abbrev cc3_stg5_0 : Ref sig .tc := ⟨.vmem, 55, rfl⟩
abbrev cc3_stg5_1 : Ref sig .tc := ⟨.vmem, 56, rfl⟩
abbrev cc3_stg6_0 : Ref sig .tc := ⟨.vmem, 57, rfl⟩
abbrev cc3_stg6_1 : Ref sig .tc := ⟨.vmem, 58, rfl⟩
abbrev cc3_scratch0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc3_sem2_1 : DmaSem sig := 47
abbrev cc3_sem3_0 : DmaSem sig := 48
abbrev cc3_sem3_1 : DmaSem sig := 49
abbrev cc3_sem4_0 : DmaSem sig := 50
abbrev cc3_sem4_1 : DmaSem sig := 51
abbrev cc3_sem5_0 : DmaSem sig := 52
abbrev cc3_sem5_1 : DmaSem sig := 53
abbrev cc3_sem6_0 : DmaSem sig := 54
abbrev cc3_sem6_1 : DmaSem sig := 55

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_12 : BitVec 32 := 0#32
  let v20 : BitVec 1 := Scalar.cmpi .ne v19 c0_i32_12
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, c0_i32.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1x1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![4, 8, 4], ![false, false, false]⟩

def k2_cond2 (i : grid2.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, c0_i32.toNat, arg1.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg0.toNat, arg1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1x1x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true, false]

abbrev stage2_5 : Fin 2 → Memref sig .tc .vmem S1x1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev grid3 : Pipeline.Grid := ⟨3, ![4, 8, 4], ![false, false, false]⟩

def k3_cond2 (i : grid3.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc3_transform_4 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, c0_i32.toNat, arg1.toNat]

def cc3_transform_5 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg0.toNat, arg1.toNat]

def cc3_transform_6 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x512x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true, true]

abbrev stage3_3 : Fin 2 → Memref sig .tc .vmem S1x1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true, false]

abbrev stage3_4 : Fin 2 → Memref sig .tc .vmem S1x1x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true, false]

abbrev stage3_5 : Fin 2 → Memref sig .tc .vmem S1x1024x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev stage3_6 : Fin 2 → Memref sig .tc .vmem S1024x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true, false]

class Facts₀ : Prop where
  shapeCasts_S4x4096_S4x1x4096 : S4x4096.ShapeCasts S4x1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  broadcasts_S1x512_S1024x512 : S1x512.Broadcasts S1024x512
  shapeCasts_S1024x1024_S1024x1024 : S1024x1024.ShapeCasts S1024x1024
  concatenates_S4096x4096_S4096x4096_S4096x4096_S4096x4096_S4096x16384_d1 : Shape.Concatenates [S4096x4096, S4096x4096, S4096x4096, S4096x4096] S4096x16384 1
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S4x4096x4096.size a
  hwx0_1 : ∀ i : grid0.Coords, EltTy.bits .f32 = 32 ∨ (Rect.block (s := S4x4096x4096) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S4x4096x4096.size a
  hwx0_2 : ∀ i : grid0.Coords, EltTy.bits .f32 = 32 ∨ (Rect.block (s := S4x4096x4096) S1x512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S4x1x4096.size a
  hwx0_3 : ∀ i : grid0.Coords, EltTy.bits .f32 = 32 ∨ (Rect.block (s := S4x1x4096) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S4x1x4096.size a
  hwx0_4 : ∀ i : grid0.Coords, EltTy.bits .f32 = 32 ∨ (Rect.block (s := S4x1x4096) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x512.size a ≤ S4x4096x4096.size a
  hwx0_5 : ∀ i : grid0.Coords, EltTy.bits .f32 = 32 ∨ (Rect.block (s := S4x4096x4096) S1x1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S4096x4096.size a
  hwx0_6 : ∀ i : grid0.Coords, EltTy.bits .f32 = 32 ∨ (Rect.block (s := S4096x4096) S1024x512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x4096x4096.size a
  hwx1_1 : ∀ i : grid1.Coords, EltTy.bits .f32 = 32 ∨ (Rect.block (s := S4x4096x4096) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x4096x4096.size a
  hwx1_2 : ∀ i : grid1.Coords, EltTy.bits .f32 = 32 ∨ (Rect.block (s := S4x4096x4096) S1x512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S4x1x4096.size a
  hwx1_3 : ∀ i : grid1.Coords, EltTy.bits .f32 = 32 ∨ (Rect.block (s := S4x1x4096) S1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x512.size a ≤ S4x1x4096.size a
  hwx1_4 : ∀ i : grid1.Coords, EltTy.bits .f32 = 32 ∨ (Rect.block (s := S4x1x4096) S1x1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x512.size a ≤ S4x4096x4096.size a
  hwx1_5 : ∀ i : grid1.Coords, EltTy.bits .f32 = 32 ∨ (Rect.block (s := S4x4096x4096) S1x1024x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S4096x4096.size a
  hwx1_6 : ∀ i : grid1.Coords, EltTy.bits .f32 = 32 ∨ (Rect.block (s := S4096x4096) S1024x512.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x1024.size a ≤ S4x4096x4096.size a
  hwx2_1 : ∀ i : grid2.Coords, EltTy.bits .f32 = 32 ∨ (Rect.block (s := S4x4096x4096) S1x512x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x1024.size a ≤ S4x4096x4096.size a
  hwx2_2 : ∀ i : grid2.Coords, EltTy.bits .f32 = 32 ∨ (Rect.block (s := S4x4096x4096) S1x512x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x512.size a ≤ S4x1x4096.size a
  hwx2_3 : ∀ i : grid2.Coords, EltTy.bits .f32 = 32 ∨ (Rect.block (s := S4x1x4096) S1x1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x512.size a ≤ S4x1x4096.size a
  hwx2_4 : ∀ i : grid2.Coords, EltTy.bits .f32 = 32 ∨ (Rect.block (s := S4x1x4096) S1x1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1024x512.size a ≤ S4x4096x4096.size a
  hwx2_5 : ∀ i : grid2.Coords, EltTy.bits .f32 = 32 ∨ (Rect.block (s := S4x4096x4096) S1x1024x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S4096x4096.size a
  hwx2_6 : ∀ i : grid2.Coords, EltTy.bits .f32 = 32 ∨ (Rect.block (s := S4096x4096) S1024x512.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .f32 = 32 ∨ (Rect.block (s := S4096x4096) S1024x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x512x1024.size a ≤ S4x4096x4096.size a
  hwx3_1 : ∀ i : grid3.Coords, EltTy.bits .f32 = 32 ∨ (Rect.block (s := S4x4096x4096) S1x512x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x512x1024.size a ≤ S4x4096x4096.size a
  hwx3_2 : ∀ i : grid3.Coords, EltTy.bits .f32 = 32 ∨ (Rect.block (s := S4x4096x4096) S1x512x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512.size a ≤ S4x1x4096.size a
  hwx3_3 : ∀ i : grid3.Coords, EltTy.bits .f32 = 32 ∨ (Rect.block (s := S4x1x4096) S1x1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x1x512.size a ≤ S4x1x4096.size a
  hwx3_4 : ∀ i : grid3.Coords, EltTy.bits .f32 = 32 ∨ (Rect.block (s := S4x1x4096) S1x1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x1024x512.size a ≤ S4x4096x4096.size a
  hwx3_5 : ∀ i : grid3.Coords, EltTy.bits .f32 = 32 ∨ (Rect.block (s := S4x4096x4096) S1x1024x512.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1024x512.size a ≤ S4096x4096.size a
  hwx3_6 : ∀ i : grid3.Coords, EltTy.bits .f32 = 32 ∨ (Rect.block (s := S4096x4096) S1024x512.size (cc3_transform_6 i) (hinb3_6 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1024x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v2) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S1x1024x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v3) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1x512x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0) S1x1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v1) S1x1x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S1x1024x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v4) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg1) S1x512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg2) S1x512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v0) S1x1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v1) S1x1x512.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg5) S1x1024x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v5) S1024x512.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4x4096x4096 : Shape := ⟨3, ![4, 4096, 4096]⟩
abbrev S4x4096 : Shape := ⟨2, ![4, 4096]⟩
abbrev S1x4096x4096 : Shape := ⟨3, ![1, 4096, 4096]⟩
abbrev S1x4096 : Shape := ⟨2, ![1, 4096]⟩
abbrev S4096 : Shape := ⟨1, ![4096]⟩
abbrev S_ : Shape := ⟨0, ![]⟩
abbrev S4096x16384 : Shape := ⟨2, ![4096, 16384]⟩

abbrev nBuf : Space → Nat
  | .hbm => 99
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096x4096, .f32⟩
  | .hbm, ⟨2, _⟩ => ⟨S4x4096x4096, .f32⟩
  | .hbm, ⟨3, _⟩ => ⟨S4x4096, .f32⟩
  | .hbm, ⟨4, _⟩ => ⟨S4x4096, .f32⟩
  | .hbm, ⟨5, _⟩ => ⟨S4x4096x4096, .f32⟩
  | .hbm, ⟨6, _⟩ => ⟨S1x4096x4096, .f32⟩
  | .hbm, ⟨7, _⟩ => ⟨S4096x4096, .f32⟩
  | .hbm, ⟨8, _⟩ => ⟨S1x4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S1x4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S1x4096x4096, .f32⟩
  | .hbm, ⟨30, _⟩ => ⟨S4096x4096, .f32⟩
  | .hbm, ⟨31, _⟩ => ⟨S1x4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S1x4096, .f32⟩
  | .hbm, ⟨39, _⟩ => ⟨S4096, .f32⟩
  | .hbm, ⟨40, _⟩ => ⟨S1x4096, .f32⟩
  | .hbm, ⟨41, _⟩ => ⟨S1x4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S_, .f32⟩
  | .hbm, ⟨50, _⟩ => ⟨S4096x4096, .f32⟩
  | .hbm, ⟨51, _⟩ => ⟨S4096x4096, .f32⟩
  | .hbm, ⟨52, _⟩ => ⟨S1x4096x4096, .f32⟩
  | .hbm, ⟨53, _⟩ => ⟨S4096x4096, .f32⟩
  | .hbm, ⟨54, _⟩ => ⟨S1x4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S1x4096, .f32⟩
  | .hbm, ⟨59, _⟩ => ⟨S4096, .f32⟩
  | .hbm, ⟨60, _⟩ => ⟨S1x4096, .f32⟩
  | .hbm, ⟨61, _⟩ => ⟨S1x4096, .f32⟩
  | .hbm, ⟨62, _⟩ => ⟨S4096, .f32⟩
  | .hbm, ⟨63, _⟩ => ⟨S1x4096, .f32⟩
  | .hbm, ⟨64, _⟩ => ⟨S1x4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S4096x4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096x4096, .f32⟩
  | .hbm, ⟨74, _⟩ => ⟨S4096x4096, .f32⟩
  | .hbm, ⟨75, _⟩ => ⟨S1x4096x4096, .f32⟩
  | .hbm, ⟨76, _⟩ => ⟨S4096x4096, .f32⟩
  | .hbm, ⟨77, _⟩ => ⟨S1x4096x4096, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S1x4096, .f32⟩
  | .hbm, ⟨82, _⟩ => ⟨S4096, .f32⟩
  | .hbm, ⟨83, _⟩ => ⟨S1x4096, .f32⟩
  | .hbm, ⟨84, _⟩ => ⟨S1x4096, .f32⟩
  | .hbm, ⟨85, _⟩ => ⟨S4096, .f32⟩
  | .hbm, ⟨86, _⟩ => ⟨S1x4096, .f32⟩
  | .hbm, ⟨87, _⟩ => ⟨S1x4096x4096, .f32⟩
  | .hbm, ⟨88, _⟩ => ⟨S4096x4096, .f32⟩
  | .hbm, ⟨89, _⟩ => ⟨S4096x4096, .f32⟩
  | .hbm, ⟨90, _⟩ => ⟨S4096x4096, .f32⟩
  | .hbm, ⟨91, _⟩ => ⟨S4096x4096, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096x4096, .f32⟩
  | .hbm, ⟨97, _⟩ => ⟨S4096x4096, .f32⟩
  | .hbm, ⟨98, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_cst : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_call1_cst : Ref sig .tc := ⟨.hbm, 49, rfl⟩
abbrev main_call1_v0 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_call2_cst : Ref sig .tc := ⟨.hbm, 72, rfl⟩
abbrev main_call2_v0 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_call3_cst : Ref sig .tc := ⟨.hbm, 95, rfl⟩
abbrev main_call3_v0 : Ref sig .tc := ⟨.hbm, 96, rfl⟩
abbrev main_v83 : Ref sig .tc := ⟨.hbm, 97, rfl⟩
abbrev main_v84 : Ref sig .tc := ⟨.hbm, 98, rfl⟩

abbrev nD : Nat := 1
abbrev τ : Topo := Topo.v7x

variable {F : FTy → Type} [FloatOps F]

class Facts₀ : Prop where
  slices_S4x4096x4096_S1x4096x4096_0_0_0 : S4x4096x4096.Slices ![0, 0, 0] S1x4096x4096
  shapeCasts_S1x4096x4096_S4096x4096 : S1x4096x4096.ShapeCasts S4096x4096
  slices_S4x4096_S1x4096_0_0 : S4x4096.Slices ![0, 0] S1x4096
  shapeCasts_S1x4096_S4096 : S1x4096.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4x4096x4096_S1x4096x4096_1_0_0 : S4x4096x4096.Slices ![1, 0, 0] S1x4096x4096
  slices_S4x4096_S1x4096_1_0 : S4x4096.Slices ![1, 0] S1x4096
  slices_S4x4096x4096_S1x4096x4096_2_0_0 : S4x4096x4096.Slices ![2, 0, 0] S1x4096x4096
  slices_S4x4096_S1x4096_2_0 : S4x4096.Slices ![2, 0] S1x4096
  slices_S4x4096x4096_S1x4096x4096_3_0_0 : S4x4096x4096.Slices ![3, 0, 0] S1x4096x4096
  slices_S4x4096_S1x4096_3_0 : S4x4096.Slices ![3, 0] S1x4096
  concatenates_S4096x4096_S4096x4096_S4096x4096_S4096x4096_S4096x16384_d1 : Shape.Concatenates [S4096x4096, S4096x4096, S4096x4096, S4096x4096] S4096x16384 1
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.K_R0Base.lean ====
/-
  Region 0 (the first layer's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, from the grid coordinates -/

/-- "k = 0", as the body computes it. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from k = 3 the output window is idle and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At k = 3 it is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0 : Memref sig .tc .vmem S1024x512 .f32 := Memref.whole cc0_scratch0
/-- Views through which the output block's and the accumulator's contents are stated. -/
abbrev VO0 : View sig .tc .vmem S1024x512 .f32 := (Memref.whole cc0_stg6_0 : Memref sig .tc .vmem S1024x512 .f32).view
abbrev VS0 : View sig .tc .vmem S1024x512 .f32 := scM0.view

/-- The other scoped buffers that are no staging buffer (each at some contents): what rides beside the accumulator. -/
abbrev But0 (c : Dev nD) : sProp 𝕄 :=
  Pipeline.scopedRestBut (Ix := Unit) (Name := ℕ) (U := UR sig nD τ) (Lvl := ℕ) (Val := Elt F) spec0 c [cc0_scratch0]

/-- What the launch hands the region, with the accumulator split out at some contents. -/
theorem PhiA0_eq (c : Dev nD) :
    (Pipeline.ΦA spec0 c : sProp 𝕄) = iprop(((∃ d, owns (c : Thread nD τ) scM0 fullShare d) ∗ But0 c) ∗ ∃ r, prngReg c r) := by
  unfold Pipeline.ΦA; rw [scopedRest0_split]; simp only [scM0, owns_whole]; try rfl

end Cert.Kernel.Hand

end
-- ==== Proof.K_R0RunA.lean ====
/-
  Region 0: the body at a grid point where k = 0: the accumulator is reset to zero and the first tile's product is added.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R0Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun0_A (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc0__scm_mlp_layer_kernel_eq_skeleton]; unfold cc0__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R0RunB.lean ====
/-
  Region 0: the body at a grid point where k = 1 or 2: one tile's product is added to the accumulator.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R0Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun0_B (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc0__scm_mlp_layer_kernel_eq_skeleton]; unfold cc0__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R0RunC.lean ====
/-
  Region 0: the body at a grid point where k = 3: the last tile's product is added and the rectified sum plus noise is written into the output block.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R0Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨?_, ?_, fun E K => ?run⟩
  case run =>
    simp only [cc0__scm_mlp_layer_kernel_eq_skeleton]; unfold cc0__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.Kernel.Hand

end
-- ==== Proof.K_R0Dat.lean ====
/-
  Region 0: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R0RunA
import proofs.«151625_j49460843381367_2_alg».proof.Proof.K_R0RunB
import proofs.«151625_j49460843381367_2_alg».proof.Proof.K_R0RunC
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (an unfetched window's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (an unfetched window's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (an unfetched window's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (an unfetched window's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (an unfetched window's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The stores cover the buffers they write -/

theorem scover0_A (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun0_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun0_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover0_B (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun0_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun0_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun0_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun0_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun0_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun0_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut0 : Vec F S1024x512 .f32 := VO0.read (Elt F) VO0.junk

/-- What the output block's staging buffer and the accumulator hold after the body at position `n`. -/
def outsAt0 (c : Dev nD) : (n : ℕ) → n < cfg0.N → Vec F S1024x512 .f32 × Vec F S1024x512 .f32
  | 0, hn => (idleOut0, VS0.read (Elt F) (VS0.writes (Elt F) VS0.junk ((kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)).2.1)))
  | n + 1, hn =>
    if h0 : (n + 1) % 4 = 0 then
      if h1 : (n + 1) % 4 = 3 then
        False.elim (by omega)
      else
        (idleOut0, VS0.read (Elt F) (VS0.writes (Elt F) VS0.junk ((kernelRun0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)).2.1)))
    else
      if h1 : (n + 1) % 4 = 3 then
        (VO0.read (Elt F) (VO0.writes (Elt F) VO0.junk ((kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2).1)), VS0.read (Elt F) (VS0.writes (Elt F) VS0.junk ((kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2).2.1)))
      else
        (idleOut0, VS0.read (Elt F) (VS0.writes (Elt F) VS0.junk ((kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2).2.1)))

theorem outsAt0_A (c : Dev nD) (t : Fin cfg0.N) (h0 : t.val % 4 = 0) (h1 : ¬t.val % 4 = 3) :
    outsAt0 V c t.val t.isLt = (idleOut0, VS0.read (Elt F) (VS0.writes (Elt F) VS0.junk ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.1))) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idleOut0, VS0.read (Elt F) (VS0.writes (Elt F) VS0.junk ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (VO0.read (Elt F) (VO0.writes (Elt F) VO0.junk ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).1)), VS0.read (Elt F) (VS0.writes (Elt F) VS0.junk ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ But0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ But0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ But0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_A V c t h0 h1]
      (try dsimp only)
      by_cases hz : t.val = 0
      · rw [PhiS0_castSucc V c t, PhiS0_zero V c _ _ hz, PhiA0_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover0_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover0_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover0_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C c _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover0_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, HB⟩, Hg⟩
  isplitl [HS HB]
  · isplitl [HS]
    · iexists _; iexact HS
    iexact HB
  iexact Hg

end Region

end Cert.Kernel.Hand

end
-- ==== Proof.K_R1Base.lean ====
/-
  Region 1 (layer 1's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, from the grid coordinates -/

/-- "k = 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from k = 3 the output window is idle and its block is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At k = 3 it is live. -/
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1 : Memref sig .tc .vmem S1024x512 .f32 := Memref.whole cc1_scratch0
/-- Views through which the output block's and the accumulator's contents are stated. -/
abbrev VO1 : View sig .tc .vmem S1024x512 .f32 := (Memref.whole cc1_stg6_0 : Memref sig .tc .vmem S1024x512 .f32).view
abbrev VS1 : View sig .tc .vmem S1024x512 .f32 := scM1.view

/-- The other scoped buffers that are no staging buffer (each at some contents): what rides beside the accumulator. -/
abbrev But1 (c : Dev nD) : sProp 𝕄 :=
  Pipeline.scopedRestBut (Ix := Unit) (Name := ℕ) (U := UR sig nD τ) (Lvl := ℕ) (Val := Elt F) spec1 c [cc1_scratch0]

/-- What the launch hands the region, with the accumulator split out at some contents. -/
theorem PhiA1_eq (c : Dev nD) :
    (Pipeline.ΦA spec1 c : sProp 𝕄) = iprop(((∃ d, owns (c : Thread nD τ) scM1 fullShare d) ∗ But1 c) ∗ ∃ r, prngReg c r) := by
  unfold Pipeline.ΦA; rw [scopedRest1_split]; simp only [scM1, owns_whole]; try rfl

end Cert.Kernel.Hand

end
-- ==== Proof.K_R1RunA.lean ====
/-
  Region 1: the body at a grid point where k = 0: the accumulator is reset to zero and the first tile's product is added.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R1Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun1_A (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond1_0 i) (hc1 : ¬cond1_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc1__scm_mlp_layer_kernel_eq_skeleton]; unfold cc1__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R1RunB.lean ====
/-
  Region 1: the body at a grid point where k = 1 or 2: one tile's product is added to the accumulator.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R1Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun1_B (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : ¬cond1_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc1__scm_mlp_layer_kernel_eq_skeleton]; unfold cc1__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R1RunC.lean ====
/-
  Region 1: the body at a grid point where k = 3: the last tile's product is added and the rectified sum plus noise is written into the output block.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R1Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨?_, ?_, fun E K => ?run⟩
  case run =>
    simp only [cc1__scm_mlp_layer_kernel_eq_skeleton]; unfold cc1__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.Kernel.Hand

end
-- ==== Proof.K_R1Dat.lean ====
/-
  Region 1: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R1RunA
import proofs.«151625_j49460843381367_2_alg».proof.Proof.K_R1RunB
import proofs.«151625_j49460843381367_2_alg».proof.Proof.K_R1RunC
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched window's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (an unfetched window's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (an unfetched window's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (an unfetched window's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (an unfetched window's index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (an unfetched window's index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The stores cover the buffers they write -/

theorem scover1_A (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond1_0 i) (hc1 : ¬cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun1_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun1_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover1_B (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : ¬cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun1_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun1_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun1_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun1_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun1_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun1_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut1 : Vec F S1024x512 .f32 := VO1.read (Elt F) VO1.junk

/-- What the output block's staging buffer and the accumulator hold after the body at position `n`. -/
def outsAt1 (c : Dev nD) : (n : ℕ) → n < cfg1.N → Vec F S1024x512 .f32 × Vec F S1024x512 .f32
  | 0, hn => (idleOut1, VS1.read (Elt F) (VS1.writes (Elt F) VS1.junk ((kernelRun1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)).2.1)))
  | n + 1, hn =>
    if h0 : (n + 1) % 4 = 0 then
      if h1 : (n + 1) % 4 = 3 then
        False.elim (by omega)
      else
        (idleOut1, VS1.read (Elt F) (VS1.writes (Elt F) VS1.junk ((kernelRun1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)).2.1)))
    else
      if h1 : (n + 1) % 4 = 3 then
        (VO1.read (Elt F) (VO1.writes (Elt F) VO1.junk ((kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2).1)), VS1.read (Elt F) (VS1.writes (Elt F) VS1.junk ((kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2).2.1)))
      else
        (idleOut1, VS1.read (Elt F) (VS1.writes (Elt F) VS1.junk ((kernelRun1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2).2.1)))

theorem outsAt1_A (c : Dev nD) (t : Fin cfg1.N) (h0 : t.val % 4 = 0) (h1 : ¬t.val % 4 = 3) :
    outsAt1 V c t.val t.isLt = (idleOut1, VS1.read (Elt F) (VS1.writes (Elt F) VS1.junk ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.1))) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleOut1, VS1.read (Elt F) (VS1.writes (Elt F) VS1.junk ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (VO1.read (Elt F) (VO1.writes (Elt F) VO1.junk ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).1)), VS1.read (Elt F) (VS1.writes (Elt F) VS1.junk ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ But1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ But1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ But1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      (try dsimp only)
      by_cases hz : t.val = 0
      · rw [PhiS1_castSucc V c t, PhiS1_zero V c _ _ hz, PhiA1_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover1_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover1_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HB⟩, Hg⟩
  isplitl [HS HB]
  · isplitl [HS]
    · iexists _; iexact HS
    iexact HB
  iexact Hg

end Region

end Cert.Kernel.Hand

end
-- ==== Proof.K_R2Base.lean ====
/-
  Region 2 (layer 2's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, from the grid coordinates -/

/-- "k = 0", as the body computes it. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3", as the body computes it. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from k = 3 the output window is idle and its block is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At k = 3 it is live. -/
theorem liveAt2_6 : ∀ t : Fin cfg2.N, cond2_1 (grid2.coords t) → cfg2.idle 6 (grid2.coords t) = false := by decide +kernel

/-! ## The memrefs the body is called with -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .f32 := win2_6.stage (cfg2.slots t 6)
abbrev hs2_6 (t : Fin cfg2.N) : (ms2_6 t).IsWhole := hstage2_6 ((cfg2.slots t 6).cast nbuf2_6)
/-- The accumulator: a whole scoped buffer of the kernel's own. -/
abbrev scM2 : Memref sig .tc .vmem S1024x512 .f32 := Memref.whole cc2_scratch0
/-- Views through which the output block's and the accumulator's contents are stated. -/
abbrev VO2 : View sig .tc .vmem S1024x512 .f32 := (Memref.whole cc2_stg6_0 : Memref sig .tc .vmem S1024x512 .f32).view
abbrev VS2 : View sig .tc .vmem S1024x512 .f32 := scM2.view

/-- The other scoped buffers that are no staging buffer (each at some contents): what rides beside the accumulator. -/
abbrev But2 (c : Dev nD) : sProp 𝕄 :=
  Pipeline.scopedRestBut (Ix := Unit) (Name := ℕ) (U := UR sig nD τ) (Lvl := ℕ) (Val := Elt F) spec2 c [cc2_scratch0]

/-- What the launch hands the region, with the accumulator split out at some contents. -/
theorem PhiA2_eq (c : Dev nD) :
    (Pipeline.ΦA spec2 c : sProp 𝕄) = iprop(((∃ d, owns (c : Thread nD τ) scM2 fullShare d) ∗ But2 c) ∗ ∃ r, prngReg c r) := by
  unfold Pipeline.ΦA; rw [scopedRest2_split]; simp only [scM2, owns_whole]; try rfl

end Cert.Kernel.Hand

end
-- ==== Proof.K_R2RunA.lean ====
/-
  Region 2: the body at a grid point where k = 0: the accumulator is reset to zero and the first tile's product is added.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R2Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun2_A (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond2_0 i) (hc1 : ¬cond2_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc2__scm_mlp_layer_kernel_eq_skeleton]; unfold cc2__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R2RunB.lean ====
/-
  Region 2: the body at a grid point where k = 1 or 2: one tile's product is added to the accumulator.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R2Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun2_B (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : ¬cond2_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc2__scm_mlp_layer_kernel_eq_skeleton]; unfold cc2__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R2RunC.lean ====
/-
  Region 2: the body at a grid point where k = 3: the last tile's product is added and the rectified sum plus noise is written into the output block.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R2Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨?_, ?_, fun E K => ?run⟩
  case run =>
    simp only [cc2__scm_mlp_layer_kernel_eq_skeleton]; unfold cc2__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.Kernel.Hand

end
-- ==== Proof.K_R2Dat.lean ====
/-
  Region 2: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R2RunA
import proofs.«151625_j49460843381367_2_alg».proof.Proof.K_R2RunB
import proofs.«151625_j49460843381367_2_alg».proof.Proof.K_R2RunC
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched window's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (an unfetched window's index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (an unfetched window's index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (an unfetched window's index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (an unfetched window's index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (an unfetched window's index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The stores cover the buffers they write -/

theorem scover2_A (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond2_0 i) (hc1 : ¬cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun2_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun2_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover2_B (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : ¬cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun2_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun2_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun2_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun2_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun2_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun2_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut2 : Vec F S1024x512 .f32 := VO2.read (Elt F) VO2.junk

/-- What the output block's staging buffer and the accumulator hold after the body at position `n`. -/
def outsAt2 (c : Dev nD) : (n : ℕ) → n < cfg2.N → Vec F S1024x512 .f32 × Vec F S1024x512 .f32
  | 0, hn => (idleOut2, VS2.read (Elt F) (VS2.writes (Elt F) VS2.junk ((kernelRun2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)).2.1)))
  | n + 1, hn =>
    if h0 : (n + 1) % 4 = 0 then
      if h1 : (n + 1) % 4 = 3 then
        False.elim (by omega)
      else
        (idleOut2, VS2.read (Elt F) (VS2.writes (Elt F) VS2.junk ((kernelRun2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)).2.1)))
    else
      if h1 : (n + 1) % 4 = 3 then
        (VO2.read (Elt F) (VO2.writes (Elt F) VO2.junk ((kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2).1)), VS2.read (Elt F) (VS2.writes (Elt F) VS2.junk ((kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2).2.1)))
      else
        (idleOut2, VS2.read (Elt F) (VS2.writes (Elt F) VS2.junk ((kernelRun2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2).2.1)))

theorem outsAt2_A (c : Dev nD) (t : Fin cfg2.N) (h0 : t.val % 4 = 0) (h1 : ¬t.val % 4 = 3) :
    outsAt2 V c t.val t.isLt = (idleOut2, VS2.read (Elt F) (VS2.writes (Elt F) VS2.junk ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.1))) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (idleOut2, VS2.read (Elt F) (VS2.writes (Elt F) VS2.junk ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (VO2.read (Elt F) (VO2.writes (Elt F) VO2.junk ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).1)), VS2.read (Elt F) (VS2.writes (Elt F) VS2.junk ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ But2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ But2 c) ∗ (∃ r, prngReg c r)) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ But2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_A V c t h0 h1]
      (try dsimp only)
      by_cases hz : t.val = 0
      · rw [PhiS2_castSucc V c t, PhiS2_zero V c _ _ hz, PhiA2_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover2_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover2_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      (try dsimp only)
      rw [PhiS2_castSucc V c t, PhiS2_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover2_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C c _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_B V c t h0 h1]
      (try dsimp only)
      rw [PhiS2_castSucc V c t, PhiS2_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover2_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, HB⟩, Hg⟩
  isplitl [HS HB]
  · isplitl [HS]
    · iexists _; iexact HS
    iexact HB
  iexact Hg

end Region

end Cert.Kernel.Hand

end
-- ==== Proof.K_R3Base.lean ====
/-
  Region 3 (layer 3's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions of the body, from the grid coordinates -/

/-- "k = 0", as the body computes it. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "k = 3", as the body computes it. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
/-- Away from k = 3 the output window is idle and its block is not written back. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- At k = 3 it is live. -/
theorem liveAt3_6 : ∀ t : Fin cfg3.N, cond3_1 (grid3.coords t) → cfg3.idle 6 (grid3.coords t) = false := by decide +kernel

/-! ## The memrefs the body is called with -/

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1024x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x512 .f32 := win3_6.stage (cfg3.slots t 6)
abbrev hs3_6 (t : Fin cfg3.N) : (ms3_6 t).IsWhole := hstage3_6 ((cfg3.slots t 6).cast nbuf3_6)
/-- The accumulator: a whole scoped buffer of the kernel's own. -/
abbrev scM3 : Memref sig .tc .vmem S1024x512 .f32 := Memref.whole cc3_scratch0
/-- Views through which the output block's and the accumulator's contents are stated. -/
abbrev VO3 : View sig .tc .vmem S1024x512 .f32 := (Memref.whole cc3_stg6_0 : Memref sig .tc .vmem S1024x512 .f32).view
abbrev VS3 : View sig .tc .vmem S1024x512 .f32 := scM3.view

/-- The other scoped buffers that are no staging buffer (each at some contents): what rides beside the accumulator. -/
abbrev But3 (c : Dev nD) : sProp 𝕄 :=
  Pipeline.scopedRestBut (Ix := Unit) (Name := ℕ) (U := UR sig nD τ) (Lvl := ℕ) (Val := Elt F) spec3 c [cc3_scratch0]

/-- What the launch hands the region, with the accumulator split out at some contents. -/
theorem PhiA3_eq (c : Dev nD) :
    (Pipeline.ΦA spec3 c : sProp 𝕄) = iprop(((∃ d, owns (c : Thread nD τ) scM3 fullShare d) ∗ But3 c) ∗ ∃ r, prngReg c r) := by
  unfold Pipeline.ΦA; rw [scopedRest3_split]; simp only [scM3, owns_whole]; try rfl

end Cert.Kernel.Hand

end
-- ==== Proof.K_R3RunA.lean ====
/-
  Region 3: the body at a grid point where k = 0: the accumulator is reset to zero and the first tile's product is added.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R3Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun3_A (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond3_0 i) (hc1 : ¬cond3_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc3__scm_mlp_layer_kernel_eq_skeleton]; unfold cc3__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R3RunB.lean ====
/-
  Region 3: the body at a grid point where k = 1 or 2: one tile's product is added to the accumulator.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R3Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun3_B (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : ¬cond3_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc3__scm_mlp_layer_kernel_eq_skeleton]; unfold cc3__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.Kernel.Hand

end
-- ==== Proof.K_R3RunC.lean ====
/-
  Region 3: the body at a grid point where k = 3: the last tile's product is added and the rectified sum plus noise is written into the output block.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R3Base
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨?_, ?_, fun E K => ?run⟩
  case run =>
    simp only [cc3__scm_mlp_layer_kernel_eq_skeleton]; unfold cc3__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.Kernel.Hand

end
-- ==== Proof.K_R3Dat.lean ====
/-
  Region 3: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R3RunA
import proofs.«151625_j49460843381367_2_alg».proof.Proof.K_R3RunB
import proofs.«151625_j49460843381367_2_alg».proof.Proof.K_R3RunC
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (an unfetched window's index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (an unfetched window's index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (an unfetched window's index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (an unfetched window's index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (an unfetched window's index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (an unfetched window's index has not moved). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The stores cover the buffers they write -/

theorem scover3_A (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond3_0 i) (hc1 : ¬cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun3_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun3_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover3_B (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : ¬cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun3_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun3_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun3_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun3_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun3_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun3_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut3 : Vec F S1024x512 .f32 := VO3.read (Elt F) VO3.junk

/-- What the output block's staging buffer and the accumulator hold after the body at position `n`. -/
def outsAt3 (c : Dev nD) : (n : ℕ) → n < cfg3.N → Vec F S1024x512 .f32 × Vec F S1024x512 .f32
  | 0, hn => (idleOut3, VS3.read (Elt F) (VS3.writes (Elt F) VS3.junk ((kernelRun3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩)).2.1)))
  | n + 1, hn =>
    if h0 : (n + 1) % 4 = 0 then
      if h1 : (n + 1) % 4 = 3 then
        False.elim (by omega)
      else
        (idleOut3, VS3.read (Elt F) (VS3.writes (Elt F) VS3.junk ((kernelRun3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩)).2.1)))
    else
      if h1 : (n + 1) % 4 = 3 then
        (VO3.read (Elt F) (VO3.writes (Elt F) VO3.junk ((kernelRun3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2).1)), VS3.read (Elt F) (VS3.writes (Elt F) VS3.junk ((kernelRun3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2).2.1)))
      else
        (idleOut3, VS3.read (Elt F) (VS3.writes (Elt F) VS3.junk ((kernelRun3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2).2.1)))

theorem outsAt3_A (c : Dev nD) (t : Fin cfg3.N) (h0 : t.val % 4 = 0) (h1 : ¬t.val % 4 = 3) :
    outsAt3 V c t.val t.isLt = (idleOut3, VS3.read (Elt F) (VS3.writes (Elt F) VS3.junk ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)).2.1))) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (idleOut3, VS3.read (Elt F) (VS3.writes (Elt F) VS3.junk ((kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (VO3.read (Elt F) (VO3.writes (Elt F) VO3.junk ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2).1)), VS3.read (Elt F) (VS3.writes (Elt F) VS3.junk ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS3 (c : Dev nD) : (n : ℕ) → n ≤ cfg3.N → sProp 𝕄
  | 0, _ => Pipeline.ΦA spec3 c
  | n + 1, hn => iprop((owns (c : Thread nD τ) scM3 fullShare ((outsAt3 V c n hn).2) ∗ But3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((owns (c : Thread nD τ) scM3 fullShare ((outsAt3 V c n hn).2) ∗ But3 c) ∗ (∃ r, prngReg c r)) := rfl
theorem PhiS3_pos (c : Dev nD) (n : ℕ) (h : n ≤ cfg3.N) (hz : n ≠ 0) :
    PhiS3 V c n h = iprop((owns (c : Thread nD τ) scM3 fullShare ((outsAt3 V c (n - 1) (by omega)).2) ∗ But3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 4 = 0
  · by_cases h1 : t.val % 4 = 3
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6 t (fun h => h1 ((hcond3_1 t).mp h))) (noFlush3_6 t (fun h => h1 ((hcond3_1 t).mp h)))]
      rw [outsAt3_A V c t h0 h1]
      (try dsimp only)
      by_cases hz : t.val = 0
      · rw [PhiS3_castSucc V c t, PhiS3_zero V c _ _ hz, PhiA3_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover3_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS3_castSucc V c t, PhiS3_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover3_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6 t ((hcond3_1 t).mpr h1)], after3_6]
      rw [outsAt3_C V c t h0 h1]
      (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover3_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover3_C c _ _ _ _ _ _ _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6 t (fun h => h1 ((hcond3_1 t).mp h))) (noFlush3_6 t (fun h => h1 ((hcond3_1 t).mp h)))]
      rw [outsAt3_B V c t h0 h1]
      (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover3_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the plain one back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 128 := N_3; omega), PhiA3_eq]
  iintro ⟨⟨HS, HB⟩, Hg⟩
  isplitl [HS HB]
  · isplitl [HS]
    · iexists _; iexact HS
    iexact HB
  iexact Hg

end Region

end Cert.Kernel.Hand

end
-- ==== Proof.K_Main.lean ====
/-
  The whole program as six segments — the two reshapes, the four layers' regions back to back, the concatenation — and what
  every buffer outside the regions' scopes holds at each boundary between them.

  The boundary contents are a fold from the launch memory: after the reshapes; then, after each region, that region's arrays at
  what its pipeline leaves (its inputs as entered, its output at the write-backs folded) and everything else as entered;
  last, after the concatenation. Each region's proof data is stated at its own entry contents. The run: every weakly fair
  execution terminates and ends with every such buffer at the last boundary's contents — which gives at once that the six
  arguments end as launched, and what the result buffer holds: the concatenation of the four regions' outputs, each the
  write-backs of its region folded over what it found.
-/
import proofs.«151625_j49460843381367_2_alg».proof.Proof.Gen.Kernel.Launch
import proofs.«151625_j49460843381367_2_alg».proof.Proof.Gen.Kernel.Skeleton
import proofs.«151625_j49460843381367_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.K_R0Dat
import proofs.«151625_j49460843381367_2_alg».proof.Proof.K_R1Dat
import proofs.«151625_j49460843381367_2_alg».proof.Proof.K_R2Dat
import proofs.«151625_j49460843381367_2_alg».proof.Proof.K_R3Dat
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the two reshapes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- At region 1's exit: its arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- At region 2's exit: its arrays at what its pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- An input window's array leaves the region as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-- At region 3's exit: its arrays at what its pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- An input window's array leaves the region as it entered. -/
theorem W5_in (c : Dev nD) (w : Fin cfg3.W) (hw : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hw _).trans (A_eq3 (V4 m ρ) c w))

/-- After the concatenation. -/
abbrev W6 : Dev nD → Valuation τ sig (Elt F) := fun c => StableHlo.after hostOps4 (W5 m ρ c)

/-! ## What the boundaries keep -/

theorem hostOps0_fresh : (hostOps0 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- The reshapes write only their two results. -/
theorem W1_of (c : Dev nD) (r : Ref sig .tc) (h : r ∉ ([main_v0, main_v1] : List (Ref sig .tc))) :
    W1 m ρ c (Proc.devRef .tc r) = W0 m ρ c (Proc.devRef .tc r) :=
  StableHlo.after_of_writes_sub hostOps0 _ (by
    simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩) h
/-- The concatenation writes only the result. -/
theorem W6_of (c : Dev nD) (r : Ref sig .tc) (h : r ∉ ([main_v6] : List (Ref sig .tc))) :
    W6 m ρ c (Proc.devRef .tc r) = W5 m ρ c (Proc.devRef .tc r) :=
  StableHlo.after_of_writes_sub hostOps4 _ (by
    simp only [List.Forall]; exact (by simp only [StableHlo.nary_writes, Finset.singleton_subset_iff, List.mem_toFinset]; exact List.mem_map_of_mem (by decide))) h
theorem W2_main_arg0 (c : Dev nD) : W2 m ρ c (Proc.devRef .tc main_arg0) = W1 m ρ c (Proc.devRef .tc main_arg0) := W2_in m ρ c 0 rfl
theorem W2_main_arg1 (c : Dev nD) : W2 m ρ c (Proc.devRef .tc main_arg1) = W1 m ρ c (Proc.devRef .tc main_arg1) := W2_in m ρ c 1 rfl
theorem W2_main_arg2 (c : Dev nD) : W2 m ρ c (Proc.devRef .tc main_arg2) = W1 m ρ c (Proc.devRef .tc main_arg2) := W2_in m ρ c 2 rfl
theorem W2_main_arg3 (c : Dev nD) : W2 m ρ c (Proc.devRef .tc main_arg3) = W1 m ρ c (Proc.devRef .tc main_arg3) := W2_of_ne m ρ c main_arg3 (by decide)
theorem W2_main_arg4 (c : Dev nD) : W2 m ρ c (Proc.devRef .tc main_arg4) = W1 m ρ c (Proc.devRef .tc main_arg4) := W2_of_ne m ρ c main_arg4 (by decide)
theorem W2_main_arg5 (c : Dev nD) : W2 m ρ c (Proc.devRef .tc main_arg5) = W1 m ρ c (Proc.devRef .tc main_arg5) := W2_in m ρ c 5 rfl
theorem W2_main_v0 (c : Dev nD) : W2 m ρ c (Proc.devRef .tc main_v0) = W1 m ρ c (Proc.devRef .tc main_v0) := W2_in m ρ c 3 rfl
theorem W2_main_v1 (c : Dev nD) : W2 m ρ c (Proc.devRef .tc main_v1) = W1 m ρ c (Proc.devRef .tc main_v1) := W2_in m ρ c 4 rfl
theorem W2_main_v3 (c : Dev nD) : W2 m ρ c (Proc.devRef .tc main_v3) = W1 m ρ c (Proc.devRef .tc main_v3) := W2_of_ne m ρ c main_v3 (by decide)
theorem W2_main_v4 (c : Dev nD) : W2 m ρ c (Proc.devRef .tc main_v4) = W1 m ρ c (Proc.devRef .tc main_v4) := W2_of_ne m ρ c main_v4 (by decide)
theorem W2_main_v5 (c : Dev nD) : W2 m ρ c (Proc.devRef .tc main_v5) = W1 m ρ c (Proc.devRef .tc main_v5) := W2_of_ne m ρ c main_v5 (by decide)
theorem W2_main_v2 (c : Dev nD) : W2 m ρ c (Proc.devRef .tc main_v2) = (dat0 (V1 m ρ) c).arrAt 6 cfg0.N := W2_arr m ρ c 6
theorem W3_main_arg0 (c : Dev nD) : W3 m ρ c (Proc.devRef .tc main_arg0) = W2 m ρ c (Proc.devRef .tc main_arg0) := W3_of_ne m ρ c main_arg0 (by decide)
theorem W3_main_arg1 (c : Dev nD) : W3 m ρ c (Proc.devRef .tc main_arg1) = W2 m ρ c (Proc.devRef .tc main_arg1) := W3_in m ρ c 1 rfl
theorem W3_main_arg2 (c : Dev nD) : W3 m ρ c (Proc.devRef .tc main_arg2) = W2 m ρ c (Proc.devRef .tc main_arg2) := W3_in m ρ c 2 rfl
theorem W3_main_arg3 (c : Dev nD) : W3 m ρ c (Proc.devRef .tc main_arg3) = W2 m ρ c (Proc.devRef .tc main_arg3) := W3_of_ne m ρ c main_arg3 (by decide)
theorem W3_main_arg4 (c : Dev nD) : W3 m ρ c (Proc.devRef .tc main_arg4) = W2 m ρ c (Proc.devRef .tc main_arg4) := W3_of_ne m ρ c main_arg4 (by decide)
theorem W3_main_arg5 (c : Dev nD) : W3 m ρ c (Proc.devRef .tc main_arg5) = W2 m ρ c (Proc.devRef .tc main_arg5) := W3_in m ρ c 5 rfl
theorem W3_main_v0 (c : Dev nD) : W3 m ρ c (Proc.devRef .tc main_v0) = W2 m ρ c (Proc.devRef .tc main_v0) := W3_in m ρ c 3 rfl
theorem W3_main_v1 (c : Dev nD) : W3 m ρ c (Proc.devRef .tc main_v1) = W2 m ρ c (Proc.devRef .tc main_v1) := W3_in m ρ c 4 rfl
theorem W3_main_v2 (c : Dev nD) : W3 m ρ c (Proc.devRef .tc main_v2) = W2 m ρ c (Proc.devRef .tc main_v2) := W3_in m ρ c 0 rfl
theorem W3_main_v4 (c : Dev nD) : W3 m ρ c (Proc.devRef .tc main_v4) = W2 m ρ c (Proc.devRef .tc main_v4) := W3_of_ne m ρ c main_v4 (by decide)
theorem W3_main_v5 (c : Dev nD) : W3 m ρ c (Proc.devRef .tc main_v5) = W2 m ρ c (Proc.devRef .tc main_v5) := W3_of_ne m ρ c main_v5 (by decide)
theorem W3_main_v3 (c : Dev nD) : W3 m ρ c (Proc.devRef .tc main_v3) = (dat1 (V2 m ρ) c).arrAt 6 cfg1.N := W3_arr m ρ c 6
theorem W4_main_arg0 (c : Dev nD) : W4 m ρ c (Proc.devRef .tc main_arg0) = W3 m ρ c (Proc.devRef .tc main_arg0) := W4_of_ne m ρ c main_arg0 (by decide)
theorem W4_main_arg1 (c : Dev nD) : W4 m ρ c (Proc.devRef .tc main_arg1) = W3 m ρ c (Proc.devRef .tc main_arg1) := W4_in m ρ c 1 rfl
theorem W4_main_arg2 (c : Dev nD) : W4 m ρ c (Proc.devRef .tc main_arg2) = W3 m ρ c (Proc.devRef .tc main_arg2) := W4_in m ρ c 2 rfl
theorem W4_main_arg3 (c : Dev nD) : W4 m ρ c (Proc.devRef .tc main_arg3) = W3 m ρ c (Proc.devRef .tc main_arg3) := W4_of_ne m ρ c main_arg3 (by decide)
theorem W4_main_arg4 (c : Dev nD) : W4 m ρ c (Proc.devRef .tc main_arg4) = W3 m ρ c (Proc.devRef .tc main_arg4) := W4_of_ne m ρ c main_arg4 (by decide)
theorem W4_main_arg5 (c : Dev nD) : W4 m ρ c (Proc.devRef .tc main_arg5) = W3 m ρ c (Proc.devRef .tc main_arg5) := W4_in m ρ c 5 rfl
theorem W4_main_v0 (c : Dev nD) : W4 m ρ c (Proc.devRef .tc main_v0) = W3 m ρ c (Proc.devRef .tc main_v0) := W4_in m ρ c 3 rfl
theorem W4_main_v1 (c : Dev nD) : W4 m ρ c (Proc.devRef .tc main_v1) = W3 m ρ c (Proc.devRef .tc main_v1) := W4_in m ρ c 4 rfl
theorem W4_main_v2 (c : Dev nD) : W4 m ρ c (Proc.devRef .tc main_v2) = W3 m ρ c (Proc.devRef .tc main_v2) := W4_of_ne m ρ c main_v2 (by decide)
theorem W4_main_v3 (c : Dev nD) : W4 m ρ c (Proc.devRef .tc main_v3) = W3 m ρ c (Proc.devRef .tc main_v3) := W4_in m ρ c 0 rfl
theorem W4_main_v5 (c : Dev nD) : W4 m ρ c (Proc.devRef .tc main_v5) = W3 m ρ c (Proc.devRef .tc main_v5) := W4_of_ne m ρ c main_v5 (by decide)
theorem W4_main_v4 (c : Dev nD) : W4 m ρ c (Proc.devRef .tc main_v4) = (dat2 (V3 m ρ) c).arrAt 6 cfg2.N := W4_arr m ρ c 6
theorem W5_main_arg0 (c : Dev nD) : W5 m ρ c (Proc.devRef .tc main_arg0) = W4 m ρ c (Proc.devRef .tc main_arg0) := W5_of_ne m ρ c main_arg0 (by decide)
theorem W5_main_arg1 (c : Dev nD) : W5 m ρ c (Proc.devRef .tc main_arg1) = W4 m ρ c (Proc.devRef .tc main_arg1) := W5_in m ρ c 1 rfl
theorem W5_main_arg2 (c : Dev nD) : W5 m ρ c (Proc.devRef .tc main_arg2) = W4 m ρ c (Proc.devRef .tc main_arg2) := W5_in m ρ c 2 rfl
theorem W5_main_arg3 (c : Dev nD) : W5 m ρ c (Proc.devRef .tc main_arg3) = W4 m ρ c (Proc.devRef .tc main_arg3) := W5_of_ne m ρ c main_arg3 (by decide)
theorem W5_main_arg4 (c : Dev nD) : W5 m ρ c (Proc.devRef .tc main_arg4) = W4 m ρ c (Proc.devRef .tc main_arg4) := W5_of_ne m ρ c main_arg4 (by decide)
theorem W5_main_arg5 (c : Dev nD) : W5 m ρ c (Proc.devRef .tc main_arg5) = W4 m ρ c (Proc.devRef .tc main_arg5) := W5_in m ρ c 5 rfl
theorem W5_main_v0 (c : Dev nD) : W5 m ρ c (Proc.devRef .tc main_v0) = W4 m ρ c (Proc.devRef .tc main_v0) := W5_in m ρ c 3 rfl
theorem W5_main_v1 (c : Dev nD) : W5 m ρ c (Proc.devRef .tc main_v1) = W4 m ρ c (Proc.devRef .tc main_v1) := W5_in m ρ c 4 rfl
theorem W5_main_v2 (c : Dev nD) : W5 m ρ c (Proc.devRef .tc main_v2) = W4 m ρ c (Proc.devRef .tc main_v2) := W5_of_ne m ρ c main_v2 (by decide)
theorem W5_main_v3 (c : Dev nD) : W5 m ρ c (Proc.devRef .tc main_v3) = W4 m ρ c (Proc.devRef .tc main_v3) := W5_of_ne m ρ c main_v3 (by decide)
theorem W5_main_v4 (c : Dev nD) : W5 m ρ c (Proc.devRef .tc main_v4) = W4 m ρ c (Proc.devRef .tc main_v4) := W5_in m ρ c 0 rfl
theorem W5_main_v5 (c : Dev nD) : W5 m ρ c (Proc.devRef .tc main_v5) = (dat3 (V4 m ρ) c).arrAt 6 cfg3.N := W5_arr m ρ c 6
/-- `main_arg0` reaches the end as launched. -/
theorem W6_main_arg0_launch (c : Dev nD) : W6 m ρ c (Proc.devRef .tc main_arg0) = m ((c : Thread nD τ).loc main_arg0) :=
  (W6_of m ρ c main_arg0 (by decide)).trans <| (W5_main_arg0 m ρ c).trans <| (W4_main_arg0 m ρ c).trans <| (W3_main_arg0 m ρ c).trans <| (W2_main_arg0 m ρ c).trans <| (W1_of m ρ c main_arg0 (by decide)).trans rfl
/-- `main_arg1` reaches the end as launched. -/
theorem W6_main_arg1_launch (c : Dev nD) : W6 m ρ c (Proc.devRef .tc main_arg1) = m ((c : Thread nD τ).loc main_arg1) :=
  (W6_of m ρ c main_arg1 (by decide)).trans <| (W5_main_arg1 m ρ c).trans <| (W4_main_arg1 m ρ c).trans <| (W3_main_arg1 m ρ c).trans <| (W2_main_arg1 m ρ c).trans <| (W1_of m ρ c main_arg1 (by decide)).trans rfl
/-- `main_arg2` reaches the end as launched. -/
theorem W6_main_arg2_launch (c : Dev nD) : W6 m ρ c (Proc.devRef .tc main_arg2) = m ((c : Thread nD τ).loc main_arg2) :=
  (W6_of m ρ c main_arg2 (by decide)).trans <| (W5_main_arg2 m ρ c).trans <| (W4_main_arg2 m ρ c).trans <| (W3_main_arg2 m ρ c).trans <| (W2_main_arg2 m ρ c).trans <| (W1_of m ρ c main_arg2 (by decide)).trans rfl
/-- `main_arg3` reaches the end as launched. -/
theorem W6_main_arg3_launch (c : Dev nD) : W6 m ρ c (Proc.devRef .tc main_arg3) = m ((c : Thread nD τ).loc main_arg3) :=
  (W6_of m ρ c main_arg3 (by decide)).trans <| (W5_main_arg3 m ρ c).trans <| (W4_main_arg3 m ρ c).trans <| (W3_main_arg3 m ρ c).trans <| (W2_main_arg3 m ρ c).trans <| (W1_of m ρ c main_arg3 (by decide)).trans rfl
/-- `main_arg4` reaches the end as launched. -/
theorem W6_main_arg4_launch (c : Dev nD) : W6 m ρ c (Proc.devRef .tc main_arg4) = m ((c : Thread nD τ).loc main_arg4) :=
  (W6_of m ρ c main_arg4 (by decide)).trans <| (W5_main_arg4 m ρ c).trans <| (W4_main_arg4 m ρ c).trans <| (W3_main_arg4 m ρ c).trans <| (W2_main_arg4 m ρ c).trans <| (W1_of m ρ c main_arg4 (by decide)).trans rfl
/-- `main_arg5` reaches the end as launched. -/
theorem W6_main_arg5_launch (c : Dev nD) : W6 m ρ c (Proc.devRef .tc main_arg5) = m ((c : Thread nD τ).loc main_arg5) :=
  (W6_of m ρ c main_arg5 (by decide)).trans <| (W5_main_arg5 m ρ c).trans <| (W4_main_arg5 m ρ c).trans <| (W3_main_arg5 m ρ c).trans <| (W2_main_arg5 m ρ c).trans <| (W1_of m ρ c main_arg5 (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. Its arrays are split out of the unscoped buffers
    and put back at the exit contents; the generator register and the scoped rest go into the invariant and come back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`. Its arrays are split out of the unscoped buffers
    and put back at the exit contents; the generator register and the scoped rest go into the invariant and come back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W3`, left at `W4`. Its arrays are split out of the unscoped buffers
    and put back at the exit contents; the generator register and the scoped rest go into the invariant and come back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from hout2 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W4`, left at `W5`. Its arrays are split out of the unscoped buffers
    and put back at the exit contents; the generator register and the scoped rest go into the invariant and come back;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    refine (show (pdats m ρ 3 c).Φ (Fin.last _) ⊢ Pipeline.ΦA spec3 c from hout3 (V4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ),
    .host (hseg hostOps4 hostOps4_sub hostOps4_fresh (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every buffer outside the regions' scopes at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0_launch m ρ c),
     (h c _ (mem_uc main_arg1 (by decide))).trans (W6_main_arg1_launch m ρ c),
     (h c _ (mem_uc main_arg2 (by decide))).trans (W6_main_arg2_launch m ρ c),
     (h c _ (mem_uc main_arg3 (by decide))).trans (W6_main_arg3_launch m ρ c),
     (h c _ (mem_uc main_arg4 (by decide))).trans (W6_main_arg4_launch m ρ c),
     (h c _ (mem_uc main_arg5 (by decide))).trans (W6_main_arg5_launch m ρ c)⟩) (run_all m ρ)

end Cert.Kernel.Hand

end
-- ==== Proof.KI_R0Base.lean ====
/-
  Region 0 (the first layer's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, from the grid coordinates -/

/-- "k = 0", as the body computes it. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "k = 3", as the body computes it. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from k = 3 the output window is idle and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
/-- At k = 3 it is live. -/
theorem liveAt0_6 : ∀ t : Fin cfg0.N, cond0_1 (grid0.coords t) → cfg0.idle 6 (grid0.coords t) = false := by decide +kernel

/-! ## The memrefs the body is called with -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x512 .f32 := win0_6.stage (cfg0.slots t 6)
abbrev hs0_6 (t : Fin cfg0.N) : (ms0_6 t).IsWhole := hstage0_6 ((cfg0.slots t 6).cast nbuf0_6)
/-- The accumulator: a whole scoped buffer of the kernel's own. -/
abbrev scM0 : Memref sig .tc .vmem S1024x512 .f32 := Memref.whole cc0_scratch0
/-- Views through which the output block's and the accumulator's contents are stated. -/
abbrev VO0 : View sig .tc .vmem S1024x512 .f32 := (Memref.whole cc0_stg6_0 : Memref sig .tc .vmem S1024x512 .f32).view
abbrev VS0 : View sig .tc .vmem S1024x512 .f32 := scM0.view

/-- The other scoped buffers that are no staging buffer (each at some contents): what rides beside the accumulator. -/
abbrev But0 (c : Dev nD) : sProp 𝕄 :=
  Pipeline.scopedRestBut (Ix := Unit) (Name := ℕ) (U := UR sig nD τ) (Lvl := ℕ) (Val := Elt F) spec0 c [cc0_scratch0]

/-- What the launch hands the region, with the accumulator split out at some contents. -/
theorem PhiA0_eq (c : Dev nD) :
    (Pipeline.ΦA spec0 c : sProp 𝕄) = iprop(((∃ d, owns (c : Thread nD τ) scM0 fullShare d) ∗ But0 c) ∗ ∃ r, prngReg c r) := by
  unfold Pipeline.ΦA; rw [scopedRest0_split]; simp only [scM0, owns_whole]; try rfl

end Cert.KernelIdeal.Hand

end
-- ==== Proof.KI_R0RunA.lean ====
/-
  Region 0: the body at a grid point where k = 0: the accumulator is reset to zero and the first tile's product is added.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R0Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun0_A (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc0__scm_mlp_layer_kernel_eq_skeleton]; unfold cc0__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R0RunB.lean ====
/-
  Region 0: the body at a grid point where k = 1 or 2: one tile's product is added to the accumulator.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R0Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun0_B (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc0__scm_mlp_layer_kernel_eq_skeleton]; unfold cc0__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R0RunC.lean ====
/-
  Region 0: the body at a grid point where k = 3: the last tile's product is added and the rectified sum plus noise is written into the output block.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R0Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc0__scm_mlp_layer_kernel i arg3 harg3 arg4 harg4 arg5 harg5 arg6 harg6 arg7 harg7 arg8 harg8 arg9 harg9 arg10 harg10) K } := by
  refine ⟨?_, ?_, fun E K => ?run⟩
  case run =>
    simp only [cc0__scm_mlp_layer_kernel_eq_skeleton]; unfold cc0__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.KernelIdeal.Hand

end
-- ==== Proof.KI_R0Dat.lean ====
/-
  Region 0: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R0RunA
import proofs.«151625_j49460843381367_2_alg».proof.Proof.KI_R0RunB
import proofs.«151625_j49460843381367_2_alg».proof.Proof.KI_R0RunC
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (an unfetched window's index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not (an unfetched window's index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not (an unfetched window's index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not (an unfetched window's index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not (an unfetched window's index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not (an unfetched window's index has not moved). -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end Region

/-! ## The stores cover the buffers they write -/

theorem scover0_A (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun0_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun0_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover0_B (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun0_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun0_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun0_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun0_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun0_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun0_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut0 : Vec F S1024x512 .f32 := VO0.read (Elt F) VO0.junk

/-- What the output block's staging buffer and the accumulator hold after the body at position `n`. -/
def outsAt0 (c : Dev nD) : (n : ℕ) → n < cfg0.N → Vec F S1024x512 .f32 × Vec F S1024x512 .f32
  | 0, hn => (idleOut0, VS0.read (Elt F) (VS0.writes (Elt F) VS0.junk ((kernelRun0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩)).2.1)))
  | n + 1, hn =>
    if h0 : (n + 1) % 4 = 0 then
      if h1 : (n + 1) % 4 = 3 then
        False.elim (by omega)
      else
        (idleOut0, VS0.read (Elt F) (VS0.writes (Elt F) VS0.junk ((kernelRun0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩)).2.1)))
    else
      if h1 : (n + 1) % 4 = 3 then
        (VO0.read (Elt F) (VO0.writes (Elt F) VO0.junk ((kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2).1)), VS0.read (Elt F) (VS0.writes (Elt F) VS0.junk ((kernelRun0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2).2.1)))
      else
        (idleOut0, VS0.read (Elt F) (VS0.writes (Elt F) VS0.junk ((kernelRun0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (outsAt0 c n (Nat.lt_of_succ_lt hn)).2).2.1)))

theorem outsAt0_A (c : Dev nD) (t : Fin cfg0.N) (h0 : t.val % 4 = 0) (h1 : ¬t.val % 4 = 3) :
    outsAt0 V c t.val t.isLt = (idleOut0, VS0.read (Elt F) (VS0.writes (Elt F) VS0.junk ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.1))) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (idleOut0, VS0.read (Elt F) (VS0.writes (Elt F) VS0.junk ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (VO0.read (Elt F) (VO0.writes (Elt F) VO0.junk ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).1)), VS0.read (Elt F) (VS0.writes (Elt F) VS0.junk ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS0 (c : Dev nD) : (n : ℕ) → n ≤ cfg0.N → sProp 𝕄
  | 0, _ => Pipeline.ΦA spec0 c
  | n + 1, hn => iprop((owns (c : Thread nD τ) scM0 fullShare ((outsAt0 V c n hn).2) ∗ But0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop((owns (c : Thread nD τ) scM0 fullShare ((outsAt0 V c n hn).2) ∗ But0 c) ∗ (∃ r, prngReg c r)) := rfl
theorem PhiS0_pos (c : Dev nD) (n : ℕ) (h : n ≤ cfg0.N) (hz : n ≠ 0) :
    PhiS0 V c n h = iprop((owns (c : Thread nD τ) scM0 fullShare ((outsAt0 V c (n - 1) (by omega)).2) ∗ But0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 128 := lt_of_lt_of_eq t.isLt (show cfg0.N = 128 from N_0)
  by_cases h0 : t.val % 4 = 0
  · by_cases h1 : t.val % 4 = 3
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_A V c t h0 h1]
      (try dsimp only)
      by_cases hz : t.val = 0
      · rw [PhiS0_castSucc V c t, PhiS0_zero V c _ _ hz, PhiA0_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover0_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS0_castSucc V c t, PhiS0_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover0_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t ((hcond0_1 t).mpr h1)], after0_6]
      rw [outsAt0_C V c t h0 h1]
      (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover0_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover0_C c _ _ _ _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6 t (fun h => h1 ((hcond0_1 t).mp h))) (noFlush0_6 t (fun h => h1 ((hcond0_1 t).mp h)))]
      rw [outsAt0_B V c t h0 h1]
      (try dsimp only)
      rw [PhiS0_castSucc V c t, PhiS0_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover0_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega), PhiA0_eq]
  iintro ⟨⟨HS, HB⟩, Hg⟩
  isplitl [HS HB]
  · isplitl [HS]
    · iexists _; iexact HS
    iexact HB
  iexact Hg

end Region

end Cert.KernelIdeal.Hand

end
-- ==== Proof.KI_R1Base.lean ====
/-
  Region 1 (layer 1's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, from the grid coordinates -/

/-- "k = 0", as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3", as the body computes it. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
/-- Away from k = 3 the output window is idle and its block is not written back. -/
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At k = 3 it is live. -/
theorem liveAt1_6 : ∀ t : Fin cfg1.N, cond1_1 (grid1.coords t) → cfg1.idle 6 (grid1.coords t) = false := by decide +kernel

/-! ## The memrefs the body is called with -/

abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev scM1 : Memref sig .tc .vmem S1024x512 .f32 := Memref.whole cc1_scratch0
/-- Views through which the output block's and the accumulator's contents are stated. -/
abbrev VO1 : View sig .tc .vmem S1024x512 .f32 := (Memref.whole cc1_stg6_0 : Memref sig .tc .vmem S1024x512 .f32).view
abbrev VS1 : View sig .tc .vmem S1024x512 .f32 := scM1.view

/-- The other scoped buffers that are no staging buffer (each at some contents): what rides beside the accumulator. -/
abbrev But1 (c : Dev nD) : sProp 𝕄 :=
  Pipeline.scopedRestBut (Ix := Unit) (Name := ℕ) (U := UR sig nD τ) (Lvl := ℕ) (Val := Elt F) spec1 c [cc1_scratch0]

/-- What the launch hands the region, with the accumulator split out at some contents. -/
theorem PhiA1_eq (c : Dev nD) :
    (Pipeline.ΦA spec1 c : sProp 𝕄) = iprop(((∃ d, owns (c : Thread nD τ) scM1 fullShare d) ∗ But1 c) ∗ ∃ r, prngReg c r) := by
  unfold Pipeline.ΦA; rw [scopedRest1_split]; simp only [scM1, owns_whole]; try rfl

end Cert.KernelIdeal.Hand

end
-- ==== Proof.KI_R1RunA.lean ====
/-
  Region 1: the body at a grid point where k = 0: the accumulator is reset to zero and the first tile's product is added.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R1Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun1_A (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond1_0 i) (hc1 : ¬cond1_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc1__scm_mlp_layer_kernel_eq_skeleton]; unfold cc1__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R1RunB.lean ====
/-
  Region 1: the body at a grid point where k = 1 or 2: one tile's product is added to the accumulator.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R1Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun1_B (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : ¬cond1_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc1__scm_mlp_layer_kernel_eq_skeleton]; unfold cc1__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R1RunC.lean ====
/-
  Region 1: the body at a grid point where k = 3: the last tile's product is added and the rectified sum plus noise is written into the output block.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R1Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc1__scm_mlp_layer_kernel i arg3 harg3 arg4 harg4 arg5 harg5 arg6 harg6 arg7 harg7 arg8 harg8 arg9 harg9 arg10 harg10) K } := by
  refine ⟨?_, ?_, fun E K => ?run⟩
  case run =>
    simp only [cc1__scm_mlp_layer_kernel_eq_skeleton]; unfold cc1__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.KernelIdeal.Hand

end
-- ==== Proof.KI_R1Dat.lean ====
/-
  Region 1: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R1RunA
import proofs.«151625_j49460843381367_2_alg».proof.Proof.KI_R1RunB
import proofs.«151625_j49460843381367_2_alg».proof.Proof.KI_R1RunC
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (an unfetched window's index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not (an unfetched window's index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not (an unfetched window's index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not (an unfetched window's index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not (an unfetched window's index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not (an unfetched window's index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The stores cover the buffers they write -/

theorem scover1_A (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond1_0 i) (hc1 : ¬cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun1_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun1_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover1_B (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : ¬cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun1_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun1_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun1_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun1_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun1_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun1_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut1 : Vec F S1024x512 .f32 := VO1.read (Elt F) VO1.junk

/-- What the output block's staging buffer and the accumulator hold after the body at position `n`. -/
def outsAt1 (c : Dev nD) : (n : ℕ) → n < cfg1.N → Vec F S1024x512 .f32 × Vec F S1024x512 .f32
  | 0, hn => (idleOut1, VS1.read (Elt F) (VS1.writes (Elt F) VS1.junk ((kernelRun1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩)).2.1)))
  | n + 1, hn =>
    if h0 : (n + 1) % 4 = 0 then
      if h1 : (n + 1) % 4 = 3 then
        False.elim (by omega)
      else
        (idleOut1, VS1.read (Elt F) (VS1.writes (Elt F) VS1.junk ((kernelRun1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩)).2.1)))
    else
      if h1 : (n + 1) % 4 = 3 then
        (VO1.read (Elt F) (VO1.writes (Elt F) VO1.junk ((kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2).1)), VS1.read (Elt F) (VS1.writes (Elt F) VS1.junk ((kernelRun1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2).2.1)))
      else
        (idleOut1, VS1.read (Elt F) (VS1.writes (Elt F) VS1.junk ((kernelRun1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2).2.1)))

theorem outsAt1_A (c : Dev nD) (t : Fin cfg1.N) (h0 : t.val % 4 = 0) (h1 : ¬t.val % 4 = 3) :
    outsAt1 V c t.val t.isLt = (idleOut1, VS1.read (Elt F) (VS1.writes (Elt F) VS1.junk ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.1))) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (idleOut1, VS1.read (Elt F) (VS1.writes (Elt F) VS1.junk ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (VO1.read (Elt F) (VO1.writes (Elt F) VO1.junk ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).1)), VS1.read (Elt F) (VS1.writes (Elt F) VS1.junk ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS1 (c : Dev nD) : (n : ℕ) → n ≤ cfg1.N → sProp 𝕄
  | 0, _ => Pipeline.ΦA spec1 c
  | n + 1, hn => iprop((owns (c : Thread nD τ) scM1 fullShare ((outsAt1 V c n hn).2) ∗ But1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare ((outsAt1 V c n hn).2) ∗ But1 c) ∗ (∃ r, prngReg c r)) := rfl
theorem PhiS1_pos (c : Dev nD) (n : ℕ) (h : n ≤ cfg1.N) (hz : n ≠ 0) :
    PhiS1 V c n h = iprop((owns (c : Thread nD τ) scM1 fullShare ((outsAt1 V c (n - 1) (by omega)).2) ∗ But1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_A V c t h0 h1]
      (try dsimp only)
      by_cases hz : t.val = 0
      · rw [PhiS1_castSucc V c t, PhiS1_zero V c _ _ hz, PhiA1_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover1_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS1_castSucc V c t, PhiS1_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover1_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover1_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover1_C c _ _ _ _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5 t], after1_5]
      rw [Dat.leavesExact_idle (dat1 V c) 6 t (idleAt1_6 t (fun h => h1 ((hcond1_1 t).mp h))) (noFlush1_6 t (fun h => h1 ((hcond1_1 t).mp h)))]
      rw [outsAt1_B V c t h0 h1]
      (try dsimp only)
      rw [PhiS1_castSucc V c t, PhiS1_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover1_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨HS, HB⟩, Hg⟩
  isplitl [HS HB]
  · isplitl [HS]
    · iexists _; iexact HS
    iexact HB
  iexact Hg

end Region

end Cert.KernelIdeal.Hand

end
-- ==== Proof.KI_R2Base.lean ====
/-
  Region 2 (layer 2's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, from the grid coordinates -/

/-- "k = 0", as the body computes it. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "k = 3", as the body computes it. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Away from k = 3 the output window is idle and its block is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
/-- At k = 3 it is live. -/
theorem liveAt2_6 : ∀ t : Fin cfg2.N, cond2_1 (grid2.coords t) → cfg2.idle 6 (grid2.coords t) = false := by decide +kernel

/-! ## The memrefs the body is called with -/

abbrev ms2_0 (t : Fin cfg2.N) : Memref sig .tc .vmem S1024x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x1024x512 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1024x512 .f32 := win2_6.stage (cfg2.slots t 6)
abbrev hs2_6 (t : Fin cfg2.N) : (ms2_6 t).IsWhole := hstage2_6 ((cfg2.slots t 6).cast nbuf2_6)
/-- The accumulator: a whole scoped buffer of the kernel's own. -/
abbrev scM2 : Memref sig .tc .vmem S1024x512 .f32 := Memref.whole cc2_scratch0
/-- Views through which the output block's and the accumulator's contents are stated. -/
abbrev VO2 : View sig .tc .vmem S1024x512 .f32 := (Memref.whole cc2_stg6_0 : Memref sig .tc .vmem S1024x512 .f32).view
abbrev VS2 : View sig .tc .vmem S1024x512 .f32 := scM2.view

/-- The other scoped buffers that are no staging buffer (each at some contents): what rides beside the accumulator. -/
abbrev But2 (c : Dev nD) : sProp 𝕄 :=
  Pipeline.scopedRestBut (Ix := Unit) (Name := ℕ) (U := UR sig nD τ) (Lvl := ℕ) (Val := Elt F) spec2 c [cc2_scratch0]

/-- What the launch hands the region, with the accumulator split out at some contents. -/
theorem PhiA2_eq (c : Dev nD) :
    (Pipeline.ΦA spec2 c : sProp 𝕄) = iprop(((∃ d, owns (c : Thread nD τ) scM2 fullShare d) ∗ But2 c) ∗ ∃ r, prngReg c r) := by
  unfold Pipeline.ΦA; rw [scopedRest2_split]; simp only [scM2, owns_whole]; try rfl

end Cert.KernelIdeal.Hand

end
-- ==== Proof.KI_R2RunA.lean ====
/-
  Region 2: the body at a grid point where k = 0: the accumulator is reset to zero and the first tile's product is added.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R2Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun2_A (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond2_0 i) (hc1 : ¬cond2_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc2__scm_mlp_layer_kernel_eq_skeleton]; unfold cc2__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R2RunB.lean ====
/-
  Region 2: the body at a grid point where k = 1 or 2: one tile's product is added to the accumulator.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R2Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun2_B (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : ¬cond2_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc2__scm_mlp_layer_kernel_eq_skeleton]; unfold cc2__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R2RunC.lean ====
/-
  Region 2: the body at a grid point where k = 3: the last tile's product is added and the rectified sum plus noise is written into the output block.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R2Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc2__scm_mlp_layer_kernel i arg3 harg3 arg4 harg4 arg5 harg5 arg6 harg6 arg7 harg7 arg8 harg8 arg9 harg9 arg10 harg10) K } := by
  refine ⟨?_, ?_, fun E K => ?run⟩
  case run =>
    simp only [cc2__scm_mlp_layer_kernel_eq_skeleton]; unfold cc2__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.KernelIdeal.Hand

end
-- ==== Proof.KI_R2Dat.lean ====
/-
  Region 2: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R2RunA
import proofs.«151625_j49460843381367_2_alg».proof.Proof.KI_R2RunB
import proofs.«151625_j49460843381367_2_alg».proof.Proof.KI_R2RunC
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (an unfetched window's index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not (an unfetched window's index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not (an unfetched window's index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not (an unfetched window's index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not (an unfetched window's index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not (an unfetched window's index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The stores cover the buffers they write -/

theorem scover2_A (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond2_0 i) (hc1 : ¬cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun2_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun2_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover2_B (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : ¬cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun2_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun2_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun2_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun2_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun2_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun2_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut2 : Vec F S1024x512 .f32 := VO2.read (Elt F) VO2.junk

/-- What the output block's staging buffer and the accumulator hold after the body at position `n`. -/
def outsAt2 (c : Dev nD) : (n : ℕ) → n < cfg2.N → Vec F S1024x512 .f32 × Vec F S1024x512 .f32
  | 0, hn => (idleOut2, VS2.read (Elt F) (VS2.writes (Elt F) VS2.junk ((kernelRun2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩)).2.1)))
  | n + 1, hn =>
    if h0 : (n + 1) % 4 = 0 then
      if h1 : (n + 1) % 4 = 3 then
        False.elim (by omega)
      else
        (idleOut2, VS2.read (Elt F) (VS2.writes (Elt F) VS2.junk ((kernelRun2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩)).2.1)))
    else
      if h1 : (n + 1) % 4 = 3 then
        (VO2.read (Elt F) (VO2.writes (Elt F) VO2.junk ((kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2).1)), VS2.read (Elt F) (VS2.writes (Elt F) VS2.junk ((kernelRun2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2).2.1)))
      else
        (idleOut2, VS2.read (Elt F) (VS2.writes (Elt F) VS2.junk ((kernelRun2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2).2.1)))

theorem outsAt2_A (c : Dev nD) (t : Fin cfg2.N) (h0 : t.val % 4 = 0) (h1 : ¬t.val % 4 = 3) :
    outsAt2 V c t.val t.isLt = (idleOut2, VS2.read (Elt F) (VS2.writes (Elt F) VS2.junk ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.1))) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (idleOut2, VS2.read (Elt F) (VS2.writes (Elt F) VS2.junk ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (VO2.read (Elt F) (VO2.writes (Elt F) VO2.junk ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).1)), VS2.read (Elt F) (VS2.writes (Elt F) VS2.junk ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS2 (c : Dev nD) : (n : ℕ) → n ≤ cfg2.N → sProp 𝕄
  | 0, _ => Pipeline.ΦA spec2 c
  | n + 1, hn => iprop((owns (c : Thread nD τ) scM2 fullShare ((outsAt2 V c n hn).2) ∗ But2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop((owns (c : Thread nD τ) scM2 fullShare ((outsAt2 V c n hn).2) ∗ But2 c) ∗ (∃ r, prngReg c r)) := rfl
theorem PhiS2_pos (c : Dev nD) (n : ℕ) (h : n ≤ cfg2.N) (hz : n ≠ 0) :
    PhiS2 V c n h = iprop((owns (c : Thread nD τ) scM2 fullShare ((outsAt2 V c (n - 1) (by omega)).2) ∗ But2 c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 128 := lt_of_lt_of_eq t.isLt (show cfg2.N = 128 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_A V c t h0 h1]
      (try dsimp only)
      by_cases hz : t.val = 0
      · rw [PhiS2_castSucc V c t, PhiS2_zero V c _ _ hz, PhiA2_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover2_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS2_castSucc V c t, PhiS2_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover2_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [show (dat2 V c).leavesExact 6 t = owns (c : Thread nD τ) (ms2_6 t) fullShare ((dat2 V c).after 6 t) from by
        unfold Dat.leavesExact; rw [liveAt2_6 t ((hcond2_1 t).mpr h1)], after2_6]
      rw [outsAt2_C V c t h0 h1]
      (try dsimp only)
      rw [PhiS2_castSucc V c t, PhiS2_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover2_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover2_C c _ _ _ _ _ _ _ _ _ _ _ _ _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5 t], after2_5]
      rw [Dat.leavesExact_idle (dat2 V c) 6 t (idleAt2_6 t (fun h => h1 ((hcond2_1 t).mp h))) (noFlush2_6 t (fun h => h1 ((hcond2_1 t).mp h)))]
      rw [outsAt2_B V c t h0 h1]
      (try dsimp only)
      rw [PhiS2_castSucc V c t, PhiS2_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover2_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 128 := N_2; omega), PhiA2_eq]
  iintro ⟨⟨HS, HB⟩, Hg⟩
  isplitl [HS HB]
  · isplitl [HS]
    · iexists _; iexact HS
    iexact HB
  iexact Hg

end Region

end Cert.KernelIdeal.Hand

end
-- ==== Proof.KI_R3Base.lean ====
/-
  Region 3 (layer 3's pallas_call): what the three kinds of grid point share.

  The grid is 4 × 8 × 4; the last coordinate k walks the four tiles of the contracted axis and is innermost, so the
  points of one output block are four consecutive positions t with t mod 4 = k. The body resets its accumulator when
  k = 0, adds one tile's product at every k, and writes the rectified sum plus noise into the output block when k = 3.
  So there are three kinds of point: k = 0 (reset and add), k = 1, 2 (add), k = 3 (add and write out). Both conditions
  are decided here over all 128 positions, and so is where the output window is idle (k ≠ 3: the pipeline neither expects
  a store nor writes the block back).
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body, from the grid coordinates -/

/-- "k = 0", as the body computes it. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)

/-- "k = 3", as the body computes it. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel
/-- Away from k = 3 the output window is idle and its block is not written back. -/
theorem idleAt3_6 : ∀ t : Fin cfg3.N, ¬cond3_1 (grid3.coords t) → cfg3.idle 6 (grid3.coords t) = true := by decide +kernel
theorem noFlush3_6 : ∀ t : Fin cfg3.N, ¬cond3_1 (grid3.coords t) → (cfg3.win 6).flush t = false := by decide +kernel
/-- At k = 3 it is live. -/
theorem liveAt3_6 : ∀ t : Fin cfg3.N, cond3_1 (grid3.coords t) → cfg3.idle 6 (grid3.coords t) = false := by decide +kernel

/-! ## The memrefs the body is called with -/

abbrev ms3_0 (t : Fin cfg3.N) : Memref sig .tc .vmem S1024x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x512x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x512x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x1x512 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x1024x512 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S1024x512 .f32 := win3_6.stage (cfg3.slots t 6)
abbrev hs3_6 (t : Fin cfg3.N) : (ms3_6 t).IsWhole := hstage3_6 ((cfg3.slots t 6).cast nbuf3_6)
/-- The accumulator: a whole scoped buffer of the kernel's own. -/
abbrev scM3 : Memref sig .tc .vmem S1024x512 .f32 := Memref.whole cc3_scratch0
/-- Views through which the output block's and the accumulator's contents are stated. -/
abbrev VO3 : View sig .tc .vmem S1024x512 .f32 := (Memref.whole cc3_stg6_0 : Memref sig .tc .vmem S1024x512 .f32).view
abbrev VS3 : View sig .tc .vmem S1024x512 .f32 := scM3.view

/-- The other scoped buffers that are no staging buffer (each at some contents): what rides beside the accumulator. -/
abbrev But3 (c : Dev nD) : sProp 𝕄 :=
  Pipeline.scopedRestBut (Ix := Unit) (Name := ℕ) (U := UR sig nD τ) (Lvl := ℕ) (Val := Elt F) spec3 c [cc3_scratch0]

/-- What the launch hands the region, with the accumulator split out at some contents. -/
theorem PhiA3_eq (c : Dev nD) :
    (Pipeline.ΦA spec3 c : sProp 𝕄) = iprop(((∃ d, owns (c : Thread nD τ) scM3 fullShare d) ∗ But3 c) ∗ ∃ r, prngReg c r) := by
  unfold Pipeline.ΦA; rw [scopedRest3_split]; simp only [scM3, owns_whole]; try rfl

end Cert.KernelIdeal.Hand

end
-- ==== Proof.KI_R3RunA.lean ====
/-
  Region 3: the body at a grid point where k = 0: the accumulator is reset to zero and the first tile's product is added.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R3Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at anything — the
    body runs to its end with the inputs as they were and the stored buffers holding the listed pieces over what they held. -/
noncomputable def kernelRun3_A (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond3_0 i) (hc1 : ¬cond3_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ d, owns (c : Thread nD τ) arg10 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc3__scm_mlp_layer_kernel_eq_skeleton]; unfold cc3__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds, %fs, -, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R3RunB.lean ====
/-
  Region 3: the body at a grid point where k = 1 or 2: one tile's product is added to the accumulator.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R3Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at contents handed back untouched, the accumulator at what the point before left — the
    body runs to its end with the inputs as they were and the stored buffers holding the listed pieces over what they held. -/
noncomputable def kernelRun3_B (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : ¬cond3_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (xi9 : Vec F S1024x512 .f32) (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xi9 ∗ (∃ f, arg10.view.loc (c : Thread nD τ) ↦[arg10.view.set]{fullShare} arg10.view.writes (Elt F) f LS)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨[], ?_, fun xi9 E K => ?run⟩
  case run =>
    simp only [cc3__scm_mlp_layer_kernel_eq_skeleton]; unfold cc3__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    iexists _; iexact HS

end Cert.KernelIdeal.Hand

end
-- ==== Proof.KI_R3RunC.lean ====
/-
  Region 3: the body at a grid point where k = 3: the last tile's product is added and the rectified sum plus noise is written into the output block.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R3Base
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- On whole staging memrefs — the six inputs at their contents, the output block at anything, the accumulator at what the point before left — the
    body runs to its end with the inputs as they were and the stored buffers holding the listed pieces over what they held. -/
noncomputable def kernelRun3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i)
    (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    Σ' (L9 : List (View.Piece (Elt F) S1024x512 .f32)), { LS : List (View.Piece (Elt F) S1024x512 .f32) //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare xs
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f LS)) -∗ K ⟨⟩))
          ⊢ wp frame (wpE (defs₀ (F := F)) Variants.none c none) E (cc3__scm_mlp_layer_kernel i arg3 harg3 arg4 harg4 arg5 harg5 arg6 harg6 arg7 harg7 arg8 harg8 arg9 harg9 arg10 harg10) K } := by
  refine ⟨?_, ?_, fun E K => ?run⟩
  case run =>
    simp only [cc3__scm_mlp_layer_kernel_eq_skeleton]; unfold cc3__scm_mlp_layer_kernel_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs, %hfs, HS⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hfs
    sl_exec (disch := first | exact hc0 | exact hc1)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    iexists _; iexact HS

end Cert.KernelIdeal.Hand

end
-- ==== Proof.KI_R3Dat.lean ====
/-
  Region 3: the proof data of its pipeline and the body obligation, at a PARAMETER `V` — what the TensorCore's buffers
  hold when the region is entered.

  Each input window's staging buffer holds its block of the array at every point. What a point leaves in the
  accumulator (and, at k = 3, in the output block) is defined by recursion on the position: the kind of point decides
  which run applies, and a run that reads the accumulator is given what the position before left in it. The region's
  invariant carries the accumulator at exactly that value from one point to the next; before the first point it is the
  plain invariant (the accumulator at anything). Away from k = 3 the output window is idle: its buffer is handed back as
  it was found.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R3RunA
import proofs.«151625_j49460843381367_2_alg».proof.Proof.KI_R3RunB
import proofs.«151625_j49460843381367_2_alg».proof.Proof.KI_R3RunC
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (an unfetched window's index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not (an unfetched window's index has not moved). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not (an unfetched window's index has not moved). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not (an unfetched window's index has not moved). -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not (an unfetched window's index has not moved). -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not (an unfetched window's index has not moved). -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The stores cover the buffers they write -/

theorem scover3_A (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond3_0 i) (hc1 : ¬cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (y : S1024x512.Idx) :
    ∃ pc ∈ (kernelRun3_A c i arg3 harg3 arg4 harg4 arg5 harg5 arg6 harg6 arg7 harg7 arg8 harg8 arg9 harg9 arg10 harg10 hc0 hc1 x3 x4 x5 x6 x7 x8).2.1, y ∈ pc.1.set :=
  View.cover_of_tiledL (kernelRun3_A c i arg3 harg3 arg4 harg4 arg5 harg5 arg6 harg6 arg7 harg7 arg8 harg8 arg9 harg9 arg10 harg10 hc0 hc1 x3 x4 x5 x6 x7 x8).2.1 S1024x512.size (by sl_kernel_rfl) y
theorem scover3_B (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : ¬cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun3_B c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun3_B c i arg3 harg3 arg4 harg4 arg5 harg5 arg6 harg6 arg7 harg7 arg8 harg8 arg9 harg9 arg10 harg10 hc0 hc1 x3 x4 x5 x6 x7 x8 xs).2.1 S1024x512.size (by sl_kernel_rfl) y
theorem scover3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun3_C c i arg3 harg3 arg4 harg4 arg5 harg5 arg6 harg6 arg7 harg7 arg8 harg8 arg9 harg9 arg10 harg10 hc0 hc1 x3 x4 x5 x6 x7 x8 xs).2.1, y ∈ pc.1.set :=
  View.cover_of_tiledL (kernelRun3_C c i arg3 harg3 arg4 harg4 arg5 harg5 arg6 harg6 arg7 harg7 arg8 harg8 arg9 harg9 arg10 harg10 hc0 hc1 x3 x4 x5 x6 x7 x8 xs).2.1 S1024x512.size (by sl_kernel_rfl) y
theorem cover3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) (y : S1024x512.Idx) :
    ∃ pc ∈ (kernelRun3_C c i arg3 harg3 arg4 harg4 arg5 harg5 arg6 harg6 arg7 harg7 arg8 harg8 arg9 harg9 arg10 harg10 hc0 hc1 x3 x4 x5 x6 x7 x8 xs).1, y ∈ pc.1.set :=
  View.cover_of_tiledL (kernelRun3_C c i arg3 harg3 arg4 harg4 arg5 harg5 arg6 harg6 arg7 harg7 arg8 harg8 arg9 harg9 arg10 harg10 hc0 hc1 x3 x4 x5 x6 x7 x8 xs).1 S1024x512.size (by sl_kernel_rfl) y

section Region
variable (V : (c : Dev nD) → (b : Ref sig .tc) → Buf (Elt F) ((c : Thread nD τ).loc b))

/-! ## What each point leaves -/

/-- The output component at a point that stores nothing into the output block: a placeholder nothing consults (the
    window is neither written back there nor read at the next point). -/
def idleOut3 : Vec F S1024x512 .f32 := VO3.read (Elt F) VO3.junk

/-- What the output block's staging buffer and the accumulator hold after the body at position `n`. -/
def outsAt3 (c : Dev nD) : (n : ℕ) → n < cfg3.N → Vec F S1024x512 .f32 × Vec F S1024x512 .f32
  | 0, hn => (idleOut3, VS3.read (Elt F) (VS3.writes (Elt F) VS3.junk ((kernelRun3_A c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) scM3 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩)).2.1)))
  | n + 1, hn =>
    if h0 : (n + 1) % 4 = 0 then
      if h1 : (n + 1) % 4 = 3 then
        False.elim (by omega)
      else
        (idleOut3, VS3.read (Elt F) (VS3.writes (Elt F) VS3.junk ((kernelRun3_A c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩)).2.1)))
    else
      if h1 : (n + 1) % 4 = 3 then
        (VO3.read (Elt F) (VO3.writes (Elt F) VO3.junk ((kernelRun3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2).1)), VS3.read (Elt F) (VS3.writes (Elt F) VS3.junk ((kernelRun3_C c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2).2.1)))
      else
        (idleOut3, VS3.read (Elt F) (VS3.writes (Elt F) VS3.junk ((kernelRun3_B c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) scM3 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2).2.1)))

theorem outsAt3_A (c : Dev nD) (t : Fin cfg3.N) (h0 : t.val % 4 = 0) (h1 : ¬t.val % 4 = 3) :
    outsAt3 V c t.val t.isLt = (idleOut3, VS3.read (Elt F) (VS3.writes (Elt F) VS3.junk ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)).2.1))) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (idleOut3, VS3.read (Elt F) (VS3.writes (Elt F) VS3.junk ((kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (VO3.read (Elt F) (VO3.writes (Elt F) VO3.junk ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2).1)), VS3.read (Elt F) (VS3.writes (Elt F) VS3.junk ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2).2.1))) := by
  obtain ⟨n, hn⟩ := t
  cases n with
  | zero => exact (by exfalso; (try dsimp only at h0); exact absurd (Nat.zero_mod _) h0)
  | succ n => exact (dif_neg h0).trans ((dif_pos h1).trans rfl)

/-! ## The invariant: the accumulator carried from point to point -/

def PhiS3 (c : Dev nD) : (n : ℕ) → n ≤ cfg3.N → sProp 𝕄
  | 0, _ => Pipeline.ΦA spec3 c
  | n + 1, hn => iprop((owns (c : Thread nD τ) scM3 fullShare ((outsAt3 V c n hn).2) ∗ But3 c) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop((owns (c : Thread nD τ) scM3 fullShare ((outsAt3 V c n hn).2) ∗ But3 c) ∗ (∃ r, prngReg c r)) := rfl
theorem PhiS3_pos (c : Dev nD) (n : ℕ) (h : n ≤ cfg3.N) (hz : n ≠ 0) :
    PhiS3 V c n h = iprop((owns (c : Thread nD τ) scM3 fullShare ((outsAt3 V c (n - 1) (by omega)).2) ∗ But3 c) ∗ (∃ r, prngReg c r)) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t)

set_option maxHeartbeats 8000000 in
/-- The body at any point: the inputs' memrefs hold their blocks; the position decides the kind of point; the invariant
    hands the body the accumulator (at what the point before left, or at anything before the first point) and takes
    it back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 128 := lt_of_lt_of_eq t.isLt (show cfg3.N = 128 from N_3)
  by_cases h0 : t.val % 4 = 0
  · by_cases h1 : t.val % 4 = 3
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6 t (fun h => h1 ((hcond3_1 t).mp h))) (noFlush3_6 t (fun h => h1 ((hcond3_1 t).mp h)))]
      rw [outsAt3_A V c t h0 h1]
      (try dsimp only)
      by_cases hz : t.val = 0
      · rw [PhiS3_castSucc V c t, PhiS3_zero V c _ _ hz, PhiA3_eq]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover3_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS3_castSucc V c t, PhiS3_pos V c _ _ hz]
        iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS]; · iexists _; iexact HS
        iintro ⟨H0, H1, H2, H3, H4, H5, H6, ⟨%es, HS⟩⟩
        isplitl [HS HB Hg]
        · isplitl [HS HB]
          · isplitl [HS]
            · unfold owns; iexists _; isplitr
              swap; · iexact HS
              ipureintro; exact View.read_writes_of_cover _ _ _ _ _ (scover3_A c _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun hz => h0 (by rw [hz])
    by_cases h1 : t.val % 4 = 3
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [show (dat3 V c).leavesExact 6 t = owns (c : Thread nD τ) (ms3_6 t) fullShare ((dat3 V c).after 6 t) from by
        unfold Dat.leavesExact; rw [liveAt3_6 t ((hcond3_1 t).mpr h1)], after3_6]
      rw [outsAt3_C V c t h0 h1]
      (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HB Hg]
      · isplitl [HS HB]
        · isplitl [HS]
          · unfold owns; iexists _; isplitr
            swap; · iexact HS
            ipureintro; exact View.read_writes_of_cover _ _ _ _ _ (scover3_C c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover3_C c _ _ _ _ _ _ _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4 t], after3_4]
      rw [show (dat3 V c).leavesExact 5 t = owns (c : Thread nD τ) (ms3_5 t) fullShare ((dat3 V c).after 5 t) from by
        unfold Dat.leavesExact; rw [liveAt3_5 t], after3_5]
      rw [Dat.leavesExact_idle (dat3 V c) 6 t (idleAt3_6 t (fun h => h1 ((hcond3_1 t).mp h))) (noFlush3_6 t (fun h => h1 ((hcond3_1 t).mp h)))]
      rw [outsAt3_B V c t h0 h1]
      (try dsimp only)
      rw [PhiS3_castSucc V c t, PhiS3_pos V c _ _ hz]
      iintro ⟨⟨⟨HS, HB⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS HB Hg]
      · isplitl [HS HB]
        · isplitl [HS]
          · unfold owns; iexists _; isplitr
            swap; · iexact HS
            ipureintro; exact View.read_writes_of_cover _ _ _ _ _ (scover3_B c _ _ _ _ _ _ _ _ _ _ _ _ _ _ _ _ _ _ _ _ _ _ _ _ _ _)
          iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the plain one back: the accumulator's contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 128 := N_3; omega), PhiA3_eq]
  iintro ⟨⟨HS, HB⟩, Hg⟩
  isplitl [HS HB]
  · isplitl [HS]
    · iexists _; iexact HS
    iexact HB
  iexact Hg

end Region

end Cert.KernelIdeal.Hand

end
-- ==== Proof.KI_Main.lean ====
/-
  The whole program as six segments — the two reshapes, the four layers' regions back to back, the concatenation — and what
  every buffer outside the regions' scopes holds at each boundary between them.

  The boundary contents are a fold from the launch memory: after the reshapes; then, after each region, that region's arrays at
  what its pipeline leaves (its inputs as entered, its output at the write-backs folded) and everything else as entered;
  last, after the concatenation. Each region's proof data is stated at its own entry contents. The run: every weakly fair
  execution terminates and ends with every such buffer at the last boundary's contents — which gives at once that the six
  arguments end as launched, and what the result buffer holds: the concatenation of the four regions' outputs, each the
  write-backs of its region folded over what it found.
-/
import proofs.«151625_j49460843381367_2_alg».proof.Proof.Gen.KernelIdeal.Launch
import proofs.«151625_j49460843381367_2_alg».proof.Proof.Gen.KernelIdeal.Skeleton
import proofs.«151625_j49460843381367_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«151625_j49460843381367_2_alg».proof.Proof.KI_R0Dat
import proofs.«151625_j49460843381367_2_alg».proof.Proof.KI_R1Dat
import proofs.«151625_j49460843381367_2_alg».proof.Proof.KI_R2Dat
import proofs.«151625_j49460843381367_2_alg».proof.Proof.KI_R3Dat
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- After the two reshapes (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves the region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- At region 1's exit: its arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- An input window's array leaves the region as it entered. -/
theorem W3_in (c : Dev nD) (w : Fin cfg1.W) (hw : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hw _).trans (A_eq1 (V2 m ρ) c w))

/-- At region 2's exit: its arrays at what its pipeline leaves, every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)
/-- An input window's array leaves the region as it entered. -/
theorem W4_in (c : Dev nD) (w : Fin cfg2.W) (hw : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hw _).trans (A_eq2 (V3 m ρ) c w))

/-- At region 3's exit: its arrays at what its pipeline leaves, every other buffer as entered. -/
def W5 (c : Dev nD) : Valuation τ sig (Elt F) :=
  Pipeline.withArrays spec3 c (W4 m ρ c) fun w => (dat3 (V4 m ρ) c).arrAt w cfg3.N
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
abbrev V5 : (c : Dev nD) → (b : Ref sig .tc) → Buf (Elt F) ((c : Thread nD τ).loc b) := fun c b => W5 m ρ c b
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)
/-- An input window's array leaves the region as it entered. -/
theorem W5_in (c : Dev nD) (w : Fin cfg3.W) (hw : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hw _).trans (A_eq3 (V4 m ρ) c w))

/-- After the concatenation. -/
abbrev W6 : Dev nD → Valuation τ sig (Elt F) := fun c => StableHlo.after hostOps4 (W5 m ρ c)

/-! ## What the boundaries keep -/

theorem hostOps0_fresh : (hostOps0 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor

/-- The reshapes write only their two results. -/
theorem W1_of (c : Dev nD) (r : Ref sig .tc) (h : r ∉ ([main_v0, main_v1] : List (Ref sig .tc))) :
    W1 m ρ c (Proc.devRef .tc r) = W0 m ρ c (Proc.devRef .tc r) :=
  StableHlo.after_of_writes_sub hostOps0 _ (by
    simp only [List.Forall]; exact ⟨by simp only [StableHlo.reshape_writes, Finset.singleton_subset_iff, List.mem_toFinset]; exact List.mem_map_of_mem (by decide), by simp only [StableHlo.reshape_writes, Finset.singleton_subset_iff, List.mem_toFinset]; exact List.mem_map_of_mem (by decide)⟩) h
/-- The concatenation writes only the result. -/
theorem W6_of (c : Dev nD) (r : Ref sig .tc) (h : r ∉ ([main_v6] : List (Ref sig .tc))) :
    W6 m ρ c (Proc.devRef .tc r) = W5 m ρ c (Proc.devRef .tc r) :=
  StableHlo.after_of_writes_sub hostOps4 _ (by
    simp only [List.Forall]; exact (by simp only [StableHlo.nary_writes, Finset.singleton_subset_iff, List.mem_toFinset]; exact List.mem_map_of_mem (by decide))) h
theorem W2_main_arg0 (c : Dev nD) : W2 m ρ c (Proc.devRef .tc main_arg0) = W1 m ρ c (Proc.devRef .tc main_arg0) := W2_in m ρ c 0 rfl
theorem W2_main_arg1 (c : Dev nD) : W2 m ρ c (Proc.devRef .tc main_arg1) = W1 m ρ c (Proc.devRef .tc main_arg1) := W2_in m ρ c 1 rfl
theorem W2_main_arg2 (c : Dev nD) : W2 m ρ c (Proc.devRef .tc main_arg2) = W1 m ρ c (Proc.devRef .tc main_arg2) := W2_in m ρ c 2 rfl
theorem W2_main_arg3 (c : Dev nD) : W2 m ρ c (Proc.devRef .tc main_arg3) = W1 m ρ c (Proc.devRef .tc main_arg3) := W2_of_ne m ρ c main_arg3 (by decide)
theorem W2_main_arg4 (c : Dev nD) : W2 m ρ c (Proc.devRef .tc main_arg4) = W1 m ρ c (Proc.devRef .tc main_arg4) := W2_of_ne m ρ c main_arg4 (by decide)
theorem W2_main_arg5 (c : Dev nD) : W2 m ρ c (Proc.devRef .tc main_arg5) = W1 m ρ c (Proc.devRef .tc main_arg5) := W2_in m ρ c 5 rfl
theorem W2_main_v0 (c : Dev nD) : W2 m ρ c (Proc.devRef .tc main_v0) = W1 m ρ c (Proc.devRef .tc main_v0) := W2_in m ρ c 3 rfl
theorem W2_main_v1 (c : Dev nD) : W2 m ρ c (Proc.devRef .tc main_v1) = W1 m ρ c (Proc.devRef .tc main_v1) := W2_in m ρ c 4 rfl
theorem W2_main_v3 (c : Dev nD) : W2 m ρ c (Proc.devRef .tc main_v3) = W1 m ρ c (Proc.devRef .tc main_v3) := W2_of_ne m ρ c main_v3 (by decide)
theorem W2_main_v4 (c : Dev nD) : W2 m ρ c (Proc.devRef .tc main_v4) = W1 m ρ c (Proc.devRef .tc main_v4) := W2_of_ne m ρ c main_v4 (by decide)
theorem W2_main_v5 (c : Dev nD) : W2 m ρ c (Proc.devRef .tc main_v5) = W1 m ρ c (Proc.devRef .tc main_v5) := W2_of_ne m ρ c main_v5 (by decide)
theorem W2_main_v2 (c : Dev nD) : W2 m ρ c (Proc.devRef .tc main_v2) = (dat0 (V1 m ρ) c).arrAt 6 cfg0.N := W2_arr m ρ c 6
theorem W3_main_arg0 (c : Dev nD) : W3 m ρ c (Proc.devRef .tc main_arg0) = W2 m ρ c (Proc.devRef .tc main_arg0) := W3_of_ne m ρ c main_arg0 (by decide)
theorem W3_main_arg1 (c : Dev nD) : W3 m ρ c (Proc.devRef .tc main_arg1) = W2 m ρ c (Proc.devRef .tc main_arg1) := W3_in m ρ c 1 rfl
theorem W3_main_arg2 (c : Dev nD) : W3 m ρ c (Proc.devRef .tc main_arg2) = W2 m ρ c (Proc.devRef .tc main_arg2) := W3_in m ρ c 2 rfl
theorem W3_main_arg3 (c : Dev nD) : W3 m ρ c (Proc.devRef .tc main_arg3) = W2 m ρ c (Proc.devRef .tc main_arg3) := W3_of_ne m ρ c main_arg3 (by decide)
theorem W3_main_arg4 (c : Dev nD) : W3 m ρ c (Proc.devRef .tc main_arg4) = W2 m ρ c (Proc.devRef .tc main_arg4) := W3_of_ne m ρ c main_arg4 (by decide)
theorem W3_main_arg5 (c : Dev nD) : W3 m ρ c (Proc.devRef .tc main_arg5) = W2 m ρ c (Proc.devRef .tc main_arg5) := W3_in m ρ c 5 rfl
theorem W3_main_v0 (c : Dev nD) : W3 m ρ c (Proc.devRef .tc main_v0) = W2 m ρ c (Proc.devRef .tc main_v0) := W3_in m ρ c 3 rfl
theorem W3_main_v1 (c : Dev nD) : W3 m ρ c (Proc.devRef .tc main_v1) = W2 m ρ c (Proc.devRef .tc main_v1) := W3_in m ρ c 4 rfl
theorem W3_main_v2 (c : Dev nD) : W3 m ρ c (Proc.devRef .tc main_v2) = W2 m ρ c (Proc.devRef .tc main_v2) := W3_in m ρ c 0 rfl
theorem W3_main_v4 (c : Dev nD) : W3 m ρ c (Proc.devRef .tc main_v4) = W2 m ρ c (Proc.devRef .tc main_v4) := W3_of_ne m ρ c main_v4 (by decide)
theorem W3_main_v5 (c : Dev nD) : W3 m ρ c (Proc.devRef .tc main_v5) = W2 m ρ c (Proc.devRef .tc main_v5) := W3_of_ne m ρ c main_v5 (by decide)
theorem W3_main_v3 (c : Dev nD) : W3 m ρ c (Proc.devRef .tc main_v3) = (dat1 (V2 m ρ) c).arrAt 6 cfg1.N := W3_arr m ρ c 6
theorem W4_main_arg0 (c : Dev nD) : W4 m ρ c (Proc.devRef .tc main_arg0) = W3 m ρ c (Proc.devRef .tc main_arg0) := W4_of_ne m ρ c main_arg0 (by decide)
theorem W4_main_arg1 (c : Dev nD) : W4 m ρ c (Proc.devRef .tc main_arg1) = W3 m ρ c (Proc.devRef .tc main_arg1) := W4_in m ρ c 1 rfl
theorem W4_main_arg2 (c : Dev nD) : W4 m ρ c (Proc.devRef .tc main_arg2) = W3 m ρ c (Proc.devRef .tc main_arg2) := W4_in m ρ c 2 rfl
theorem W4_main_arg3 (c : Dev nD) : W4 m ρ c (Proc.devRef .tc main_arg3) = W3 m ρ c (Proc.devRef .tc main_arg3) := W4_of_ne m ρ c main_arg3 (by decide)
theorem W4_main_arg4 (c : Dev nD) : W4 m ρ c (Proc.devRef .tc main_arg4) = W3 m ρ c (Proc.devRef .tc main_arg4) := W4_of_ne m ρ c main_arg4 (by decide)
theorem W4_main_arg5 (c : Dev nD) : W4 m ρ c (Proc.devRef .tc main_arg5) = W3 m ρ c (Proc.devRef .tc main_arg5) := W4_in m ρ c 5 rfl
theorem W4_main_v0 (c : Dev nD) : W4 m ρ c (Proc.devRef .tc main_v0) = W3 m ρ c (Proc.devRef .tc main_v0) := W4_in m ρ c 3 rfl
theorem W4_main_v1 (c : Dev nD) : W4 m ρ c (Proc.devRef .tc main_v1) = W3 m ρ c (Proc.devRef .tc main_v1) := W4_in m ρ c 4 rfl
theorem W4_main_v2 (c : Dev nD) : W4 m ρ c (Proc.devRef .tc main_v2) = W3 m ρ c (Proc.devRef .tc main_v2) := W4_of_ne m ρ c main_v2 (by decide)
theorem W4_main_v3 (c : Dev nD) : W4 m ρ c (Proc.devRef .tc main_v3) = W3 m ρ c (Proc.devRef .tc main_v3) := W4_in m ρ c 0 rfl
theorem W4_main_v5 (c : Dev nD) : W4 m ρ c (Proc.devRef .tc main_v5) = W3 m ρ c (Proc.devRef .tc main_v5) := W4_of_ne m ρ c main_v5 (by decide)
theorem W4_main_v4 (c : Dev nD) : W4 m ρ c (Proc.devRef .tc main_v4) = (dat2 (V3 m ρ) c).arrAt 6 cfg2.N := W4_arr m ρ c 6
theorem W5_main_arg0 (c : Dev nD) : W5 m ρ c (Proc.devRef .tc main_arg0) = W4 m ρ c (Proc.devRef .tc main_arg0) := W5_of_ne m ρ c main_arg0 (by decide)
theorem W5_main_arg1 (c : Dev nD) : W5 m ρ c (Proc.devRef .tc main_arg1) = W4 m ρ c (Proc.devRef .tc main_arg1) := W5_in m ρ c 1 rfl
theorem W5_main_arg2 (c : Dev nD) : W5 m ρ c (Proc.devRef .tc main_arg2) = W4 m ρ c (Proc.devRef .tc main_arg2) := W5_in m ρ c 2 rfl
theorem W5_main_arg3 (c : Dev nD) : W5 m ρ c (Proc.devRef .tc main_arg3) = W4 m ρ c (Proc.devRef .tc main_arg3) := W5_of_ne m ρ c main_arg3 (by decide)
theorem W5_main_arg4 (c : Dev nD) : W5 m ρ c (Proc.devRef .tc main_arg4) = W4 m ρ c (Proc.devRef .tc main_arg4) := W5_of_ne m ρ c main_arg4 (by decide)
theorem W5_main_arg5 (c : Dev nD) : W5 m ρ c (Proc.devRef .tc main_arg5) = W4 m ρ c (Proc.devRef .tc main_arg5) := W5_in m ρ c 5 rfl
theorem W5_main_v0 (c : Dev nD) : W5 m ρ c (Proc.devRef .tc main_v0) = W4 m ρ c (Proc.devRef .tc main_v0) := W5_in m ρ c 3 rfl
theorem W5_main_v1 (c : Dev nD) : W5 m ρ c (Proc.devRef .tc main_v1) = W4 m ρ c (Proc.devRef .tc main_v1) := W5_in m ρ c 4 rfl
theorem W5_main_v2 (c : Dev nD) : W5 m ρ c (Proc.devRef .tc main_v2) = W4 m ρ c (Proc.devRef .tc main_v2) := W5_of_ne m ρ c main_v2 (by decide)
theorem W5_main_v3 (c : Dev nD) : W5 m ρ c (Proc.devRef .tc main_v3) = W4 m ρ c (Proc.devRef .tc main_v3) := W5_of_ne m ρ c main_v3 (by decide)
theorem W5_main_v4 (c : Dev nD) : W5 m ρ c (Proc.devRef .tc main_v4) = W4 m ρ c (Proc.devRef .tc main_v4) := W5_in m ρ c 0 rfl
theorem W5_main_v5 (c : Dev nD) : W5 m ρ c (Proc.devRef .tc main_v5) = (dat3 (V4 m ρ) c).arrAt 6 cfg3.N := W5_arr m ρ c 6
/-- `main_arg0` reaches the end as launched. -/
theorem W6_main_arg0_launch (c : Dev nD) : W6 m ρ c (Proc.devRef .tc main_arg0) = m ((c : Thread nD τ).loc main_arg0) :=
  (W6_of m ρ c main_arg0 (by decide)).trans <| (W5_main_arg0 m ρ c).trans <| (W4_main_arg0 m ρ c).trans <| (W3_main_arg0 m ρ c).trans <| (W2_main_arg0 m ρ c).trans <| (W1_of m ρ c main_arg0 (by decide)).trans rfl
/-- `main_arg1` reaches the end as launched. -/
theorem W6_main_arg1_launch (c : Dev nD) : W6 m ρ c (Proc.devRef .tc main_arg1) = m ((c : Thread nD τ).loc main_arg1) :=
  (W6_of m ρ c main_arg1 (by decide)).trans <| (W5_main_arg1 m ρ c).trans <| (W4_main_arg1 m ρ c).trans <| (W3_main_arg1 m ρ c).trans <| (W2_main_arg1 m ρ c).trans <| (W1_of m ρ c main_arg1 (by decide)).trans rfl
/-- `main_arg2` reaches the end as launched. -/
theorem W6_main_arg2_launch (c : Dev nD) : W6 m ρ c (Proc.devRef .tc main_arg2) = m ((c : Thread nD τ).loc main_arg2) :=
  (W6_of m ρ c main_arg2 (by decide)).trans <| (W5_main_arg2 m ρ c).trans <| (W4_main_arg2 m ρ c).trans <| (W3_main_arg2 m ρ c).trans <| (W2_main_arg2 m ρ c).trans <| (W1_of m ρ c main_arg2 (by decide)).trans rfl
/-- `main_arg3` reaches the end as launched. -/
theorem W6_main_arg3_launch (c : Dev nD) : W6 m ρ c (Proc.devRef .tc main_arg3) = m ((c : Thread nD τ).loc main_arg3) :=
  (W6_of m ρ c main_arg3 (by decide)).trans <| (W5_main_arg3 m ρ c).trans <| (W4_main_arg3 m ρ c).trans <| (W3_main_arg3 m ρ c).trans <| (W2_main_arg3 m ρ c).trans <| (W1_of m ρ c main_arg3 (by decide)).trans rfl
/-- `main_arg4` reaches the end as launched. -/
theorem W6_main_arg4_launch (c : Dev nD) : W6 m ρ c (Proc.devRef .tc main_arg4) = m ((c : Thread nD τ).loc main_arg4) :=
  (W6_of m ρ c main_arg4 (by decide)).trans <| (W5_main_arg4 m ρ c).trans <| (W4_main_arg4 m ρ c).trans <| (W3_main_arg4 m ρ c).trans <| (W2_main_arg4 m ρ c).trans <| (W1_of m ρ c main_arg4 (by decide)).trans rfl
/-- `main_arg5` reaches the end as launched. -/
theorem W6_main_arg5_launch (c : Dev nD) : W6 m ρ c (Proc.devRef .tc main_arg5) = m ((c : Thread nD τ).loc main_arg5) :=
  (W6_of m ρ c main_arg5 (by decide)).trans <| (W5_main_arg5 m ρ c).trans <| (W4_main_arg5 m ρ c).trans <| (W3_main_arg5 m ρ c).trans <| (W2_main_arg5 m ρ c).trans <| (W1_of m ρ c main_arg5 (by decide)).trans rfl

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0: entered from every unscoped buffer at `W1`, left at `W2`. Its arrays are split out of the unscoped buffers
    and put back at the exit contents; the generator register and the scoped rest go into the invariant and come back;
    nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    refine (show (pdats m ρ 0 c).Φ (Fin.last _) ⊢ Pipeline.ΦA spec0 c from hout0 (V1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`. Its arrays are split out of the unscoped buffers
    and put back at the exit contents; the generator register and the scoped rest go into the invariant and come back;
    nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    refine (show (pdats m ρ 1 c).Φ (Fin.last _) ⊢ Pipeline.ΦA spec1 c from hout1 (V2 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W3`, left at `W4`. Its arrays are split out of the unscoped buffers
    and put back at the exit contents; the generator register and the scoped rest go into the invariant and come back;
    nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    refine (show (pdats m ρ 2 c).Φ (Fin.last _) ⊢ Pipeline.ΦA spec2 c from hout2 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W4`, left at `W5`. Its arrays are split out of the unscoped buffers
    and put back at the exit contents; the generator register and the scoped rest go into the invariant and come back;
    nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    refine (show (pdats m ρ 3 c).Φ (Fin.last _) ⊢ Pipeline.ΦA spec3 c from hout3 (V4 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ),
    .host (hseg hostOps4 hostOps4_sub hostOps4_fresh (W5 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state holds every buffer outside the regions' scopes at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c)
        ⊢ iprop(Tₙ m ρ c ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME: the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0_launch m ρ c),
     (h c _ (mem_uc main_arg1 (by decide))).trans (W6_main_arg1_launch m ρ c),
     (h c _ (mem_uc main_arg2 (by decide))).trans (W6_main_arg2_launch m ρ c),
     (h c _ (mem_uc main_arg3 (by decide))).trans (W6_main_arg3_launch m ρ c),
     (h c _ (mem_uc main_arg4 (by decide))).trans (W6_main_arg4_launch m ρ c),
     (h c _ (mem_uc main_arg5 (by decide))).trans (W6_main_arg5_launch m ρ c)⟩) (run_all m ρ)

end Cert.KernelIdeal.Hand

end
-- ==== Proof.Spec.lean ====
/-
  The mathematics both programs are compared against: one layer of the masked multilayer perceptron with log-normal
  noise, entry by entry on the extended reals.

  For a current activation `cur` (rows b, features i), weights `w` and a mask `mk` (layer l, output feature o, input
  feature i), location `mu` and scale `sg` (layer l, feature o) and standard normal draws `z` (layer l, row b,
  feature o), layer `l` maps `cur` to

      act(b, o) = max( Σ_i cur(b, i) · (w(l, o, i) · mk(l, o, i)) + exp(mu(l, o) + sg(l, o) · z(l, b, o)), 0 ).

  The network applies layers 0, 1, 2, 3 in turn, each to the activation before it, and returns the four activations
  side by side. Nothing here mentions a program: only index sets, sums and the extended reals' operations.
-/
import Idealize.ShloMosaic.PureOps.Ideal
import Idealize.ShloMosaic.Lib.ValueIdx

noncomputable section

open scoped BigOperators

namespace Cert.Spec

open Idealize.ShloMosaic Idealize.ShloMosaic.ValueIdx

/-- Activations: 4096 rows by 4096 features. -/
abbrev SAct : Shape := ⟨2, ![4096, 4096]⟩
/-- Weights, masks and draws: one 4096 by 4096 matrix per layer. -/
abbrev SLay : Shape := ⟨3, ![4, 4096, 4096]⟩
/-- Location and scale: one value per layer and feature. -/
abbrev SPar : Shape := ⟨2, ![4, 4096]⟩

/-- The zero the rectifier compares with: the value the all-zero single-precision word denotes. -/
abbrev zero : EReal := Ideal.ofBits .f32 0x00000000#32

/-- The masked linear part of layer `l` at row `b`, output feature `o`: the sum over the input features. -/
def lin (l : Fin 4) (cur : SAct.Idx → EReal) (w mk : SLay.Idx → EReal) (b o : Fin 4096) : EReal :=
  ∑ i : Fin 4096, cur (ix2 b i) * (w (ix3 l o i) * mk (ix3 l o i))

/-- The log-normal noise of layer `l` at row `b`, feature `o`. -/
def noise (l : Fin 4) (mu sg : SPar.Idx → EReal) (z : SLay.Idx → EReal) (b o : Fin 4096) : EReal :=
  Ideal.exp (mu (ix2 l o) + sg (ix2 l o) * z (ix3 l b o))

/-- Layer `l` at row `b`, feature `o`: linear part plus noise, rectified. -/
def actAt (l : Fin 4) (cur : SAct.Idx → EReal) (w mk : SLay.Idx → EReal) (mu sg : SPar.Idx → EReal) (z : SLay.Idx → EReal)
    (b o : Fin 4096) : EReal :=
  max (lin l cur w mk b o + noise l mu sg z b o) zero

/-- Layer `l` as a map of whole activations. -/
def layer (l : Fin 4) (cur : SAct.Idx → EReal) (w mk : SLay.Idx → EReal) (mu sg : SPar.Idx → EReal) (z : SLay.Idx → EReal) :
    SAct.Idx → EReal :=
  fun j => actAt l cur w mk mu sg z (j 0) (j 1)

theorem layer_apply (l : Fin 4) (cur : SAct.Idx → EReal) (w mk : SLay.Idx → EReal) (mu sg : SPar.Idx → EReal) (z : SLay.Idx → EReal)
    (b o : Fin 4096) : layer l cur w mk mu sg z (ix2 b o) = actAt l cur w mk mu sg z b o := rfl

/-- The four activations: each layer applied to the activation before it, the first to the input `x`. -/
def act0 (x : SAct.Idx → EReal) (w mk : SLay.Idx → EReal) (mu sg : SPar.Idx → EReal) (z : SLay.Idx → EReal) : SAct.Idx → EReal :=
  layer 0 x w mk mu sg z
def act1 (x : SAct.Idx → EReal) (w mk : SLay.Idx → EReal) (mu sg : SPar.Idx → EReal) (z : SLay.Idx → EReal) : SAct.Idx → EReal :=
  layer 1 (act0 x w mk mu sg z) w mk mu sg z
def act2 (x : SAct.Idx → EReal) (w mk : SLay.Idx → EReal) (mu sg : SPar.Idx → EReal) (z : SLay.Idx → EReal) : SAct.Idx → EReal :=
  layer 2 (act1 x w mk mu sg z) w mk mu sg z
def act3 (x : SAct.Idx → EReal) (w mk : SLay.Idx → EReal) (mu sg : SPar.Idx → EReal) (z : SLay.Idx → EReal) : SAct.Idx → EReal :=
  layer 3 (act2 x w mk mu sg z) w mk mu sg z

end Cert.Spec

end
-- ==== Proof.PayValue.lean ====
/-
  The kernel's arithmetic at an index. Each of the four layer kernels writes three blocks of 1024 rows by 512 output
  features: the zero block its accumulator is reset to; the accumulator plus the product of a 1024 by 1024 block of
  activations with the transpose of a 512 by 1024 block of masked weights; and, at the last step, the accumulator plus
  exp(mu + sg · z), rectified. Read at row p and feature q these are, on the extended reals,

      0,     acc(p, q) + Σ_j x(p, j) · (w(0, q, j) · mk(0, q, j)),     max(acc(p, q) + exp(mu(0, 0, q) + sg(0, 0, q) · z(0, p, q)), 0).

  The narrowing to sixteen-bit floats before the product is the identity on the extended reals.
-/
import proofs.«151625_j49460843381367_2_alg».proof.Proof.Gen.KernelIdeal.Skeleton
import proofs.«151625_j49460843381367_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelValue

open Idealize.ShloMosaic Idealize.ShloMosaic.ValueIdx Cert.KernelIdeal Cert.KernelIdeal.Gen

/-- Rows against rows: the product of a 1024 by 1024 block with the transpose of a 512 by 1024 block, accumulated into
    the zero block, at (p, q) is the sum over the shared coordinate of the products of row p and row q. -/
theorem matmul_rows_apply (lhs : FVec Ideal S1024x1024 .bf16) (rhs : FVec Ideal S512x1024 .bf16) (p : Fin 1024) (q : Fin 512) :
    matmul dot_S1024x1024_S512x1024_S1024x512_1_1_0_0_n_n none lhs rhs (constant (F := Ideal) S1024x512 .f32 0x00000000#32) (ix2 p q)
      = ∑ j : Fin 1024, lhs (ix2 p j) * rhs (ix2 q j) := by
  show FloatOps.matmul _ none lhs rhs _ (ix2 p q) = _
  rw [Ideal.matmul_constant_zero_apply,
    ← Equiv.sum_comp (contrEquiv1 dot_S1024x1024_S512x1024_S1024x512_1_1_0_0_n_n 1024 rfl rfl).symm]
  refine Finset.sum_congr rfl fun c _ => ?_
  have c2 := contrEquiv1_symm_val dot_S1024x1024_S512x1024_S1024x512_1_1_0_0_n_n 1024 rfl rfl c
  have l2 : dot_S1024x1024_S512x1024_S1024x512_1_1_0_0_n_n.lhsIdx (ix2 p q) ((contrEquiv1 _ 1024 rfl rfl).symm c) = ix2 p c := by
    funext ax; apply Fin.ext
    match ax with
    | ⟨0, _⟩ => simp [DotDims.lhsIdx, dot_S1024x1024_S512x1024_S1024x512_1_1_0_0_n_n]; rfl
    | ⟨1, _⟩ => simp [DotDims.lhsIdx, dot_S1024x1024_S512x1024_S1024x512_1_1_0_0_n_n]; exact c2
  have r2 : dot_S1024x1024_S512x1024_S1024x512_1_1_0_0_n_n.rhsIdx (ix2 p q) ((contrEquiv1 _ 1024 rfl rfl).symm c) = ix2 q c := by
    funext ax; apply Fin.ext
    match ax with
    | ⟨0, _⟩ => simp [DotDims.rhsIdx, dot_S1024x1024_S512x1024_S1024x512_1_1_0_0_n_n]; rfl
    | ⟨1, _⟩ => simp [DotDims.rhsIdx, dot_S1024x1024_S512x1024_S1024x512_1_1_0_0_n_n]; exact c2
  rw [l2, r2]

/-! ## Layer 0's kernel -/

/-- The block the accumulator is reset to is zero everywhere. -/
theorem pay0_1_apply (p : Fin 1024) (q : Fin 512) : k0_pay1 (F := Ideal) (ix2 p q) = Cert.Spec.zero := by
  unfold k0_pay1
  rw [shapeCast_self]
  rfl

/-- One accumulation step: the accumulator plus, over the 1024 input features of the step's tile, the activation times
    the masked weight. -/
theorem pay0_2_apply (x : Vec Ideal S1024x1024 .f32) (w mk : Vec Ideal S1x512x1024 .f32) (acc : Vec Ideal S1024x512 .f32)
    (p : Fin 1024) (q : Fin 512) :
    k0_pay2 x w mk acc (ix2 p q)
      = acc (ix2 p q) + ∑ j : Fin 1024, x (ix2 p j) * (w (ix3 0 q j) * mk (ix3 0 q j)) := by
  unfold k0_pay2
  rw [shapeCast_self]
  refine (addf_apply _ _ _).trans ?_
  refine congrArg (acc (ix2 p q) + ·) ?_
  refine (matmul_rows_apply _ _ p q).trans ?_
  refine Finset.sum_congr rfl fun j _ => ?_
  refine congrArg (x (ix2 p j) * ·) ?_
  show shapeCast S512x1024 w _ (ix2 q j) * shapeCast S512x1024 mk _ (ix2 q j) = _
  rw [shapeCast_1ab_ab_apply, shapeCast_1ab_ab_apply]

/-- The last step: the accumulated linear part plus the log-normal noise, rectified. -/
theorem pay0_3_apply (mu sg : Vec Ideal S1x1x512 .f32) (z : Vec Ideal S1x1024x512 .f32) (acc : Vec Ideal S1024x512 .f32)
    (p : Fin 1024) (q : Fin 512) :
    k0_pay3 mu sg z acc (ix2 p q)
      = max (acc (ix2 p q) + Ideal.exp (mu (ix3 0 0 q) + sg (ix3 0 0 q) * z (ix3 0 p q))) Cert.Spec.zero := by
  unfold k0_pay3
  show max (acc (ix2 p q) + Ideal.exp (broadcastTo S1024x512 (shapeCast S1x512 mu _) _ (ix2 p q)
      + broadcastTo S1024x512 (shapeCast S1x512 sg _) _ (ix2 p q) * shapeCast S1024x512 z _ (ix2 p q))) Cert.Spec.zero = _
  rw [broadcastTo_1b_ab_apply, broadcastTo_1b_ab_apply, shapeCast_1ab_ab_apply, shapeCast_1ab_ab_apply, shapeCast_1ab_ab_apply]

/-! ## Layer 1's kernel -/

/-- The block the accumulator is reset to is zero everywhere. -/
theorem pay1_1_apply (p : Fin 1024) (q : Fin 512) : k1_pay1 (F := Ideal) (ix2 p q) = Cert.Spec.zero := by
  unfold k1_pay1
  rw [shapeCast_self]
  rfl

/-- One accumulation step: the accumulator plus, over the 1024 input features of the step's tile, the activation times
    the masked weight. -/
theorem pay1_2_apply (x : Vec Ideal S1024x1024 .f32) (w mk : Vec Ideal S1x512x1024 .f32) (acc : Vec Ideal S1024x512 .f32)
    (p : Fin 1024) (q : Fin 512) :
    k1_pay2 x w mk acc (ix2 p q)
      = acc (ix2 p q) + ∑ j : Fin 1024, x (ix2 p j) * (w (ix3 0 q j) * mk (ix3 0 q j)) := by
  unfold k1_pay2
  rw [shapeCast_self, shapeCast_self]
  refine (addf_apply _ _ _).trans ?_
  refine congrArg (acc (ix2 p q) + ·) ?_
  refine (matmul_rows_apply _ _ p q).trans ?_
  refine Finset.sum_congr rfl fun j _ => ?_
  refine congrArg (x (ix2 p j) * ·) ?_
  show shapeCast S512x1024 w _ (ix2 q j) * shapeCast S512x1024 mk _ (ix2 q j) = _
  rw [shapeCast_1ab_ab_apply, shapeCast_1ab_ab_apply]

/-- The last step: the accumulated linear part plus the log-normal noise, rectified. -/
theorem pay1_3_apply (mu sg : Vec Ideal S1x1x512 .f32) (z : Vec Ideal S1x1024x512 .f32) (acc : Vec Ideal S1024x512 .f32)
    (p : Fin 1024) (q : Fin 512) :
    k1_pay3 mu sg z acc (ix2 p q)
      = max (acc (ix2 p q) + Ideal.exp (mu (ix3 0 0 q) + sg (ix3 0 0 q) * z (ix3 0 p q))) Cert.Spec.zero := by
  unfold k1_pay3
  show max (acc (ix2 p q) + Ideal.exp (broadcastTo S1024x512 (shapeCast S1x512 mu _) _ (ix2 p q)
      + broadcastTo S1024x512 (shapeCast S1x512 sg _) _ (ix2 p q) * shapeCast S1024x512 z _ (ix2 p q))) Cert.Spec.zero = _
  rw [broadcastTo_1b_ab_apply, broadcastTo_1b_ab_apply, shapeCast_1ab_ab_apply, shapeCast_1ab_ab_apply, shapeCast_1ab_ab_apply]

/-! ## Layer 2's kernel -/

/-- The block the accumulator is reset to is zero everywhere. -/
theorem pay2_1_apply (p : Fin 1024) (q : Fin 512) : k2_pay1 (F := Ideal) (ix2 p q) = Cert.Spec.zero := by
  unfold k2_pay1
  rw [shapeCast_self]
  rfl

/-- One accumulation step: the accumulator plus, over the 1024 input features of the step's tile, the activation times
    the masked weight. -/
theorem pay2_2_apply (x : Vec Ideal S1024x1024 .f32) (w mk : Vec Ideal S1x512x1024 .f32) (acc : Vec Ideal S1024x512 .f32)
    (p : Fin 1024) (q : Fin 512) :
    k2_pay2 x w mk acc (ix2 p q)
      = acc (ix2 p q) + ∑ j : Fin 1024, x (ix2 p j) * (w (ix3 0 q j) * mk (ix3 0 q j)) := by
  unfold k2_pay2
  rw [shapeCast_self, shapeCast_self]
  refine (addf_apply _ _ _).trans ?_
  refine congrArg (acc (ix2 p q) + ·) ?_
  refine (matmul_rows_apply _ _ p q).trans ?_
  refine Finset.sum_congr rfl fun j _ => ?_
  refine congrArg (x (ix2 p j) * ·) ?_
  show shapeCast S512x1024 w _ (ix2 q j) * shapeCast S512x1024 mk _ (ix2 q j) = _
  rw [shapeCast_1ab_ab_apply, shapeCast_1ab_ab_apply]

/-- The last step: the accumulated linear part plus the log-normal noise, rectified. -/
theorem pay2_3_apply (mu sg : Vec Ideal S1x1x512 .f32) (z : Vec Ideal S1x1024x512 .f32) (acc : Vec Ideal S1024x512 .f32)
    (p : Fin 1024) (q : Fin 512) :
    k2_pay3 mu sg z acc (ix2 p q)
      = max (acc (ix2 p q) + Ideal.exp (mu (ix3 0 0 q) + sg (ix3 0 0 q) * z (ix3 0 p q))) Cert.Spec.zero := by
  unfold k2_pay3
  show max (acc (ix2 p q) + Ideal.exp (broadcastTo S1024x512 (shapeCast S1x512 mu _) _ (ix2 p q)
      + broadcastTo S1024x512 (shapeCast S1x512 sg _) _ (ix2 p q) * shapeCast S1024x512 z _ (ix2 p q))) Cert.Spec.zero = _
  rw [broadcastTo_1b_ab_apply, broadcastTo_1b_ab_apply, shapeCast_1ab_ab_apply, shapeCast_1ab_ab_apply, shapeCast_1ab_ab_apply]

/-! ## Layer 3's kernel -/

/-- The block the accumulator is reset to is zero everywhere. -/
theorem pay3_1_apply (p : Fin 1024) (q : Fin 512) : k3_pay1 (F := Ideal) (ix2 p q) = Cert.Spec.zero := by
  unfold k3_pay1
  rw [shapeCast_self]
  rfl

/-- One accumulation step: the accumulator plus, over the 1024 input features of the step's tile, the activation times
    the masked weight. -/
theorem pay3_2_apply (x : Vec Ideal S1024x1024 .f32) (w mk : Vec Ideal S1x512x1024 .f32) (acc : Vec Ideal S1024x512 .f32)
    (p : Fin 1024) (q : Fin 512) :
    k3_pay2 x w mk acc (ix2 p q)
      = acc (ix2 p q) + ∑ j : Fin 1024, x (ix2 p j) * (w (ix3 0 q j) * mk (ix3 0 q j)) := by
  unfold k3_pay2
  rw [shapeCast_self, shapeCast_self]
  refine (addf_apply _ _ _).trans ?_
  refine congrArg (acc (ix2 p q) + ·) ?_
  refine (matmul_rows_apply _ _ p q).trans ?_
  refine Finset.sum_congr rfl fun j _ => ?_
  refine congrArg (x (ix2 p j) * ·) ?_
  show shapeCast S512x1024 w _ (ix2 q j) * shapeCast S512x1024 mk _ (ix2 q j) = _
  rw [shapeCast_1ab_ab_apply, shapeCast_1ab_ab_apply]

/-- The last step: the accumulated linear part plus the log-normal noise, rectified. -/
theorem pay3_3_apply (mu sg : Vec Ideal S1x1x512 .f32) (z : Vec Ideal S1x1024x512 .f32) (acc : Vec Ideal S1024x512 .f32)
    (p : Fin 1024) (q : Fin 512) :
    k3_pay3 mu sg z acc (ix2 p q)
      = max (acc (ix2 p q) + Ideal.exp (mu (ix3 0 0 q) + sg (ix3 0 0 q) * z (ix3 0 p q))) Cert.Spec.zero := by
  unfold k3_pay3
  show max (acc (ix2 p q) + Ideal.exp (broadcastTo S1024x512 (shapeCast S1x512 mu _) _ (ix2 p q)
      + broadcastTo S1024x512 (shapeCast S1x512 sg _) _ (ix2 p q) * shapeCast S1024x512 z _ (ix2 p q))) Cert.Spec.zero = _
  rw [broadcastTo_1b_ab_apply, broadcastTo_1b_ab_apply, shapeCast_1ab_ab_apply, shapeCast_1ab_ab_apply, shapeCast_1ab_ab_apply]

end Cert.KernelValue

end
-- ==== Proof.TileSum4.lean ====
/-
  Four tiles of 1024 make the whole sum over 4096: an accumulator that starts at zero and adds, tile after tile, the sum of
  a function over that tile's 1024 coordinates ends at the function's sum over all 4096 coordinates.
-/
import proofs.«151625_j49460843381367_2_alg».proof.Proof.Spec
import Idealize.ShloMosaic.PureOps.Ideal.Laws

noncomputable section

open scoped BigOperators

namespace Cert.KernelValue

open Idealize.ShloMosaic

/-- Coordinate `j` of tile `s`: the tiles are consecutive runs of 1024. -/
def tile (s : Fin 4) (j : Fin 1024) : Fin 4096 := ⟨1024 * s.val + j.val, by omega⟩

theorem tile_val (s : Fin 4) (j : Fin 1024) : (tile s j).val = 1024 * s.val + j.val := rfl

/-- The sum over 4096 coordinates, tile by tile. -/
theorem sum_tiles {M : Type*} [AddCommMonoid M] (f : Fin 4096 → M) :
    ∑ k : Fin 4096, f k = ∑ s : Fin 4, ∑ j : Fin 1024, f (tile s j) := by
  rw [← Fintype.sum_prod_type']
  rw [← Equiv.sum_comp (finProdFinEquiv : Fin 4 × Fin 1024 ≃ Fin (4 * 1024)) f]
  refine Finset.sum_congr rfl fun x _ => congrArg f (Fin.ext ?_)
  show x.2.val + 1024 * x.1.val = 1024 * x.1.val + x.2.val
  omega

/-- The zero the accumulator starts from is the extended reals' zero. -/
theorem zero_eq : Cert.Spec.zero = 0 := Ideal.ofBits_zero_f32

/-- Four accumulation steps from zero, one per tile, give the whole sum. -/
theorem acc4 (f : Fin 4096 → EReal) :
    (((Cert.Spec.zero + ∑ j : Fin 1024, f (tile 0 j)) + ∑ j : Fin 1024, f (tile 1 j)) + ∑ j : Fin 1024, f (tile 2 j))
      + ∑ j : Fin 1024, f (tile 3 j) = ∑ k : Fin 4096, f k := by
  rw [sum_tiles f, Fin.sum_univ_four, zero_eq, zero_add]

end Cert.KernelValue

end
-- ==== Proof.KI_ValShared.lean ====
/-
  What the four regions' value proofs share: the tiles of 1024 input features and the accumulator's partial sums. The
  contracted axis of 4096 input features is walked in four tiles; the accumulator after tile k is zero plus the sums
  of tiles 0 to k, added in this order, and after the fourth tile that is the whole sum. The summand of layer l's
  linear part at row b and output feature o is activation × (weight × mask) at input feature i'.
-/
import proofs.«151625_j49460843381367_2_alg».proof.Proof.TileSum4
import proofs.«151625_j49460843381367_2_alg».proof.Proof.Spec
import Idealize.ShloMosaic.Lib.ValueIdx

noncomputable section

open scoped BigOperators

namespace Cert.KernelIdeal.Hand

open Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- The input feature that coordinate j of tile s is (s below 4). -/
def tileN (s : ℕ) (j : Fin 1024) : Fin 4096 := ⟨(1024 * s + j.val) % 4096, by omega⟩

theorem tileN_eq (s : Fin 4) : tileN s.val = Cert.KernelValue.tile s :=
  funext fun j => Fin.ext (by show (1024 * s.val + j.val) % 4096 = 1024 * s.val + j.val; omega)

/-- The accumulator's value after tile k: zero, plus tile 0's sum, …, plus tile k's sum, added in this order. -/
def psum (f : Fin 4096 → EReal) : ℕ → EReal
  | 0 => Cert.Spec.zero + ∑ j : Fin 1024, f (tileN 0 j)
  | k + 1 => psum f k + ∑ j : Fin 1024, f (tileN (k + 1) j)

/-- After the fourth tile it is the whole sum. -/
theorem psum_three (f : Fin 4096 → EReal) : psum f 3 = ∑ i : Fin 4096, f i := by
  have h0 : tileN 0 = Cert.KernelValue.tile 0 := tileN_eq 0
  have h1 : tileN 1 = Cert.KernelValue.tile 1 := tileN_eq 1
  have h2 : tileN 2 = Cert.KernelValue.tile 2 := tileN_eq 2
  have h3 : tileN 3 = Cert.KernelValue.tile 3 := tileN_eq 3
  show (((Cert.Spec.zero + ∑ j : Fin 1024, f (tileN 0 j)) + ∑ j : Fin 1024, f (tileN (0 + 1) j))
    + ∑ j : Fin 1024, f (tileN (0 + 1 + 1) j)) + ∑ j : Fin 1024, f (tileN (0 + 1 + 1 + 1) j) = _
  rw [show (0 + 1 + 1 + 1 : ℕ) = 3 from rfl, show (0 + 1 + 1 : ℕ) = 2 from rfl, show (0 + 1 : ℕ) = 1 from rfl, h0, h1, h2, h3]
  exact Cert.KernelValue.acc4 f

/-- The summand of layer l's linear part at row b, output feature o: input feature i' contributes the activation times
    the masked weight. -/
def termOf (l : Fin 4) (cur : Cert.Spec.SAct.Idx → EReal) (w mk : Cert.Spec.SLay.Idx → EReal) (b o i' : Fin 4096) : EReal :=
  cur (ix2 b i') * (w (ix3 l o i') * mk (ix3 l o i'))

end Cert.KernelIdeal.Hand

end
-- ==== Proof.KI_R0Val.lean ====
/-
  Region 0 (the first layer's pallas_call): the value its output array ends holding.

  Position t of the 4 × 8 × 4 grid is the point (i, j, k) = (t / 32, (t / 4) mod 8, t mod 4); k, innermost, walks the four
  tiles of 1024 input features. At every point the body adds to its accumulator, at row p and output feature q of the
  blocks, the sum over the tile of activation × (weight × mask); at k = 0 the accumulator starts from zero; at k = 3 the
  body writes max(accumulator + exp(mu + sigma · z), 0) into block (i, j) of the output. So after position t the
  accumulator at (p, q) is zero plus the sums of tiles 0 to k of the linear part's summands at array row 1024 i + p and
  output feature 512 j + q, added in this order; after the fourth tile that is the whole sum over the 4096 input
  features, and what the point writes back is its block of the layer's output. The blocks of the points with k = 3 tile
  the output array, so the array ends holding layer 0 applied to the arrays the region found.
-/
import proofs.«151625_j49460843381367_2_alg».proof.Proof.KI_R0Dat
import proofs.«151625_j49460843381367_2_alg».proof.Proof.PayValue
import proofs.«151625_j49460843381367_2_alg».proof.Proof.KI_ValShared
import Idealize.ShloMosaic.Lib.Pipeline.Value
import Idealize.ShloMosaic.Lib.ValueIdx
import Idealize.ShloMosaic.Lib.ValueLayout
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open scoped BigOperators

/-! ## What each kind of point leaves, as the body's arithmetic of the blocks it loads -/

/-- A point with k = 0 leaves in the accumulator the first tile's product added to the zero block. -/
theorem sacc0_A (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond0_0 i) (hc1 : ¬cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    View.canon (kernelRun0_A c i arg3 harg3 arg4 harg4 arg5 harg5 arg6 harg6 arg7 harg7 arg8 harg8 arg9 harg9 arg10 harg10 hc0 hc1 x3 x4 x5 x6 x7 x8).2.1 = k0_pay2 x3 x4 x5 k0_pay1 := by
  unfold kernelRun0_A
  dsimp only
  sl_unfold_words
  rw [View.canon_cons_unit_zero (S := S1024x512) hz2, View.readCov_unit_zero (S := S1024x512) _ hz2]
  simp only [View.readAt_eq_ld, harg3.read_unread, harg4.read_unread, harg5.read_unread,
    View.ld_unit_zero (S := S1024x1024) hz2, View.ld_unit_zero (S := S1x512x1024) hz3]

/-- A point with k = 1 or 2 leaves in the accumulator its tile's product added to what the accumulator held. -/
theorem sacc0_B (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : ¬cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun0_B c i arg3 harg3 arg4 harg4 arg5 harg5 arg6 harg6 arg7 harg7 arg8 harg8 arg9 harg9 arg10 harg10 hc0 hc1 x3 x4 x5 x6 x7 x8 xs).2.1 = k0_pay2 x3 x4 x5 xs := by
  unfold kernelRun0_B
  dsimp only
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- A point with k = 3 leaves in the accumulator the last tile's product added to what the accumulator held, -/
theorem sacc0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun0_C c i arg3 harg3 arg4 harg4 arg5 harg5 arg6 harg6 arg7 harg7 arg8 harg8 arg9 harg9 arg10 harg10 hc0 hc1 x3 x4 x5 x6 x7 x8 xs).2.1 = k0_pay2 x3 x4 x5 xs := by
  unfold kernelRun0_C
  dsimp only
  sl_unfold_words
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- and in the output block that sum plus the noise, rectified. -/
theorem sout0_C (c : Dev nD) (i : grid0.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond0_0 i) (hc1 : cond0_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun0_C c i arg3 harg3 arg4 harg4 arg5 harg5 arg6 harg6 arg7 harg7 arg8 harg8 arg9 harg9 arg10 harg10 hc0 hc1 x3 x4 x5 x6 x7 x8 xs).1 = k0_pay3 x6 x7 x8 (k0_pay2 x3 x4 x5 xs) := by
  unfold kernelRun0_C
  dsimp only
  sl_unfold_words
  rw [View.canon_unit_zero (S := S1024x512) hz2, View.readCov_unit_zero (S := S1024x512) _ hz2]
  simp only [View.readAt_eq_ld, harg3.read_unread, harg4.read_unread, harg5.read_unread, harg6.read_unread, harg7.read_unread,
    harg8.read_unread, harg10.read_unread,
    View.ld_unit_zero (S := S1024x1024) hz2, View.ld_unit_zero (S := S1x512x1024) hz3, View.ld_unit_zero (S := S1024x512) hz2,
    View.ld_unit_zero (S := S1x1x512) hz3, View.ld_unit_zero (S := S1x1024x512) hz3]

section Generic
variable (V : (c : Dev nD) → (b : Ref sig .tc) → Buf (Elt F) ((c : Thread nD τ).loc b))

/-- After a point with k = 0 the accumulator holds the first tile's product added to the zero block. -/
theorem outs0_A (c : Dev nD) (t : Fin cfg0.N) (h0 : t.val % 4 = 0) (h1 : ¬t.val % 4 = 3) :
    (outsAt0 V c t.val t.isLt).2 = k0_pay2 (iblk0 V c 0 t) (iblk0 V c 1 t) (iblk0 V c 2 t) k0_pay1 := by
  rw [outsAt0_A V c t h0 h1]
  dsimp only
  rw [View.read_writes_junk_eq_canon, sacc0_A]

/-- After a point with k = 1 or 2 it holds the point's tile's product added to what the point before left. -/
theorem outs0_B (c : Dev nD) (t : Fin cfg0.N) (h0 : ¬t.val % 4 = 0) (h1 : ¬t.val % 4 = 3) :
    (outsAt0 V c t.val t.isLt).2 = k0_pay2 (iblk0 V c 0 t) (iblk0 V c 1 t) (iblk0 V c 2 t)
      (outsAt0 V c (t.val - 1) (Nat.lt_of_le_of_lt (Nat.sub_le _ _) t.isLt)).2 := by
  rw [outsAt0_B V c t h0 h1]
  dsimp only
  rw [View.read_writes_junk_eq_canon, sacc0_B]

/-- After a point with k = 3 likewise, -/
theorem outs0_C (c : Dev nD) (t : Fin cfg0.N) (h0 : ¬t.val % 4 = 0) (h1 : t.val % 4 = 3) :
    (outsAt0 V c t.val t.isLt).2 = k0_pay2 (iblk0 V c 0 t) (iblk0 V c 1 t) (iblk0 V c 2 t)
      (outsAt0 V c (t.val - 1) (Nat.lt_of_le_of_lt (Nat.sub_le _ _) t.isLt)).2 := by
  rw [outsAt0_C V c t h0 h1]
  dsimp only
  rw [View.read_writes_junk_eq_canon, sacc0_C]

/-- and the output block holds that sum plus the noise, rectified. -/
theorem outs0_C_out (c : Dev nD) (t : Fin cfg0.N) (h0 : ¬t.val % 4 = 0) (h1 : t.val % 4 = 3) :
    (outsAt0 V c t.val t.isLt).1 = k0_pay3 (iblk0 V c 3 t) (iblk0 V c 4 t) (iblk0 V c 5 t)
      (k0_pay2 (iblk0 V c 0 t) (iblk0 V c 1 t) (iblk0 V c 2 t)
        (outsAt0 V c (t.val - 1) (Nat.lt_of_le_of_lt (Nat.sub_le _ _) t.isLt)).2) := by
  rw [outsAt0_C V c t h0 h1]
  dsimp only
  rw [View.read_writes_junk_eq_canon, sout0_C]

end Generic

/-! ## Where the windows' blocks sit in their arrays

Position t of the 4 × 8 × 4 grid is the point (i, j, k) = (t / 32, (t / 4) mod 8, t mod 4). -/

theorem idx_facts0 : ∀ t : Fin cfg0.N,
    win0_0.index t (0 : Fin 2) = t.val / 32 ∧ win0_0.index t (1 : Fin 2) = t.val % 4
    ∧ win0_1.index t (0 : Fin 3) = 0 ∧ win0_1.index t (1 : Fin 3) = t.val / 4 % 8 ∧ win0_1.index t (2 : Fin 3) = t.val % 4
    ∧ win0_2.index t (0 : Fin 3) = 0 ∧ win0_2.index t (1 : Fin 3) = t.val / 4 % 8 ∧ win0_2.index t (2 : Fin 3) = t.val % 4
    ∧ win0_3.index t (0 : Fin 3) = 0 ∧ win0_3.index t (1 : Fin 3) = 0 ∧ win0_3.index t (2 : Fin 3) = t.val / 4 % 8
    ∧ win0_4.index t (0 : Fin 3) = 0 ∧ win0_4.index t (1 : Fin 3) = 0 ∧ win0_4.index t (2 : Fin 3) = t.val / 4 % 8
    ∧ win0_5.index t (0 : Fin 3) = 0 ∧ win0_5.index t (1 : Fin 3) = t.val / 32 ∧ win0_5.index t (2 : Fin 3) = t.val / 4 % 8
    ∧ win0_6.index t (0 : Fin 2) = t.val / 32 ∧ win0_6.index t (1 : Fin 2) = t.val / 4 % 8 :=
  (by decide +kernel : ∀ t : Fin grid0.N, _)

/-- The array row that row p of the point's blocks is, -/
def row0 (t : Fin cfg0.N) (p : Fin 1024) : Fin 4096 :=
  ⟨1024 * (t.val / 32) + p.val, by have := t.isLt; have hN : cfg0.N = 128 := N_0; omega⟩
/-- and the output feature that feature q of the point's blocks is. -/
def col0 (t : Fin cfg0.N) (q : Fin 512) : Fin 4096 := ⟨512 * (t.val / 4 % 8) + q.val, by omega⟩
section AtIdeal
variable (V : (c : Dev nD) → (b : Ref sig .tc) → Buf (Elt Ideal) ((c : Thread nD τ).loc b))

/-! ## The blocks read at an index -/

theorem iblk0_0_apply (c : Dev nD) (t : Fin cfg0.N) (p j : Fin 1024) (b i' : Fin 4096)
    (hb : b.val = 1024 * (t.val / 32) + p.val) (hi : i'.val = 1024 * (t.val % 4) + j.val) :
    (iblk0 V c 0 t : Vec Ideal S1024x1024 .f32) (ix2 p j) = V c main_arg0 (ix2 b i') := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 1024 + 1 * p.val = b.val; omega
  | ⟨1, _⟩ => show win0_0.index t (1 : Fin 2) * 1024 + 1 * j.val = i'.val; omega

theorem iblk0_1_apply (c : Dev nD) (t : Fin cfg0.N) (q : Fin 512) (j : Fin 1024) (o i' : Fin 4096)
    (ho : o.val = 512 * (t.val / 4 % 8) + q.val) (hi : i'.val = 1024 * (t.val % 4) + j.val) :
    (iblk0 V c 1 t : Vec Ideal S1x512x1024 .f32) (ix3 (0 : Fin 1) q j) = V c main_arg1 (ix3 (0 : Fin 4) o i') := by
  obtain ⟨-, -, e0, e1, e2, -⟩ := idx_facts0 t
  unfold iblk0
  rw [View.read_apply]
  show V c main_arg1 _ = V c main_arg1 _
  congr 1
  funext a; apply Fin.ext
  match a with
  | ⟨0, _⟩ => show win0_1.index t (0 : Fin 3) * 1 + 1 * 0 = 0; omega
  | ⟨1, _⟩ => show win0_1.index t (1 : Fin 3) * 512 + 1 * q.val = o.val; omega
  | ⟨2, _⟩ => show win0_1.index t (2 : Fin 3) * 1024 + 1 * j.val = i'.val; omega

theorem iblk0_2_apply (c : Dev nD) (t : Fin cfg0.N) (q : Fin 512) (j : Fin 1024) (o i' : Fin 4096)
    (ho : o.val = 512 * (t.val / 4 % 8) + q.val) (hi : i'.val = 1024 * (t.val % 4) + j.val) :
    (iblk0 V c 2 t : Vec Ideal S1x512x1024 .f32) (ix3 (0 : Fin 1) q j) = V c main_arg2 (ix3 (0 : Fin 4) o i') := by
  obtain ⟨-, -, -, -, -, e0, e1, e2, -⟩ := idx_facts0 t
  unfold iblk0
  rw [View.read_apply]
  show V c main_arg2 _ = V c main_arg2 _
  congr 1
  funext a; apply Fin.ext
  match a with
  | ⟨0, _⟩ => show win0_2.index t (0 : Fin 3) * 1 + 1 * 0 = 0; omega
  | ⟨1, _⟩ => show win0_2.index t (1 : Fin 3) * 512 + 1 * q.val = o.val; omega
  | ⟨2, _⟩ => show win0_2.index t (2 : Fin 3) * 1024 + 1 * j.val = i'.val; omega

theorem iblk0_3_apply (c : Dev nD) (t : Fin cfg0.N) (q : Fin 512) (o : Fin 4096)
    (ho : o.val = 512 * (t.val / 4 % 8) + q.val) :
    (iblk0 V c 3 t : Vec Ideal S1x1x512 .f32) (ix3 (0 : Fin 1) (0 : Fin 1) q) = V c main_v0 (ix3 (0 : Fin 4) (0 : Fin 1) o) := by
  obtain ⟨-, -, -, -, -, -, -, -, e0, e1, e2, -⟩ := idx_facts0 t
  unfold iblk0
  rw [View.read_apply]
  show V c main_v0 _ = V c main_v0 _
  congr 1
  funext a; apply Fin.ext
  match a with
  | ⟨0, _⟩ => show win0_3.index t (0 : Fin 3) * 1 + 1 * 0 = 0; omega
  | ⟨1, _⟩ => show win0_3.index t (1 : Fin 3) * 1 + 1 * 0 = 0; omega
  | ⟨2, _⟩ => show win0_3.index t (2 : Fin 3) * 512 + 1 * q.val = o.val; omega

theorem iblk0_4_apply (c : Dev nD) (t : Fin cfg0.N) (q : Fin 512) (o : Fin 4096)
    (ho : o.val = 512 * (t.val / 4 % 8) + q.val) :
    (iblk0 V c 4 t : Vec Ideal S1x1x512 .f32) (ix3 (0 : Fin 1) (0 : Fin 1) q) = V c main_v1 (ix3 (0 : Fin 4) (0 : Fin 1) o) := by
  obtain ⟨-, -, -, -, -, -, -, -, -, -, -, e0, e1, e2, -⟩ := idx_facts0 t
  unfold iblk0
  rw [View.read_apply]
  show V c main_v1 _ = V c main_v1 _
  congr 1
  funext a; apply Fin.ext
  match a with
  | ⟨0, _⟩ => show win0_4.index t (0 : Fin 3) * 1 + 1 * 0 = 0; omega
  | ⟨1, _⟩ => show win0_4.index t (1 : Fin 3) * 1 + 1 * 0 = 0; omega
  | ⟨2, _⟩ => show win0_4.index t (2 : Fin 3) * 512 + 1 * q.val = o.val; omega

theorem iblk0_5_apply (c : Dev nD) (t : Fin cfg0.N) (p : Fin 1024) (q : Fin 512) (b o : Fin 4096)
    (hb : b.val = 1024 * (t.val / 32) + p.val) (ho : o.val = 512 * (t.val / 4 % 8) + q.val) :
    (iblk0 V c 5 t : Vec Ideal S1x1024x512 .f32) (ix3 (0 : Fin 1) p q) = V c main_arg5 (ix3 (0 : Fin 4) b o) := by
  obtain ⟨-, -, -, -, -, -, -, -, -, -, -, -, -, -, e0, e1, e2, -⟩ := idx_facts0 t
  unfold iblk0
  rw [View.read_apply]
  show V c main_arg5 _ = V c main_arg5 _
  congr 1
  funext a; apply Fin.ext
  match a with
  | ⟨0, _⟩ => show win0_5.index t (0 : Fin 3) * 1 + 1 * 0 = 0; omega
  | ⟨1, _⟩ => show win0_5.index t (1 : Fin 3) * 1024 + 1 * p.val = b.val; omega
  | ⟨2, _⟩ => show win0_5.index t (2 : Fin 3) * 512 + 1 * q.val = o.val; omega

end AtIdeal

section AtIdeal
variable (V : (c : Dev nD) → (b : Ref sig .tc) → Buf (Elt Ideal) ((c : Thread nD τ).loc b))

/-! ## The accumulator from point to point -/

/-- The summand of the layer's linear part at row b, output feature o: input feature i' contributes the activation
    times the masked weight. -/
def term0 (c : Dev nD) (b o i' : Fin 4096) : EReal :=
  termOf (0 : Fin 4) (V c main_arg0) (V c main_arg1) (V c main_arg2) b o i'

/-- The product a point adds, at (p, q): the sum of the summands over the point's tile of input features. -/
theorem tile_sum0 (c : Dev nD) (t : Fin cfg0.N) (p : Fin 1024) (q : Fin 512)
    (x : Vec Ideal S1024x1024 .f32) (w mk : Vec Ideal S1x512x1024 .f32)
    (hx : x = iblk0 V c 0 t) (hw : w = iblk0 V c 1 t) (hmk : mk = iblk0 V c 2 t) :
    ∑ j : Fin 1024, x (ix2 p j) * (w (ix3 (0 : Fin 1) q j) * mk (ix3 (0 : Fin 1) q j))
      = ∑ j : Fin 1024, term0 V c (row0 t p) (col0 t q) (tileN (t.val % 4) j) := by
  subst hx hw hmk
  refine Finset.sum_congr rfl fun j _ => ?_
  have hi : (tileN (t.val % 4) j).val = 1024 * (t.val % 4) + j.val := by
    show (1024 * (t.val % 4) + j.val) % 4096 = _; omega
  unfold term0 termOf
  rw [iblk0_0_apply V c t p j (row0 t p) (tileN (t.val % 4) j) rfl hi,
    iblk0_1_apply V c t q j (col0 t q) (tileN (t.val % 4) j) rfl hi,
    iblk0_2_apply V c t q j (col0 t q) (tileN (t.val % 4) j) rfl hi]

/-- After position n, at k = n mod 4, the accumulator at (p, q) is zero plus the sums of tiles 0 to k of the linear
    part's summands at the point's row and output feature. -/
theorem acc_inv0 (c : Dev nD) : ∀ (n : ℕ) (hn : n < cfg0.N) (p : Fin 1024) (q : Fin 512),
    (outsAt0 V c n hn).2 (ix2 p q) = psum (term0 V c (row0 ⟨n, hn⟩ p) (col0 ⟨n, hn⟩ q)) (n % 4) := by
  intro n
  induction n with
  | zero =>
    intro hn p q
    have e := outs0_A V c ⟨0, hn⟩ rfl (by show ¬(0 : ℕ) % 4 = 3; decide)
    refine (congrFun e (ix2 p q)).trans ?_
    refine (Cert.KernelValue.pay0_2_apply _ _ _ _ p q).trans ?_
    rw [Cert.KernelValue.pay0_1_apply, tile_sum0 V c ⟨0, hn⟩ p q _ _ _ rfl rfl rfl]
    rfl
  | succ n ih =>
    intro hn p q
    have hN : cfg0.N = 128 := N_0
    have hprev := ih (Nat.lt_of_succ_lt hn) p q
    by_cases h0 : (n + 1) % 4 = 0
    · have e := outs0_A V c ⟨n + 1, hn⟩ h0 (by show ¬(n + 1) % 4 = 3; omega)
      refine (congrFun e (ix2 p q)).trans ?_
      refine (Cert.KernelValue.pay0_2_apply _ _ _ _ p q).trans ?_
      rw [Cert.KernelValue.pay0_1_apply, tile_sum0 V c ⟨n + 1, hn⟩ p q _ _ _ rfl rfl rfl, h0]
      rfl
    · have e : (outsAt0 V c (n + 1) hn).2 = k0_pay2 (iblk0 V c 0 ⟨n + 1, hn⟩) (iblk0 V c 1 ⟨n + 1, hn⟩) (iblk0 V c 2 ⟨n + 1, hn⟩)
          (outsAt0 V c n (Nat.lt_of_succ_lt hn)).2 := by
        by_cases h1 : (n + 1) % 4 = 3
        · exact outs0_C V c ⟨n + 1, hn⟩ h0 h1
        · exact outs0_B V c ⟨n + 1, hn⟩ h0 h1
      refine (congrFun e (ix2 p q)).trans ?_
      refine (Cert.KernelValue.pay0_2_apply _ _ _ _ p q).trans ?_
      rw [hprev, tile_sum0 V c ⟨n + 1, hn⟩ p q _ _ _ rfl rfl rfl]
      obtain ⟨k, hk⟩ : ∃ k, (n + 1) % 4 = k + 1 := ⟨(n + 1) % 4 - 1, by omega⟩
      have hk' : n % 4 = k := by omega
      have hr : row0 ⟨n, Nat.lt_of_succ_lt hn⟩ p = row0 ⟨n + 1, hn⟩ p :=
        Fin.ext (by show 1024 * (n / 32) + p.val = 1024 * ((n + 1) / 32) + p.val; omega)
      have hc : col0 ⟨n, Nat.lt_of_succ_lt hn⟩ q = col0 ⟨n + 1, hn⟩ q :=
        Fin.ext (by show 512 * (n / 4 % 8) + q.val = 512 * ((n + 1) / 4 % 8) + q.val; omega)
      rw [hr, hc, hk', show ((⟨n + 1, hn⟩ : Fin cfg0.N).val % 4) = k + 1 from hk]
      rfl

/-! ## What the region leaves in its output array -/

/-- The first layer applied to the arrays as the region finds them; the location and scale arrays are given through
    their reshaped copies. -/
def G0 (c : Dev nD) (MU SG : Cert.Spec.SPar.Idx → EReal) : Cert.Spec.SAct.Idx → EReal :=
  Cert.Spec.layer 0 (V c main_arg0) (V c main_arg1) (V c main_arg2) MU SG (V c main_arg5)

theorem G0_apply (c : Dev nD) (MU SG : Cert.Spec.SPar.Idx → EReal) (b o : Fin 4096) :
    G0 V c MU SG (ix2 b o) = max ((∑ i' : Fin 4096, term0 V c b o i')
      + Ideal.exp (MU (ix2 (0 : Fin 4) o) + SG (ix2 (0 : Fin 4) o) * (V c main_arg5 (ix3 (0 : Fin 4) b o) : EReal))) Cert.Spec.zero := rfl

/-- An index of the array is in point t's output block iff each coordinate is in the block's range on its axis. -/
theorem mem_blk0_6 (t : Fin cfg0.N) (i : S4096x4096.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v2).slice (win0_6.rect t)).set ↔ _
  rw [View.set_slice_whole, Rect.mem_set_unit]
  exact Iff.rfl

/-- What a point with k = 3 writes back is its block of the layer's output. -/
theorem flushed0_eq (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o))
    (t : Fin cfg0.N) (hf : (cfg0.win 6).flush t = true) :
    (dat0 V c).flushed 6 t = ((cfg0.win 6).blk t).view.read (Elt Ideal) (G0 V c MU SG) := by
  have h3 : t.val % 4 = 3 := (flush0_6 t).mp hf
  have h0 : ¬t.val % 4 = 0 := by omega
  obtain ⟨-, -, -, -, -, -, -, -, -, -, -, -, -, -, -, -, -, e0, e1⟩ := idx_facts0 t
  show (cfg0.win 6).cut (grid0.coords t) ((dat0 V c).after 6 t) = _
  rw [after0_6, outs0_C_out V c t h0 h3]
  funext y
  obtain ⟨p, q, rfl⟩ : ∃ (p : Fin 1024) (q : Fin 512), y = ix2 p q := ⟨y 0, y 1, eq_ix2 y⟩
  rw [View.read_apply]
  show k0_pay3 (F := Ideal) _ _ _ _ (ix2 p q) = G0 V c MU SG (((cfg0.win 6).blk t).view.emb (ix2 p q))
  have hemb : ((cfg0.win 6).blk t).view.emb (ix2 p q) = ix2 (row0 t p) (col0 t q) := by
    funext a; apply Fin.ext
    match a with
    | ⟨0, _⟩ => show win0_6.index t (0 : Fin 2) * 1024 + 1 * p.val = 1024 * (t.val / 32) + p.val; omega
    | ⟨1, _⟩ => show win0_6.index t (1 : Fin 2) * 512 + 1 * q.val = 512 * (t.val / 4 % 8) + q.val; omega
  rw [hemb, G0_apply]
  refine (Cert.KernelValue.pay0_3_apply _ _ _ _ p q).trans ?_
  have hacc := acc_inv0 V c t.val t.isLt p q
  rw [outs0_C V c t h0 h3] at hacc
  rw [hacc, h3, psum_three, iblk0_3_apply V c t q (col0 t q) rfl, iblk0_4_apply V c t q (col0 t q) rfl,
    iblk0_5_apply V c t p q (row0 t p) (col0 t q) rfl rfl, hMU, hSG]

/-- Every entry of the output array is in the block of a point with k = 3. -/
theorem cover0 (i : S4096x4096.Idx) :
    ∃ t : Fin cfg0.N, (cfg0.win 6).flush t = true ∧ i ∈ ((cfg0.win 6).blk t).view.set := by
  have hN : cfg0.N = 128 := N_0
  have hi0 : (i 0).val < 4096 := (i 0).isLt
  have hi1 : (i 1).val < 4096 := (i 1).isLt
  refine ⟨⟨32 * ((i 0).val / 1024) + 4 * ((i 1).val / 512) + 3, by omega⟩, (flush0_6 _).mpr (by show (32 * ((i 0).val / 1024) + 4 * ((i 1).val / 512) + 3) % 4 = 3; omega), ?_⟩
  rw [mem_blk0_6]
  obtain ⟨-, -, -, -, -, -, -, -, -, -, -, -, -, -, -, -, -, e0, e1⟩ :=
    idx_facts0 ⟨32 * ((i 0).val / 1024) + 4 * ((i 1).val / 512) + 3, by omega⟩
  intro a
  match a with
  | ⟨0, _⟩ =>
    show win0_6.index _ (0 : Fin 2) * 1024 ≤ (i 0).val ∧ (i 0).val < win0_6.index _ (0 : Fin 2) * 1024 + 1024
    rw [e0]; show (32 * ((i 0).val / 1024) + 4 * ((i 1).val / 512) + 3) / 32 * 1024 ≤ _ ∧ _ < (32 * ((i 0).val / 1024) + 4 * ((i 1).val / 512) + 3) / 32 * 1024 + 1024
    omega
  | ⟨1, _⟩ =>
    show win0_6.index _ (1 : Fin 2) * 512 ≤ (i 1).val ∧ (i 1).val < win0_6.index _ (1 : Fin 2) * 512 + 512
    rw [e1]; show (32 * ((i 0).val / 1024) + 4 * ((i 1).val / 512) + 3) / 4 % 8 * 512 ≤ _ ∧ _ < (32 * ((i 0).val / 1024) + 4 * ((i 1).val / 512) + 3) / 4 % 8 * 512 + 512
    omega

/-- So after the region its output array holds the first layer's output. -/
theorem final0 (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o)) :
    (dat0 V c).arrAt 6 cfg0.N = G0 V c MU SG :=
  (dat0 V c).arrAt_eq_of_cover 6 (G0 V c MU SG) (flushed0_eq V c MU SG hMU hSG) cover0

end AtIdeal

end Cert.KernelIdeal.Hand

end
-- ==== Proof.KI_R1Val.lean ====
/-
  Region 1 (the second layer's pallas_call): the value its output array ends holding.

  Position t of the 4 × 8 × 4 grid is the point (i, j, k) = (t / 32, (t / 4) mod 8, t mod 4); k, innermost, walks the four
  tiles of 1024 input features. At every point the body adds to its accumulator, at row p and output feature q of the
  blocks, the sum over the tile of activation × (weight × mask); at k = 0 the accumulator starts from zero; at k = 3 the
  body writes max(accumulator + exp(mu + sigma · z), 0) into block (i, j) of the output. So after position t the
  accumulator at (p, q) is zero plus the sums of tiles 0 to k of the linear part's summands at array row 1024 i + p and
  output feature 512 j + q, added in this order; after the fourth tile that is the whole sum over the 4096 input
  features, and what the point writes back is its block of the layer's output. The blocks of the points with k = 3 tile
  the output array, so the array ends holding layer 1 applied to the arrays the region found.
-/
import proofs.«151625_j49460843381367_2_alg».proof.Proof.KI_R1Dat
import proofs.«151625_j49460843381367_2_alg».proof.Proof.PayValue
import proofs.«151625_j49460843381367_2_alg».proof.Proof.KI_ValShared
import Idealize.ShloMosaic.Lib.Pipeline.Value
import Idealize.ShloMosaic.Lib.ValueIdx
import Idealize.ShloMosaic.Lib.ValueLayout
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open scoped BigOperators

/-! ## What each kind of point leaves, as the body's arithmetic of the blocks it loads -/

/-- A point with k = 0 leaves in the accumulator the first tile's product added to the zero block. -/
theorem sacc1_A (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond1_0 i) (hc1 : ¬cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    View.canon (kernelRun1_A c i arg3 harg3 arg4 harg4 arg5 harg5 arg6 harg6 arg7 harg7 arg8 harg8 arg9 harg9 arg10 harg10 hc0 hc1 x3 x4 x5 x6 x7 x8).2.1 = k1_pay2 x3 x4 x5 k1_pay1 := by
  unfold kernelRun1_A
  dsimp only
  sl_unfold_words
  rw [View.canon_cons_unit_zero (S := S1024x512) hz2, View.readCov_unit_zero (S := S1024x512) _ hz2]
  simp only [View.readAt_eq_ld, harg3.read_unread, harg4.read_unread, harg5.read_unread,
    View.ld_unit_zero (S := S1024x1024) hz2, View.ld_unit_zero (S := S1x512x1024) hz3]

/-- A point with k = 1 or 2 leaves in the accumulator its tile's product added to what the accumulator held. -/
theorem sacc1_B (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : ¬cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun1_B c i arg3 harg3 arg4 harg4 arg5 harg5 arg6 harg6 arg7 harg7 arg8 harg8 arg9 harg9 arg10 harg10 hc0 hc1 x3 x4 x5 x6 x7 x8 xs).2.1 = k1_pay2 x3 x4 x5 xs := by
  unfold kernelRun1_B
  dsimp only
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- A point with k = 3 leaves in the accumulator the last tile's product added to what the accumulator held, -/
theorem sacc1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun1_C c i arg3 harg3 arg4 harg4 arg5 harg5 arg6 harg6 arg7 harg7 arg8 harg8 arg9 harg9 arg10 harg10 hc0 hc1 x3 x4 x5 x6 x7 x8 xs).2.1 = k1_pay2 x3 x4 x5 xs := by
  unfold kernelRun1_C
  dsimp only
  sl_unfold_words
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- and in the output block that sum plus the noise, rectified. -/
theorem sout1_C (c : Dev nD) (i : grid1.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond1_0 i) (hc1 : cond1_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun1_C c i arg3 harg3 arg4 harg4 arg5 harg5 arg6 harg6 arg7 harg7 arg8 harg8 arg9 harg9 arg10 harg10 hc0 hc1 x3 x4 x5 x6 x7 x8 xs).1 = k1_pay3 x6 x7 x8 (k1_pay2 x3 x4 x5 xs) := by
  unfold kernelRun1_C
  dsimp only
  sl_unfold_words
  rw [View.canon_unit_zero (S := S1024x512) hz2, View.readCov_unit_zero (S := S1024x512) _ hz2]
  simp only [View.readAt_eq_ld, harg3.read_unread, harg4.read_unread, harg5.read_unread, harg6.read_unread, harg7.read_unread,
    harg8.read_unread, harg10.read_unread,
    View.ld_unit_zero (S := S1024x1024) hz2, View.ld_unit_zero (S := S1x512x1024) hz3, View.ld_unit_zero (S := S1024x512) hz2,
    View.ld_unit_zero (S := S1x1x512) hz3, View.ld_unit_zero (S := S1x1024x512) hz3]

section Generic
variable (V : (c : Dev nD) → (b : Ref sig .tc) → Buf (Elt F) ((c : Thread nD τ).loc b))

/-- After a point with k = 0 the accumulator holds the first tile's product added to the zero block. -/
theorem outs1_A (c : Dev nD) (t : Fin cfg1.N) (h0 : t.val % 4 = 0) (h1 : ¬t.val % 4 = 3) :
    (outsAt1 V c t.val t.isLt).2 = k1_pay2 (iblk1 V c 0 t) (iblk1 V c 1 t) (iblk1 V c 2 t) k1_pay1 := by
  rw [outsAt1_A V c t h0 h1]
  dsimp only
  rw [View.read_writes_junk_eq_canon, sacc1_A]

/-- After a point with k = 1 or 2 it holds the point's tile's product added to what the point before left. -/
theorem outs1_B (c : Dev nD) (t : Fin cfg1.N) (h0 : ¬t.val % 4 = 0) (h1 : ¬t.val % 4 = 3) :
    (outsAt1 V c t.val t.isLt).2 = k1_pay2 (iblk1 V c 0 t) (iblk1 V c 1 t) (iblk1 V c 2 t)
      (outsAt1 V c (t.val - 1) (Nat.lt_of_le_of_lt (Nat.sub_le _ _) t.isLt)).2 := by
  rw [outsAt1_B V c t h0 h1]
  dsimp only
  rw [View.read_writes_junk_eq_canon, sacc1_B]

/-- After a point with k = 3 likewise, -/
theorem outs1_C (c : Dev nD) (t : Fin cfg1.N) (h0 : ¬t.val % 4 = 0) (h1 : t.val % 4 = 3) :
    (outsAt1 V c t.val t.isLt).2 = k1_pay2 (iblk1 V c 0 t) (iblk1 V c 1 t) (iblk1 V c 2 t)
      (outsAt1 V c (t.val - 1) (Nat.lt_of_le_of_lt (Nat.sub_le _ _) t.isLt)).2 := by
  rw [outsAt1_C V c t h0 h1]
  dsimp only
  rw [View.read_writes_junk_eq_canon, sacc1_C]

/-- and the output block holds that sum plus the noise, rectified. -/
theorem outs1_C_out (c : Dev nD) (t : Fin cfg1.N) (h0 : ¬t.val % 4 = 0) (h1 : t.val % 4 = 3) :
    (outsAt1 V c t.val t.isLt).1 = k1_pay3 (iblk1 V c 3 t) (iblk1 V c 4 t) (iblk1 V c 5 t)
      (k1_pay2 (iblk1 V c 0 t) (iblk1 V c 1 t) (iblk1 V c 2 t)
        (outsAt1 V c (t.val - 1) (Nat.lt_of_le_of_lt (Nat.sub_le _ _) t.isLt)).2) := by
  rw [outsAt1_C V c t h0 h1]
  dsimp only
  rw [View.read_writes_junk_eq_canon, sout1_C]

end Generic

/-! ## Where the windows' blocks sit in their arrays

Position t of the 4 × 8 × 4 grid is the point (i, j, k) = (t / 32, (t / 4) mod 8, t mod 4). -/

theorem idx_facts1 : ∀ t : Fin cfg1.N,
    win1_0.index t (0 : Fin 2) = t.val / 32 ∧ win1_0.index t (1 : Fin 2) = t.val % 4
    ∧ win1_1.index t (0 : Fin 3) = 1 ∧ win1_1.index t (1 : Fin 3) = t.val / 4 % 8 ∧ win1_1.index t (2 : Fin 3) = t.val % 4
    ∧ win1_2.index t (0 : Fin 3) = 1 ∧ win1_2.index t (1 : Fin 3) = t.val / 4 % 8 ∧ win1_2.index t (2 : Fin 3) = t.val % 4
    ∧ win1_3.index t (0 : Fin 3) = 1 ∧ win1_3.index t (1 : Fin 3) = 0 ∧ win1_3.index t (2 : Fin 3) = t.val / 4 % 8
    ∧ win1_4.index t (0 : Fin 3) = 1 ∧ win1_4.index t (1 : Fin 3) = 0 ∧ win1_4.index t (2 : Fin 3) = t.val / 4 % 8
    ∧ win1_5.index t (0 : Fin 3) = 1 ∧ win1_5.index t (1 : Fin 3) = t.val / 32 ∧ win1_5.index t (2 : Fin 3) = t.val / 4 % 8
    ∧ win1_6.index t (0 : Fin 2) = t.val / 32 ∧ win1_6.index t (1 : Fin 2) = t.val / 4 % 8 :=
  (by decide +kernel : ∀ t : Fin grid1.N, _)

/-- The array row that row p of the point's blocks is, -/
def row1 (t : Fin cfg1.N) (p : Fin 1024) : Fin 4096 :=
  ⟨1024 * (t.val / 32) + p.val, by have := t.isLt; have hN : cfg1.N = 128 := N_1; omega⟩
/-- and the output feature that feature q of the point's blocks is. -/
def col1 (t : Fin cfg1.N) (q : Fin 512) : Fin 4096 := ⟨512 * (t.val / 4 % 8) + q.val, by omega⟩
section AtIdeal
variable (V : (c : Dev nD) → (b : Ref sig .tc) → Buf (Elt Ideal) ((c : Thread nD τ).loc b))

/-! ## The blocks read at an index -/

theorem iblk1_0_apply (c : Dev nD) (t : Fin cfg1.N) (p j : Fin 1024) (b i' : Fin 4096)
    (hb : b.val = 1024 * (t.val / 32) + p.val) (hi : i'.val = 1024 * (t.val % 4) + j.val) :
    (iblk1 V c 0 t : Vec Ideal S1024x1024 .f32) (ix2 p j) = V c main_v2 (ix2 b i') := by
  obtain ⟨e0, e1, -⟩ := idx_facts1 t
  unfold iblk1
  rw [View.read_apply]
  show V c main_v2 _ = V c main_v2 _
  congr 1
  funext a; apply Fin.ext
  match a with
  | ⟨0, _⟩ => show win1_0.index t (0 : Fin 2) * 1024 + 1 * p.val = b.val; omega
  | ⟨1, _⟩ => show win1_0.index t (1 : Fin 2) * 1024 + 1 * j.val = i'.val; omega

theorem iblk1_1_apply (c : Dev nD) (t : Fin cfg1.N) (q : Fin 512) (j : Fin 1024) (o i' : Fin 4096)
    (ho : o.val = 512 * (t.val / 4 % 8) + q.val) (hi : i'.val = 1024 * (t.val % 4) + j.val) :
    (iblk1 V c 1 t : Vec Ideal S1x512x1024 .f32) (ix3 (0 : Fin 1) q j) = V c main_arg1 (ix3 (1 : Fin 4) o i') := by
  obtain ⟨-, -, e0, e1, e2, -⟩ := idx_facts1 t
  unfold iblk1
  rw [View.read_apply]
  show V c main_arg1 _ = V c main_arg1 _
  congr 1
  funext a; apply Fin.ext
  match a with
  | ⟨0, _⟩ => show win1_1.index t (0 : Fin 3) * 1 + 1 * 0 = 1; omega
  | ⟨1, _⟩ => show win1_1.index t (1 : Fin 3) * 512 + 1 * q.val = o.val; omega
  | ⟨2, _⟩ => show win1_1.index t (2 : Fin 3) * 1024 + 1 * j.val = i'.val; omega

theorem iblk1_2_apply (c : Dev nD) (t : Fin cfg1.N) (q : Fin 512) (j : Fin 1024) (o i' : Fin 4096)
    (ho : o.val = 512 * (t.val / 4 % 8) + q.val) (hi : i'.val = 1024 * (t.val % 4) + j.val) :
    (iblk1 V c 2 t : Vec Ideal S1x512x1024 .f32) (ix3 (0 : Fin 1) q j) = V c main_arg2 (ix3 (1 : Fin 4) o i') := by
  obtain ⟨-, -, -, -, -, e0, e1, e2, -⟩ := idx_facts1 t
  unfold iblk1
  rw [View.read_apply]
  show V c main_arg2 _ = V c main_arg2 _
  congr 1
  funext a; apply Fin.ext
  match a with
  | ⟨0, _⟩ => show win1_2.index t (0 : Fin 3) * 1 + 1 * 0 = 1; omega
  | ⟨1, _⟩ => show win1_2.index t (1 : Fin 3) * 512 + 1 * q.val = o.val; omega
  | ⟨2, _⟩ => show win1_2.index t (2 : Fin 3) * 1024 + 1 * j.val = i'.val; omega

theorem iblk1_3_apply (c : Dev nD) (t : Fin cfg1.N) (q : Fin 512) (o : Fin 4096)
    (ho : o.val = 512 * (t.val / 4 % 8) + q.val) :
    (iblk1 V c 3 t : Vec Ideal S1x1x512 .f32) (ix3 (0 : Fin 1) (0 : Fin 1) q) = V c main_v0 (ix3 (1 : Fin 4) (0 : Fin 1) o) := by
  obtain ⟨-, -, -, -, -, -, -, -, e0, e1, e2, -⟩ := idx_facts1 t
  unfold iblk1
  rw [View.read_apply]
  show V c main_v0 _ = V c main_v0 _
  congr 1
  funext a; apply Fin.ext
  match a with
  | ⟨0, _⟩ => show win1_3.index t (0 : Fin 3) * 1 + 1 * 0 = 1; omega
  | ⟨1, _⟩ => show win1_3.index t (1 : Fin 3) * 1 + 1 * 0 = 0; omega
  | ⟨2, _⟩ => show win1_3.index t (2 : Fin 3) * 512 + 1 * q.val = o.val; omega

theorem iblk1_4_apply (c : Dev nD) (t : Fin cfg1.N) (q : Fin 512) (o : Fin 4096)
    (ho : o.val = 512 * (t.val / 4 % 8) + q.val) :
    (iblk1 V c 4 t : Vec Ideal S1x1x512 .f32) (ix3 (0 : Fin 1) (0 : Fin 1) q) = V c main_v1 (ix3 (1 : Fin 4) (0 : Fin 1) o) := by
  obtain ⟨-, -, -, -, -, -, -, -, -, -, -, e0, e1, e2, -⟩ := idx_facts1 t
  unfold iblk1
  rw [View.read_apply]
  show V c main_v1 _ = V c main_v1 _
  congr 1
  funext a; apply Fin.ext
  match a with
  | ⟨0, _⟩ => show win1_4.index t (0 : Fin 3) * 1 + 1 * 0 = 1; omega
  | ⟨1, _⟩ => show win1_4.index t (1 : Fin 3) * 1 + 1 * 0 = 0; omega
  | ⟨2, _⟩ => show win1_4.index t (2 : Fin 3) * 512 + 1 * q.val = o.val; omega

theorem iblk1_5_apply (c : Dev nD) (t : Fin cfg1.N) (p : Fin 1024) (q : Fin 512) (b o : Fin 4096)
    (hb : b.val = 1024 * (t.val / 32) + p.val) (ho : o.val = 512 * (t.val / 4 % 8) + q.val) :
    (iblk1 V c 5 t : Vec Ideal S1x1024x512 .f32) (ix3 (0 : Fin 1) p q) = V c main_arg5 (ix3 (1 : Fin 4) b o) := by
  obtain ⟨-, -, -, -, -, -, -, -, -, -, -, -, -, -, e0, e1, e2, -⟩ := idx_facts1 t
  unfold iblk1
  rw [View.read_apply]
  show V c main_arg5 _ = V c main_arg5 _
  congr 1
  funext a; apply Fin.ext
  match a with
  | ⟨0, _⟩ => show win1_5.index t (0 : Fin 3) * 1 + 1 * 0 = 1; omega
  | ⟨1, _⟩ => show win1_5.index t (1 : Fin 3) * 1024 + 1 * p.val = b.val; omega
  | ⟨2, _⟩ => show win1_5.index t (2 : Fin 3) * 512 + 1 * q.val = o.val; omega

end AtIdeal

section AtIdeal
variable (V : (c : Dev nD) → (b : Ref sig .tc) → Buf (Elt Ideal) ((c : Thread nD τ).loc b))

/-! ## The accumulator from point to point -/

/-- The summand of the layer's linear part at row b, output feature o: input feature i' contributes the activation
    times the masked weight. -/
def term1 (c : Dev nD) (b o i' : Fin 4096) : EReal :=
  termOf (1 : Fin 4) (V c main_v2) (V c main_arg1) (V c main_arg2) b o i'

/-- The product a point adds, at (p, q): the sum of the summands over the point's tile of input features. -/
theorem tile_sum1 (c : Dev nD) (t : Fin cfg1.N) (p : Fin 1024) (q : Fin 512)
    (x : Vec Ideal S1024x1024 .f32) (w mk : Vec Ideal S1x512x1024 .f32)
    (hx : x = iblk1 V c 0 t) (hw : w = iblk1 V c 1 t) (hmk : mk = iblk1 V c 2 t) :
    ∑ j : Fin 1024, x (ix2 p j) * (w (ix3 (0 : Fin 1) q j) * mk (ix3 (0 : Fin 1) q j))
      = ∑ j : Fin 1024, term1 V c (row1 t p) (col1 t q) (tileN (t.val % 4) j) := by
  subst hx hw hmk
  refine Finset.sum_congr rfl fun j _ => ?_
  have hi : (tileN (t.val % 4) j).val = 1024 * (t.val % 4) + j.val := by
    show (1024 * (t.val % 4) + j.val) % 4096 = _; omega
  unfold term1 termOf
  rw [iblk1_0_apply V c t p j (row1 t p) (tileN (t.val % 4) j) rfl hi,
    iblk1_1_apply V c t q j (col1 t q) (tileN (t.val % 4) j) rfl hi,
    iblk1_2_apply V c t q j (col1 t q) (tileN (t.val % 4) j) rfl hi]

/-- After position n, at k = n mod 4, the accumulator at (p, q) is zero plus the sums of tiles 0 to k of the linear
    part's summands at the point's row and output feature. -/
theorem acc_inv1 (c : Dev nD) : ∀ (n : ℕ) (hn : n < cfg1.N) (p : Fin 1024) (q : Fin 512),
    (outsAt1 V c n hn).2 (ix2 p q) = psum (term1 V c (row1 ⟨n, hn⟩ p) (col1 ⟨n, hn⟩ q)) (n % 4) := by
  intro n
  induction n with
  | zero =>
    intro hn p q
    have e := outs1_A V c ⟨0, hn⟩ rfl (by show ¬(0 : ℕ) % 4 = 3; decide)
    refine (congrFun e (ix2 p q)).trans ?_
    refine (Cert.KernelValue.pay1_2_apply _ _ _ _ p q).trans ?_
    rw [Cert.KernelValue.pay1_1_apply, tile_sum1 V c ⟨0, hn⟩ p q _ _ _ rfl rfl rfl]
    rfl
  | succ n ih =>
    intro hn p q
    have hN : cfg1.N = 128 := N_1
    have hprev := ih (Nat.lt_of_succ_lt hn) p q
    by_cases h0 : (n + 1) % 4 = 0
    · have e := outs1_A V c ⟨n + 1, hn⟩ h0 (by show ¬(n + 1) % 4 = 3; omega)
      refine (congrFun e (ix2 p q)).trans ?_
      refine (Cert.KernelValue.pay1_2_apply _ _ _ _ p q).trans ?_
      rw [Cert.KernelValue.pay1_1_apply, tile_sum1 V c ⟨n + 1, hn⟩ p q _ _ _ rfl rfl rfl, h0]
      rfl
    · have e : (outsAt1 V c (n + 1) hn).2 = k1_pay2 (iblk1 V c 0 ⟨n + 1, hn⟩) (iblk1 V c 1 ⟨n + 1, hn⟩) (iblk1 V c 2 ⟨n + 1, hn⟩)
          (outsAt1 V c n (Nat.lt_of_succ_lt hn)).2 := by
        by_cases h1 : (n + 1) % 4 = 3
        · exact outs1_C V c ⟨n + 1, hn⟩ h0 h1
        · exact outs1_B V c ⟨n + 1, hn⟩ h0 h1
      refine (congrFun e (ix2 p q)).trans ?_
      refine (Cert.KernelValue.pay1_2_apply _ _ _ _ p q).trans ?_
      rw [hprev, tile_sum1 V c ⟨n + 1, hn⟩ p q _ _ _ rfl rfl rfl]
      obtain ⟨k, hk⟩ : ∃ k, (n + 1) % 4 = k + 1 := ⟨(n + 1) % 4 - 1, by omega⟩
      have hk' : n % 4 = k := by omega
      have hr : row1 ⟨n, Nat.lt_of_succ_lt hn⟩ p = row1 ⟨n + 1, hn⟩ p :=
        Fin.ext (by show 1024 * (n / 32) + p.val = 1024 * ((n + 1) / 32) + p.val; omega)
      have hc : col1 ⟨n, Nat.lt_of_succ_lt hn⟩ q = col1 ⟨n + 1, hn⟩ q :=
        Fin.ext (by show 512 * (n / 4 % 8) + q.val = 512 * ((n + 1) / 4 % 8) + q.val; omega)
      rw [hr, hc, hk', show ((⟨n + 1, hn⟩ : Fin cfg1.N).val % 4) = k + 1 from hk]
      rfl

/-! ## What the region leaves in its output array -/

/-- The first layer applied to the arrays as the region finds them; the location and scale arrays are given through
    their reshaped copies. -/
def G1 (c : Dev nD) (MU SG : Cert.Spec.SPar.Idx → EReal) : Cert.Spec.SAct.Idx → EReal :=
  Cert.Spec.layer 1 (V c main_v2) (V c main_arg1) (V c main_arg2) MU SG (V c main_arg5)

theorem G1_apply (c : Dev nD) (MU SG : Cert.Spec.SPar.Idx → EReal) (b o : Fin 4096) :
    G1 V c MU SG (ix2 b o) = max ((∑ i' : Fin 4096, term1 V c b o i')
      + Ideal.exp (MU (ix2 (1 : Fin 4) o) + SG (ix2 (1 : Fin 4) o) * (V c main_arg5 (ix3 (1 : Fin 4) b o) : EReal))) Cert.Spec.zero := rfl

/-- An index of the array is in point t's output block iff each coordinate is in the block's range on its axis. -/
theorem mem_blk1_6 (t : Fin cfg1.N) (i : S4096x4096.Idx) :
    i ∈ ((cfg1.win 6).blk t).view.set ↔ ∀ a : Fin 2, win1_6.index t a * S1024x512.size a ≤ (i a).val ∧ (i a).val < win1_6.index t a * S1024x512.size a + S1024x512.size a := by
  show i ∈ ((View.whole main_v3).slice (win1_6.rect t)).set ↔ _
  rw [View.set_slice_whole, Rect.mem_set_unit]
  exact Iff.rfl

/-- What a point with k = 3 writes back is its block of the layer's output. -/
theorem flushed1_eq (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o))
    (t : Fin cfg1.N) (hf : (cfg1.win 6).flush t = true) :
    (dat1 V c).flushed 6 t = ((cfg1.win 6).blk t).view.read (Elt Ideal) (G1 V c MU SG) := by
  have h3 : t.val % 4 = 3 := (flush1_6 t).mp hf
  have h0 : ¬t.val % 4 = 0 := by omega
  obtain ⟨-, -, -, -, -, -, -, -, -, -, -, -, -, -, -, -, -, e0, e1⟩ := idx_facts1 t
  show (cfg1.win 6).cut (grid1.coords t) ((dat1 V c).after 6 t) = _
  rw [after1_6, outs1_C_out V c t h0 h3]
  funext y
  obtain ⟨p, q, rfl⟩ : ∃ (p : Fin 1024) (q : Fin 512), y = ix2 p q := ⟨y 0, y 1, eq_ix2 y⟩
  rw [View.read_apply]
  show k1_pay3 (F := Ideal) _ _ _ _ (ix2 p q) = G1 V c MU SG (((cfg1.win 6).blk t).view.emb (ix2 p q))
  have hemb : ((cfg1.win 6).blk t).view.emb (ix2 p q) = ix2 (row1 t p) (col1 t q) := by
    funext a; apply Fin.ext
    match a with
    | ⟨0, _⟩ => show win1_6.index t (0 : Fin 2) * 1024 + 1 * p.val = 1024 * (t.val / 32) + p.val; omega
    | ⟨1, _⟩ => show win1_6.index t (1 : Fin 2) * 512 + 1 * q.val = 512 * (t.val / 4 % 8) + q.val; omega
  rw [hemb, G1_apply]
  refine (Cert.KernelValue.pay1_3_apply _ _ _ _ p q).trans ?_
  have hacc := acc_inv1 V c t.val t.isLt p q
  rw [outs1_C V c t h0 h3] at hacc
  rw [hacc, h3, psum_three, iblk1_3_apply V c t q (col1 t q) rfl, iblk1_4_apply V c t q (col1 t q) rfl,
    iblk1_5_apply V c t p q (row1 t p) (col1 t q) rfl rfl, hMU, hSG]

/-- Every entry of the output array is in the block of a point with k = 3. -/
theorem cover1 (i : S4096x4096.Idx) :
    ∃ t : Fin cfg1.N, (cfg1.win 6).flush t = true ∧ i ∈ ((cfg1.win 6).blk t).view.set := by
  have hN : cfg1.N = 128 := N_1
  have hi0 : (i 0).val < 4096 := (i 0).isLt
  have hi1 : (i 1).val < 4096 := (i 1).isLt
  refine ⟨⟨32 * ((i 0).val / 1024) + 4 * ((i 1).val / 512) + 3, by omega⟩, (flush1_6 _).mpr (by show (32 * ((i 0).val / 1024) + 4 * ((i 1).val / 512) + 3) % 4 = 3; omega), ?_⟩
  rw [mem_blk1_6]
  obtain ⟨-, -, -, -, -, -, -, -, -, -, -, -, -, -, -, -, -, e0, e1⟩ :=
    idx_facts1 ⟨32 * ((i 0).val / 1024) + 4 * ((i 1).val / 512) + 3, by omega⟩
  intro a
  match a with
  | ⟨0, _⟩ =>
    show win1_6.index _ (0 : Fin 2) * 1024 ≤ (i 0).val ∧ (i 0).val < win1_6.index _ (0 : Fin 2) * 1024 + 1024
    rw [e0]; show (32 * ((i 0).val / 1024) + 4 * ((i 1).val / 512) + 3) / 32 * 1024 ≤ _ ∧ _ < (32 * ((i 0).val / 1024) + 4 * ((i 1).val / 512) + 3) / 32 * 1024 + 1024
    omega
  | ⟨1, _⟩ =>
    show win1_6.index _ (1 : Fin 2) * 512 ≤ (i 1).val ∧ (i 1).val < win1_6.index _ (1 : Fin 2) * 512 + 512
    rw [e1]; show (32 * ((i 0).val / 1024) + 4 * ((i 1).val / 512) + 3) / 4 % 8 * 512 ≤ _ ∧ _ < (32 * ((i 0).val / 1024) + 4 * ((i 1).val / 512) + 3) / 4 % 8 * 512 + 512
    omega

/-- So after the region its output array holds the first layer's output. -/
theorem final1 (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o)) :
    (dat1 V c).arrAt 6 cfg1.N = G1 V c MU SG :=
  (dat1 V c).arrAt_eq_of_cover 6 (G1 V c MU SG) (flushed1_eq V c MU SG hMU hSG) cover1

end AtIdeal

end Cert.KernelIdeal.Hand

end
-- ==== Proof.KI_R2Val.lean ====
/-
  Region 2 (the third layer's pallas_call): the value its output array ends holding.

  Position t of the 4 × 8 × 4 grid is the point (i, j, k) = (t / 32, (t / 4) mod 8, t mod 4); k, innermost, walks the four
  tiles of 1024 input features. At every point the body adds to its accumulator, at row p and output feature q of the
  blocks, the sum over the tile of activation × (weight × mask); at k = 0 the accumulator starts from zero; at k = 3 the
  body writes max(accumulator + exp(mu + sigma · z), 0) into block (i, j) of the output. So after position t the
  accumulator at (p, q) is zero plus the sums of tiles 0 to k of the linear part's summands at array row 1024 i + p and
  output feature 512 j + q, added in this order; after the fourth tile that is the whole sum over the 4096 input
  features, and what the point writes back is its block of the layer's output. The blocks of the points with k = 3 tile
  the output array, so the array ends holding layer 2 applied to the arrays the region found.
-/
import proofs.«151625_j49460843381367_2_alg».proof.Proof.KI_R2Dat
import proofs.«151625_j49460843381367_2_alg».proof.Proof.PayValue
import proofs.«151625_j49460843381367_2_alg».proof.Proof.KI_ValShared
import Idealize.ShloMosaic.Lib.Pipeline.Value
import Idealize.ShloMosaic.Lib.ValueIdx
import Idealize.ShloMosaic.Lib.ValueLayout
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open scoped BigOperators

/-! ## What each kind of point leaves, as the body's arithmetic of the blocks it loads -/

/-- A point with k = 0 leaves in the accumulator the first tile's product added to the zero block. -/
theorem sacc2_A (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond2_0 i) (hc1 : ¬cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    View.canon (kernelRun2_A c i arg3 harg3 arg4 harg4 arg5 harg5 arg6 harg6 arg7 harg7 arg8 harg8 arg9 harg9 arg10 harg10 hc0 hc1 x3 x4 x5 x6 x7 x8).2.1 = k2_pay2 x3 x4 x5 k2_pay1 := by
  unfold kernelRun2_A
  dsimp only
  sl_unfold_words
  rw [View.canon_cons_unit_zero (S := S1024x512) hz2, View.readCov_unit_zero (S := S1024x512) _ hz2]
  simp only [View.readAt_eq_ld, harg3.read_unread, harg4.read_unread, harg5.read_unread,
    View.ld_unit_zero (S := S1024x1024) hz2, View.ld_unit_zero (S := S1x512x1024) hz3]

/-- A point with k = 1 or 2 leaves in the accumulator its tile's product added to what the accumulator held. -/
theorem sacc2_B (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : ¬cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun2_B c i arg3 harg3 arg4 harg4 arg5 harg5 arg6 harg6 arg7 harg7 arg8 harg8 arg9 harg9 arg10 harg10 hc0 hc1 x3 x4 x5 x6 x7 x8 xs).2.1 = k2_pay2 x3 x4 x5 xs := by
  unfold kernelRun2_B
  dsimp only
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- A point with k = 3 leaves in the accumulator the last tile's product added to what the accumulator held, -/
theorem sacc2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun2_C c i arg3 harg3 arg4 harg4 arg5 harg5 arg6 harg6 arg7 harg7 arg8 harg8 arg9 harg9 arg10 harg10 hc0 hc1 x3 x4 x5 x6 x7 x8 xs).2.1 = k2_pay2 x3 x4 x5 xs := by
  unfold kernelRun2_C
  dsimp only
  sl_unfold_words
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- and in the output block that sum plus the noise, rectified. -/
theorem sout2_C (c : Dev nD) (i : grid2.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond2_0 i) (hc1 : cond2_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun2_C c i arg3 harg3 arg4 harg4 arg5 harg5 arg6 harg6 arg7 harg7 arg8 harg8 arg9 harg9 arg10 harg10 hc0 hc1 x3 x4 x5 x6 x7 x8 xs).1 = k2_pay3 x6 x7 x8 (k2_pay2 x3 x4 x5 xs) := by
  unfold kernelRun2_C
  dsimp only
  sl_unfold_words
  rw [View.canon_unit_zero (S := S1024x512) hz2, View.readCov_unit_zero (S := S1024x512) _ hz2]
  simp only [View.readAt_eq_ld, harg3.read_unread, harg4.read_unread, harg5.read_unread, harg6.read_unread, harg7.read_unread,
    harg8.read_unread, harg10.read_unread,
    View.ld_unit_zero (S := S1024x1024) hz2, View.ld_unit_zero (S := S1x512x1024) hz3, View.ld_unit_zero (S := S1024x512) hz2,
    View.ld_unit_zero (S := S1x1x512) hz3, View.ld_unit_zero (S := S1x1024x512) hz3]

section Generic
variable (V : (c : Dev nD) → (b : Ref sig .tc) → Buf (Elt F) ((c : Thread nD τ).loc b))

/-- After a point with k = 0 the accumulator holds the first tile's product added to the zero block. -/
theorem outs2_A (c : Dev nD) (t : Fin cfg2.N) (h0 : t.val % 4 = 0) (h1 : ¬t.val % 4 = 3) :
    (outsAt2 V c t.val t.isLt).2 = k2_pay2 (iblk2 V c 0 t) (iblk2 V c 1 t) (iblk2 V c 2 t) k2_pay1 := by
  rw [outsAt2_A V c t h0 h1]
  dsimp only
  rw [View.read_writes_junk_eq_canon, sacc2_A]

/-- After a point with k = 1 or 2 it holds the point's tile's product added to what the point before left. -/
theorem outs2_B (c : Dev nD) (t : Fin cfg2.N) (h0 : ¬t.val % 4 = 0) (h1 : ¬t.val % 4 = 3) :
    (outsAt2 V c t.val t.isLt).2 = k2_pay2 (iblk2 V c 0 t) (iblk2 V c 1 t) (iblk2 V c 2 t)
      (outsAt2 V c (t.val - 1) (Nat.lt_of_le_of_lt (Nat.sub_le _ _) t.isLt)).2 := by
  rw [outsAt2_B V c t h0 h1]
  dsimp only
  rw [View.read_writes_junk_eq_canon, sacc2_B]

/-- After a point with k = 3 likewise, -/
theorem outs2_C (c : Dev nD) (t : Fin cfg2.N) (h0 : ¬t.val % 4 = 0) (h1 : t.val % 4 = 3) :
    (outsAt2 V c t.val t.isLt).2 = k2_pay2 (iblk2 V c 0 t) (iblk2 V c 1 t) (iblk2 V c 2 t)
      (outsAt2 V c (t.val - 1) (Nat.lt_of_le_of_lt (Nat.sub_le _ _) t.isLt)).2 := by
  rw [outsAt2_C V c t h0 h1]
  dsimp only
  rw [View.read_writes_junk_eq_canon, sacc2_C]

/-- and the output block holds that sum plus the noise, rectified. -/
theorem outs2_C_out (c : Dev nD) (t : Fin cfg2.N) (h0 : ¬t.val % 4 = 0) (h1 : t.val % 4 = 3) :
    (outsAt2 V c t.val t.isLt).1 = k2_pay3 (iblk2 V c 3 t) (iblk2 V c 4 t) (iblk2 V c 5 t)
      (k2_pay2 (iblk2 V c 0 t) (iblk2 V c 1 t) (iblk2 V c 2 t)
        (outsAt2 V c (t.val - 1) (Nat.lt_of_le_of_lt (Nat.sub_le _ _) t.isLt)).2) := by
  rw [outsAt2_C V c t h0 h1]
  dsimp only
  rw [View.read_writes_junk_eq_canon, sout2_C]

end Generic

/-! ## Where the windows' blocks sit in their arrays

Position t of the 4 × 8 × 4 grid is the point (i, j, k) = (t / 32, (t / 4) mod 8, t mod 4). -/

theorem idx_facts2 : ∀ t : Fin cfg2.N,
    win2_0.index t (0 : Fin 2) = t.val / 32 ∧ win2_0.index t (1 : Fin 2) = t.val % 4
    ∧ win2_1.index t (0 : Fin 3) = 2 ∧ win2_1.index t (1 : Fin 3) = t.val / 4 % 8 ∧ win2_1.index t (2 : Fin 3) = t.val % 4
    ∧ win2_2.index t (0 : Fin 3) = 2 ∧ win2_2.index t (1 : Fin 3) = t.val / 4 % 8 ∧ win2_2.index t (2 : Fin 3) = t.val % 4
    ∧ win2_3.index t (0 : Fin 3) = 2 ∧ win2_3.index t (1 : Fin 3) = 0 ∧ win2_3.index t (2 : Fin 3) = t.val / 4 % 8
    ∧ win2_4.index t (0 : Fin 3) = 2 ∧ win2_4.index t (1 : Fin 3) = 0 ∧ win2_4.index t (2 : Fin 3) = t.val / 4 % 8
    ∧ win2_5.index t (0 : Fin 3) = 2 ∧ win2_5.index t (1 : Fin 3) = t.val / 32 ∧ win2_5.index t (2 : Fin 3) = t.val / 4 % 8
    ∧ win2_6.index t (0 : Fin 2) = t.val / 32 ∧ win2_6.index t (1 : Fin 2) = t.val / 4 % 8 :=
  (by decide +kernel : ∀ t : Fin grid2.N, _)

/-- The array row that row p of the point's blocks is, -/
def row2 (t : Fin cfg2.N) (p : Fin 1024) : Fin 4096 :=
  ⟨1024 * (t.val / 32) + p.val, by have := t.isLt; have hN : cfg2.N = 128 := N_2; omega⟩
/-- and the output feature that feature q of the point's blocks is. -/
def col2 (t : Fin cfg2.N) (q : Fin 512) : Fin 4096 := ⟨512 * (t.val / 4 % 8) + q.val, by omega⟩
section AtIdeal
variable (V : (c : Dev nD) → (b : Ref sig .tc) → Buf (Elt Ideal) ((c : Thread nD τ).loc b))

/-! ## The blocks read at an index -/

theorem iblk2_0_apply (c : Dev nD) (t : Fin cfg2.N) (p j : Fin 1024) (b i' : Fin 4096)
    (hb : b.val = 1024 * (t.val / 32) + p.val) (hi : i'.val = 1024 * (t.val % 4) + j.val) :
    (iblk2 V c 0 t : Vec Ideal S1024x1024 .f32) (ix2 p j) = V c main_v3 (ix2 b i') := by
  obtain ⟨e0, e1, -⟩ := idx_facts2 t
  unfold iblk2
  rw [View.read_apply]
  show V c main_v3 _ = V c main_v3 _
  congr 1
  funext a; apply Fin.ext
  match a with
  | ⟨0, _⟩ => show win2_0.index t (0 : Fin 2) * 1024 + 1 * p.val = b.val; omega
  | ⟨1, _⟩ => show win2_0.index t (1 : Fin 2) * 1024 + 1 * j.val = i'.val; omega

theorem iblk2_1_apply (c : Dev nD) (t : Fin cfg2.N) (q : Fin 512) (j : Fin 1024) (o i' : Fin 4096)
    (ho : o.val = 512 * (t.val / 4 % 8) + q.val) (hi : i'.val = 1024 * (t.val % 4) + j.val) :
    (iblk2 V c 1 t : Vec Ideal S1x512x1024 .f32) (ix3 (0 : Fin 1) q j) = V c main_arg1 (ix3 (2 : Fin 4) o i') := by
  obtain ⟨-, -, e0, e1, e2, -⟩ := idx_facts2 t
  unfold iblk2
  rw [View.read_apply]
  show V c main_arg1 _ = V c main_arg1 _
  congr 1
  funext a; apply Fin.ext
  match a with
  | ⟨0, _⟩ => show win2_1.index t (0 : Fin 3) * 1 + 1 * 0 = 2; omega
  | ⟨1, _⟩ => show win2_1.index t (1 : Fin 3) * 512 + 1 * q.val = o.val; omega
  | ⟨2, _⟩ => show win2_1.index t (2 : Fin 3) * 1024 + 1 * j.val = i'.val; omega

theorem iblk2_2_apply (c : Dev nD) (t : Fin cfg2.N) (q : Fin 512) (j : Fin 1024) (o i' : Fin 4096)
    (ho : o.val = 512 * (t.val / 4 % 8) + q.val) (hi : i'.val = 1024 * (t.val % 4) + j.val) :
    (iblk2 V c 2 t : Vec Ideal S1x512x1024 .f32) (ix3 (0 : Fin 1) q j) = V c main_arg2 (ix3 (2 : Fin 4) o i') := by
  obtain ⟨-, -, -, -, -, e0, e1, e2, -⟩ := idx_facts2 t
  unfold iblk2
  rw [View.read_apply]
  show V c main_arg2 _ = V c main_arg2 _
  congr 1
  funext a; apply Fin.ext
  match a with
  | ⟨0, _⟩ => show win2_2.index t (0 : Fin 3) * 1 + 1 * 0 = 2; omega
  | ⟨1, _⟩ => show win2_2.index t (1 : Fin 3) * 512 + 1 * q.val = o.val; omega
  | ⟨2, _⟩ => show win2_2.index t (2 : Fin 3) * 1024 + 1 * j.val = i'.val; omega

theorem iblk2_3_apply (c : Dev nD) (t : Fin cfg2.N) (q : Fin 512) (o : Fin 4096)
    (ho : o.val = 512 * (t.val / 4 % 8) + q.val) :
    (iblk2 V c 3 t : Vec Ideal S1x1x512 .f32) (ix3 (0 : Fin 1) (0 : Fin 1) q) = V c main_v0 (ix3 (2 : Fin 4) (0 : Fin 1) o) := by
  obtain ⟨-, -, -, -, -, -, -, -, e0, e1, e2, -⟩ := idx_facts2 t
  unfold iblk2
  rw [View.read_apply]
  show V c main_v0 _ = V c main_v0 _
  congr 1
  funext a; apply Fin.ext
  match a with
  | ⟨0, _⟩ => show win2_3.index t (0 : Fin 3) * 1 + 1 * 0 = 2; omega
  | ⟨1, _⟩ => show win2_3.index t (1 : Fin 3) * 1 + 1 * 0 = 0; omega
  | ⟨2, _⟩ => show win2_3.index t (2 : Fin 3) * 512 + 1 * q.val = o.val; omega

theorem iblk2_4_apply (c : Dev nD) (t : Fin cfg2.N) (q : Fin 512) (o : Fin 4096)
    (ho : o.val = 512 * (t.val / 4 % 8) + q.val) :
    (iblk2 V c 4 t : Vec Ideal S1x1x512 .f32) (ix3 (0 : Fin 1) (0 : Fin 1) q) = V c main_v1 (ix3 (2 : Fin 4) (0 : Fin 1) o) := by
  obtain ⟨-, -, -, -, -, -, -, -, -, -, -, e0, e1, e2, -⟩ := idx_facts2 t
  unfold iblk2
  rw [View.read_apply]
  show V c main_v1 _ = V c main_v1 _
  congr 1
  funext a; apply Fin.ext
  match a with
  | ⟨0, _⟩ => show win2_4.index t (0 : Fin 3) * 1 + 1 * 0 = 2; omega
  | ⟨1, _⟩ => show win2_4.index t (1 : Fin 3) * 1 + 1 * 0 = 0; omega
  | ⟨2, _⟩ => show win2_4.index t (2 : Fin 3) * 512 + 1 * q.val = o.val; omega

theorem iblk2_5_apply (c : Dev nD) (t : Fin cfg2.N) (p : Fin 1024) (q : Fin 512) (b o : Fin 4096)
    (hb : b.val = 1024 * (t.val / 32) + p.val) (ho : o.val = 512 * (t.val / 4 % 8) + q.val) :
    (iblk2 V c 5 t : Vec Ideal S1x1024x512 .f32) (ix3 (0 : Fin 1) p q) = V c main_arg5 (ix3 (2 : Fin 4) b o) := by
  obtain ⟨-, -, -, -, -, -, -, -, -, -, -, -, -, -, e0, e1, e2, -⟩ := idx_facts2 t
  unfold iblk2
  rw [View.read_apply]
  show V c main_arg5 _ = V c main_arg5 _
  congr 1
  funext a; apply Fin.ext
  match a with
  | ⟨0, _⟩ => show win2_5.index t (0 : Fin 3) * 1 + 1 * 0 = 2; omega
  | ⟨1, _⟩ => show win2_5.index t (1 : Fin 3) * 1024 + 1 * p.val = b.val; omega
  | ⟨2, _⟩ => show win2_5.index t (2 : Fin 3) * 512 + 1 * q.val = o.val; omega

end AtIdeal

section AtIdeal
variable (V : (c : Dev nD) → (b : Ref sig .tc) → Buf (Elt Ideal) ((c : Thread nD τ).loc b))

/-! ## The accumulator from point to point -/

/-- The summand of the layer's linear part at row b, output feature o: input feature i' contributes the activation
    times the masked weight. -/
def term2 (c : Dev nD) (b o i' : Fin 4096) : EReal :=
  termOf (2 : Fin 4) (V c main_v3) (V c main_arg1) (V c main_arg2) b o i'

/-- The product a point adds, at (p, q): the sum of the summands over the point's tile of input features. -/
theorem tile_sum2 (c : Dev nD) (t : Fin cfg2.N) (p : Fin 1024) (q : Fin 512)
    (x : Vec Ideal S1024x1024 .f32) (w mk : Vec Ideal S1x512x1024 .f32)
    (hx : x = iblk2 V c 0 t) (hw : w = iblk2 V c 1 t) (hmk : mk = iblk2 V c 2 t) :
    ∑ j : Fin 1024, x (ix2 p j) * (w (ix3 (0 : Fin 1) q j) * mk (ix3 (0 : Fin 1) q j))
      = ∑ j : Fin 1024, term2 V c (row2 t p) (col2 t q) (tileN (t.val % 4) j) := by
  subst hx hw hmk
  refine Finset.sum_congr rfl fun j _ => ?_
  have hi : (tileN (t.val % 4) j).val = 1024 * (t.val % 4) + j.val := by
    show (1024 * (t.val % 4) + j.val) % 4096 = _; omega
  unfold term2 termOf
  rw [iblk2_0_apply V c t p j (row2 t p) (tileN (t.val % 4) j) rfl hi,
    iblk2_1_apply V c t q j (col2 t q) (tileN (t.val % 4) j) rfl hi,
    iblk2_2_apply V c t q j (col2 t q) (tileN (t.val % 4) j) rfl hi]

/-- After position n, at k = n mod 4, the accumulator at (p, q) is zero plus the sums of tiles 0 to k of the linear
    part's summands at the point's row and output feature. -/
theorem acc_inv2 (c : Dev nD) : ∀ (n : ℕ) (hn : n < cfg2.N) (p : Fin 1024) (q : Fin 512),
    (outsAt2 V c n hn).2 (ix2 p q) = psum (term2 V c (row2 ⟨n, hn⟩ p) (col2 ⟨n, hn⟩ q)) (n % 4) := by
  intro n
  induction n with
  | zero =>
    intro hn p q
    have e := outs2_A V c ⟨0, hn⟩ rfl (by show ¬(0 : ℕ) % 4 = 3; decide)
    refine (congrFun e (ix2 p q)).trans ?_
    refine (Cert.KernelValue.pay2_2_apply _ _ _ _ p q).trans ?_
    rw [Cert.KernelValue.pay2_1_apply, tile_sum2 V c ⟨0, hn⟩ p q _ _ _ rfl rfl rfl]
    rfl
  | succ n ih =>
    intro hn p q
    have hN : cfg2.N = 128 := N_2
    have hprev := ih (Nat.lt_of_succ_lt hn) p q
    by_cases h0 : (n + 1) % 4 = 0
    · have e := outs2_A V c ⟨n + 1, hn⟩ h0 (by show ¬(n + 1) % 4 = 3; omega)
      refine (congrFun e (ix2 p q)).trans ?_
      refine (Cert.KernelValue.pay2_2_apply _ _ _ _ p q).trans ?_
      rw [Cert.KernelValue.pay2_1_apply, tile_sum2 V c ⟨n + 1, hn⟩ p q _ _ _ rfl rfl rfl, h0]
      rfl
    · have e : (outsAt2 V c (n + 1) hn).2 = k2_pay2 (iblk2 V c 0 ⟨n + 1, hn⟩) (iblk2 V c 1 ⟨n + 1, hn⟩) (iblk2 V c 2 ⟨n + 1, hn⟩)
          (outsAt2 V c n (Nat.lt_of_succ_lt hn)).2 := by
        by_cases h1 : (n + 1) % 4 = 3
        · exact outs2_C V c ⟨n + 1, hn⟩ h0 h1
        · exact outs2_B V c ⟨n + 1, hn⟩ h0 h1
      refine (congrFun e (ix2 p q)).trans ?_
      refine (Cert.KernelValue.pay2_2_apply _ _ _ _ p q).trans ?_
      rw [hprev, tile_sum2 V c ⟨n + 1, hn⟩ p q _ _ _ rfl rfl rfl]
      obtain ⟨k, hk⟩ : ∃ k, (n + 1) % 4 = k + 1 := ⟨(n + 1) % 4 - 1, by omega⟩
      have hk' : n % 4 = k := by omega
      have hr : row2 ⟨n, Nat.lt_of_succ_lt hn⟩ p = row2 ⟨n + 1, hn⟩ p :=
        Fin.ext (by show 1024 * (n / 32) + p.val = 1024 * ((n + 1) / 32) + p.val; omega)
      have hc : col2 ⟨n, Nat.lt_of_succ_lt hn⟩ q = col2 ⟨n + 1, hn⟩ q :=
        Fin.ext (by show 512 * (n / 4 % 8) + q.val = 512 * ((n + 1) / 4 % 8) + q.val; omega)
      rw [hr, hc, hk', show ((⟨n + 1, hn⟩ : Fin cfg2.N).val % 4) = k + 1 from hk]
      rfl

/-! ## What the region leaves in its output array -/

/-- The first layer applied to the arrays as the region finds them; the location and scale arrays are given through
    their reshaped copies. -/
def G2 (c : Dev nD) (MU SG : Cert.Spec.SPar.Idx → EReal) : Cert.Spec.SAct.Idx → EReal :=
  Cert.Spec.layer 2 (V c main_v3) (V c main_arg1) (V c main_arg2) MU SG (V c main_arg5)

theorem G2_apply (c : Dev nD) (MU SG : Cert.Spec.SPar.Idx → EReal) (b o : Fin 4096) :
    G2 V c MU SG (ix2 b o) = max ((∑ i' : Fin 4096, term2 V c b o i')
      + Ideal.exp (MU (ix2 (2 : Fin 4) o) + SG (ix2 (2 : Fin 4) o) * (V c main_arg5 (ix3 (2 : Fin 4) b o) : EReal))) Cert.Spec.zero := rfl

/-- An index of the array is in point t's output block iff each coordinate is in the block's range on its axis. -/
theorem mem_blk2_6 (t : Fin cfg2.N) (i : S4096x4096.Idx) :
    i ∈ ((cfg2.win 6).blk t).view.set ↔ ∀ a : Fin 2, win2_6.index t a * S1024x512.size a ≤ (i a).val ∧ (i a).val < win2_6.index t a * S1024x512.size a + S1024x512.size a := by
  show i ∈ ((View.whole main_v4).slice (win2_6.rect t)).set ↔ _
  rw [View.set_slice_whole, Rect.mem_set_unit]
  exact Iff.rfl

/-- What a point with k = 3 writes back is its block of the layer's output. -/
theorem flushed2_eq (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o))
    (t : Fin cfg2.N) (hf : (cfg2.win 6).flush t = true) :
    (dat2 V c).flushed 6 t = ((cfg2.win 6).blk t).view.read (Elt Ideal) (G2 V c MU SG) := by
  have h3 : t.val % 4 = 3 := (flush2_6 t).mp hf
  have h0 : ¬t.val % 4 = 0 := by omega
  obtain ⟨-, -, -, -, -, -, -, -, -, -, -, -, -, -, -, -, -, e0, e1⟩ := idx_facts2 t
  show (cfg2.win 6).cut (grid2.coords t) ((dat2 V c).after 6 t) = _
  rw [after2_6, outs2_C_out V c t h0 h3]
  funext y
  obtain ⟨p, q, rfl⟩ : ∃ (p : Fin 1024) (q : Fin 512), y = ix2 p q := ⟨y 0, y 1, eq_ix2 y⟩
  rw [View.read_apply]
  show k2_pay3 (F := Ideal) _ _ _ _ (ix2 p q) = G2 V c MU SG (((cfg2.win 6).blk t).view.emb (ix2 p q))
  have hemb : ((cfg2.win 6).blk t).view.emb (ix2 p q) = ix2 (row2 t p) (col2 t q) := by
    funext a; apply Fin.ext
    match a with
    | ⟨0, _⟩ => show win2_6.index t (0 : Fin 2) * 1024 + 1 * p.val = 1024 * (t.val / 32) + p.val; omega
    | ⟨1, _⟩ => show win2_6.index t (1 : Fin 2) * 512 + 1 * q.val = 512 * (t.val / 4 % 8) + q.val; omega
  rw [hemb, G2_apply]
  refine (Cert.KernelValue.pay2_3_apply _ _ _ _ p q).trans ?_
  have hacc := acc_inv2 V c t.val t.isLt p q
  rw [outs2_C V c t h0 h3] at hacc
  rw [hacc, h3, psum_three, iblk2_3_apply V c t q (col2 t q) rfl, iblk2_4_apply V c t q (col2 t q) rfl,
    iblk2_5_apply V c t p q (row2 t p) (col2 t q) rfl rfl, hMU, hSG]

/-- Every entry of the output array is in the block of a point with k = 3. -/
theorem cover2 (i : S4096x4096.Idx) :
    ∃ t : Fin cfg2.N, (cfg2.win 6).flush t = true ∧ i ∈ ((cfg2.win 6).blk t).view.set := by
  have hN : cfg2.N = 128 := N_2
  have hi0 : (i 0).val < 4096 := (i 0).isLt
  have hi1 : (i 1).val < 4096 := (i 1).isLt
  refine ⟨⟨32 * ((i 0).val / 1024) + 4 * ((i 1).val / 512) + 3, by omega⟩, (flush2_6 _).mpr (by show (32 * ((i 0).val / 1024) + 4 * ((i 1).val / 512) + 3) % 4 = 3; omega), ?_⟩
  rw [mem_blk2_6]
  obtain ⟨-, -, -, -, -, -, -, -, -, -, -, -, -, -, -, -, -, e0, e1⟩ :=
    idx_facts2 ⟨32 * ((i 0).val / 1024) + 4 * ((i 1).val / 512) + 3, by omega⟩
  intro a
  match a with
  | ⟨0, _⟩ =>
    show win2_6.index _ (0 : Fin 2) * 1024 ≤ (i 0).val ∧ (i 0).val < win2_6.index _ (0 : Fin 2) * 1024 + 1024
    rw [e0]; show (32 * ((i 0).val / 1024) + 4 * ((i 1).val / 512) + 3) / 32 * 1024 ≤ _ ∧ _ < (32 * ((i 0).val / 1024) + 4 * ((i 1).val / 512) + 3) / 32 * 1024 + 1024
    omega
  | ⟨1, _⟩ =>
    show win2_6.index _ (1 : Fin 2) * 512 ≤ (i 1).val ∧ (i 1).val < win2_6.index _ (1 : Fin 2) * 512 + 512
    rw [e1]; show (32 * ((i 0).val / 1024) + 4 * ((i 1).val / 512) + 3) / 4 % 8 * 512 ≤ _ ∧ _ < (32 * ((i 0).val / 1024) + 4 * ((i 1).val / 512) + 3) / 4 % 8 * 512 + 512
    omega

/-- So after the region its output array holds the first layer's output. -/
theorem final2 (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o)) :
    (dat2 V c).arrAt 6 cfg2.N = G2 V c MU SG :=
  (dat2 V c).arrAt_eq_of_cover 6 (G2 V c MU SG) (flushed2_eq V c MU SG hMU hSG) cover2

end AtIdeal

end Cert.KernelIdeal.Hand

end
-- ==== Proof.KI_R3Val.lean ====
/-
  Region 3 (the fourth layer's pallas_call): the value its output array ends holding.

  Position t of the 4 × 8 × 4 grid is the point (i, j, k) = (t / 32, (t / 4) mod 8, t mod 4); k, innermost, walks the four
  tiles of 1024 input features. At every point the body adds to its accumulator, at row p and output feature q of the
  blocks, the sum over the tile of activation × (weight × mask); at k = 0 the accumulator starts from zero; at k = 3 the
  body writes max(accumulator + exp(mu + sigma · z), 0) into block (i, j) of the output. So after position t the
  accumulator at (p, q) is zero plus the sums of tiles 0 to k of the linear part's summands at array row 1024 i + p and
  output feature 512 j + q, added in this order; after the fourth tile that is the whole sum over the 4096 input
  features, and what the point writes back is its block of the layer's output. The blocks of the points with k = 3 tile
  the output array, so the array ends holding layer 3 applied to the arrays the region found.
-/
import proofs.«151625_j49460843381367_2_alg».proof.Proof.KI_R3Dat
import proofs.«151625_j49460843381367_2_alg».proof.Proof.PayValue
import proofs.«151625_j49460843381367_2_alg».proof.Proof.KI_ValShared
import Idealize.ShloMosaic.Lib.Pipeline.Value
import Idealize.ShloMosaic.Lib.ValueIdx
import Idealize.ShloMosaic.Lib.ValueLayout
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

open Idealize.ShloMosaic.ValueIdx
open scoped BigOperators

/-! ## What each kind of point leaves, as the body's arithmetic of the blocks it loads -/

/-- A point with k = 0 leaves in the accumulator the first tile's product added to the zero block. -/
theorem sacc3_A (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : cond3_0 i) (hc1 : ¬cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) :
    View.canon (kernelRun3_A c i arg3 harg3 arg4 harg4 arg5 harg5 arg6 harg6 arg7 harg7 arg8 harg8 arg9 harg9 arg10 harg10 hc0 hc1 x3 x4 x5 x6 x7 x8).2.1 = k3_pay2 x3 x4 x5 k3_pay1 := by
  unfold kernelRun3_A
  dsimp only
  sl_unfold_words
  rw [View.canon_cons_unit_zero (S := S1024x512) hz2, View.readCov_unit_zero (S := S1024x512) _ hz2]
  simp only [View.readAt_eq_ld, harg3.read_unread, harg4.read_unread, harg5.read_unread,
    View.ld_unit_zero (S := S1024x1024) hz2, View.ld_unit_zero (S := S1x512x1024) hz3]

/-- A point with k = 1 or 2 leaves in the accumulator its tile's product added to what the accumulator held. -/
theorem sacc3_B (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : ¬cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun3_B c i arg3 harg3 arg4 harg4 arg5 harg5 arg6 harg6 arg7 harg7 arg8 harg8 arg9 harg9 arg10 harg10 hc0 hc1 x3 x4 x5 x6 x7 x8 xs).2.1 = k3_pay2 x3 x4 x5 xs := by
  unfold kernelRun3_B
  dsimp only
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- A point with k = 3 leaves in the accumulator the last tile's product added to what the accumulator held, -/
theorem sacc3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun3_C c i arg3 harg3 arg4 harg4 arg5 harg5 arg6 harg6 arg7 harg7 arg8 harg8 arg9 harg9 arg10 harg10 hc0 hc1 x3 x4 x5 x6 x7 x8 xs).2.1 = k3_pay2 x3 x4 x5 xs := by
  unfold kernelRun3_C
  dsimp only
  sl_unfold_words
  rw [View.canon_unit_zero (S := S1024x512) hz2]
  simp only [View.readAt_eq_ld, harg3.read_unread, harg4.read_unread, harg5.read_unread, harg10.read_unread,
    View.ld_unit_zero (S := S1024x1024) hz2, View.ld_unit_zero (S := S1x512x1024) hz3, View.ld_unit_zero (S := S1024x512) hz2]

/-- and in the output block that sum plus the noise, rectified. -/
theorem sout3_C (c : Dev nD) (i : grid3.Coords) (arg3 : Memref sig .tc .vmem S1024x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S1x1x512 .f32) (harg6 : arg6.IsWhole) (arg7 : Memref sig .tc .vmem S1x1x512 .f32) (harg7 : arg7.IsWhole) (arg8 : Memref sig .tc .vmem S1x1024x512 .f32) (harg8 : arg8.IsWhole) (arg9 : Memref sig .tc .vmem S1024x512 .f32) (harg9 : arg9.IsWhole) (arg10 : Memref sig .tc .vmem S1024x512 .f32) (harg10 : arg10.IsWhole) (hc0 : ¬cond3_0 i) (hc1 : cond3_1 i) (x3 : Vec F S1024x1024 .f32) (x4 : Vec F S1x512x1024 .f32) (x5 : Vec F S1x512x1024 .f32) (x6 : Vec F S1x1x512 .f32) (x7 : Vec F S1x1x512 .f32) (x8 : Vec F S1x1024x512 .f32) (xs : Vec F S1024x512 .f32) :
    View.canon (kernelRun3_C c i arg3 harg3 arg4 harg4 arg5 harg5 arg6 harg6 arg7 harg7 arg8 harg8 arg9 harg9 arg10 harg10 hc0 hc1 x3 x4 x5 x6 x7 x8 xs).1 = k3_pay3 x6 x7 x8 (k3_pay2 x3 x4 x5 xs) := by
  unfold kernelRun3_C
  dsimp only
  sl_unfold_words
  rw [View.canon_unit_zero (S := S1024x512) hz2, View.readCov_unit_zero (S := S1024x512) _ hz2]
  simp only [View.readAt_eq_ld, harg3.read_unread, harg4.read_unread, harg5.read_unread, harg6.read_unread, harg7.read_unread,
    harg8.read_unread, harg10.read_unread,
    View.ld_unit_zero (S := S1024x1024) hz2, View.ld_unit_zero (S := S1x512x1024) hz3, View.ld_unit_zero (S := S1024x512) hz2,
    View.ld_unit_zero (S := S1x1x512) hz3, View.ld_unit_zero (S := S1x1024x512) hz3]

section Generic
variable (V : (c : Dev nD) → (b : Ref sig .tc) → Buf (Elt F) ((c : Thread nD τ).loc b))

/-- After a point with k = 0 the accumulator holds the first tile's product added to the zero block. -/
theorem outs3_A (c : Dev nD) (t : Fin cfg3.N) (h0 : t.val % 4 = 0) (h1 : ¬t.val % 4 = 3) :
    (outsAt3 V c t.val t.isLt).2 = k3_pay2 (iblk3 V c 0 t) (iblk3 V c 1 t) (iblk3 V c 2 t) k3_pay1 := by
  rw [outsAt3_A V c t h0 h1]
  dsimp only
  rw [View.read_writes_junk_eq_canon, sacc3_A]

/-- After a point with k = 1 or 2 it holds the point's tile's product added to what the point before left. -/
theorem outs3_B (c : Dev nD) (t : Fin cfg3.N) (h0 : ¬t.val % 4 = 0) (h1 : ¬t.val % 4 = 3) :
    (outsAt3 V c t.val t.isLt).2 = k3_pay2 (iblk3 V c 0 t) (iblk3 V c 1 t) (iblk3 V c 2 t)
      (outsAt3 V c (t.val - 1) (Nat.lt_of_le_of_lt (Nat.sub_le _ _) t.isLt)).2 := by
  rw [outsAt3_B V c t h0 h1]
  dsimp only
  rw [View.read_writes_junk_eq_canon, sacc3_B]

/-- After a point with k = 3 likewise, -/
theorem outs3_C (c : Dev nD) (t : Fin cfg3.N) (h0 : ¬t.val % 4 = 0) (h1 : t.val % 4 = 3) :
    (outsAt3 V c t.val t.isLt).2 = k3_pay2 (iblk3 V c 0 t) (iblk3 V c 1 t) (iblk3 V c 2 t)
      (outsAt3 V c (t.val - 1) (Nat.lt_of_le_of_lt (Nat.sub_le _ _) t.isLt)).2 := by
  rw [outsAt3_C V c t h0 h1]
  dsimp only
  rw [View.read_writes_junk_eq_canon, sacc3_C]

/-- and the output block holds that sum plus the noise, rectified. -/
theorem outs3_C_out (c : Dev nD) (t : Fin cfg3.N) (h0 : ¬t.val % 4 = 0) (h1 : t.val % 4 = 3) :
    (outsAt3 V c t.val t.isLt).1 = k3_pay3 (iblk3 V c 3 t) (iblk3 V c 4 t) (iblk3 V c 5 t)
      (k3_pay2 (iblk3 V c 0 t) (iblk3 V c 1 t) (iblk3 V c 2 t)
        (outsAt3 V c (t.val - 1) (Nat.lt_of_le_of_lt (Nat.sub_le _ _) t.isLt)).2) := by
  rw [outsAt3_C V c t h0 h1]
  dsimp only
  rw [View.read_writes_junk_eq_canon, sout3_C]

end Generic

/-! ## Where the windows' blocks sit in their arrays

Position t of the 4 × 8 × 4 grid is the point (i, j, k) = (t / 32, (t / 4) mod 8, t mod 4). -/

theorem idx_facts3 : ∀ t : Fin cfg3.N,
    win3_0.index t (0 : Fin 2) = t.val / 32 ∧ win3_0.index t (1 : Fin 2) = t.val % 4
    ∧ win3_1.index t (0 : Fin 3) = 3 ∧ win3_1.index t (1 : Fin 3) = t.val / 4 % 8 ∧ win3_1.index t (2 : Fin 3) = t.val % 4
    ∧ win3_2.index t (0 : Fin 3) = 3 ∧ win3_2.index t (1 : Fin 3) = t.val / 4 % 8 ∧ win3_2.index t (2 : Fin 3) = t.val % 4
    ∧ win3_3.index t (0 : Fin 3) = 3 ∧ win3_3.index t (1 : Fin 3) = 0 ∧ win3_3.index t (2 : Fin 3) = t.val / 4 % 8
    ∧ win3_4.index t (0 : Fin 3) = 3 ∧ win3_4.index t (1 : Fin 3) = 0 ∧ win3_4.index t (2 : Fin 3) = t.val / 4 % 8
    ∧ win3_5.index t (0 : Fin 3) = 3 ∧ win3_5.index t (1 : Fin 3) = t.val / 32 ∧ win3_5.index t (2 : Fin 3) = t.val / 4 % 8
    ∧ win3_6.index t (0 : Fin 2) = t.val / 32 ∧ win3_6.index t (1 : Fin 2) = t.val / 4 % 8 :=
  (by decide +kernel : ∀ t : Fin grid3.N, _)

/-- The array row that row p of the point's blocks is, -/
def row3 (t : Fin cfg3.N) (p : Fin 1024) : Fin 4096 :=
  ⟨1024 * (t.val / 32) + p.val, by have := t.isLt; have hN : cfg3.N = 128 := N_3; omega⟩
/-- and the output feature that feature q of the point's blocks is. -/
def col3 (t : Fin cfg3.N) (q : Fin 512) : Fin 4096 := ⟨512 * (t.val / 4 % 8) + q.val, by omega⟩
section AtIdeal
variable (V : (c : Dev nD) → (b : Ref sig .tc) → Buf (Elt Ideal) ((c : Thread nD τ).loc b))

/-! ## The blocks read at an index -/

theorem iblk3_0_apply (c : Dev nD) (t : Fin cfg3.N) (p j : Fin 1024) (b i' : Fin 4096)
    (hb : b.val = 1024 * (t.val / 32) + p.val) (hi : i'.val = 1024 * (t.val % 4) + j.val) :
    (iblk3 V c 0 t : Vec Ideal S1024x1024 .f32) (ix2 p j) = V c main_v4 (ix2 b i') := by
  obtain ⟨e0, e1, -⟩ := idx_facts3 t
  unfold iblk3
  rw [View.read_apply]
  show V c main_v4 _ = V c main_v4 _
  congr 1
  funext a; apply Fin.ext
  match a with
  | ⟨0, _⟩ => show win3_0.index t (0 : Fin 2) * 1024 + 1 * p.val = b.val; omega
  | ⟨1, _⟩ => show win3_0.index t (1 : Fin 2) * 1024 + 1 * j.val = i'.val; omega

theorem iblk3_1_apply (c : Dev nD) (t : Fin cfg3.N) (q : Fin 512) (j : Fin 1024) (o i' : Fin 4096)
    (ho : o.val = 512 * (t.val / 4 % 8) + q.val) (hi : i'.val = 1024 * (t.val % 4) + j.val) :
    (iblk3 V c 1 t : Vec Ideal S1x512x1024 .f32) (ix3 (0 : Fin 1) q j) = V c main_arg1 (ix3 (3 : Fin 4) o i') := by
  obtain ⟨-, -, e0, e1, e2, -⟩ := idx_facts3 t
  unfold iblk3
  rw [View.read_apply]
  show V c main_arg1 _ = V c main_arg1 _
  congr 1
  funext a; apply Fin.ext
  match a with
  | ⟨0, _⟩ => show win3_1.index t (0 : Fin 3) * 1 + 1 * 0 = 3; omega
  | ⟨1, _⟩ => show win3_1.index t (1 : Fin 3) * 512 + 1 * q.val = o.val; omega
  | ⟨2, _⟩ => show win3_1.index t (2 : Fin 3) * 1024 + 1 * j.val = i'.val; omega

theorem iblk3_2_apply (c : Dev nD) (t : Fin cfg3.N) (q : Fin 512) (j : Fin 1024) (o i' : Fin 4096)
    (ho : o.val = 512 * (t.val / 4 % 8) + q.val) (hi : i'.val = 1024 * (t.val % 4) + j.val) :
    (iblk3 V c 2 t : Vec Ideal S1x512x1024 .f32) (ix3 (0 : Fin 1) q j) = V c main_arg2 (ix3 (3 : Fin 4) o i') := by
  obtain ⟨-, -, -, -, -, e0, e1, e2, -⟩ := idx_facts3 t
  unfold iblk3
  rw [View.read_apply]
  show V c main_arg2 _ = V c main_arg2 _
  congr 1
  funext a; apply Fin.ext
  match a with
  | ⟨0, _⟩ => show win3_2.index t (0 : Fin 3) * 1 + 1 * 0 = 3; omega
  | ⟨1, _⟩ => show win3_2.index t (1 : Fin 3) * 512 + 1 * q.val = o.val; omega
  | ⟨2, _⟩ => show win3_2.index t (2 : Fin 3) * 1024 + 1 * j.val = i'.val; omega

theorem iblk3_3_apply (c : Dev nD) (t : Fin cfg3.N) (q : Fin 512) (o : Fin 4096)
    (ho : o.val = 512 * (t.val / 4 % 8) + q.val) :
    (iblk3 V c 3 t : Vec Ideal S1x1x512 .f32) (ix3 (0 : Fin 1) (0 : Fin 1) q) = V c main_v0 (ix3 (3 : Fin 4) (0 : Fin 1) o) := by
  obtain ⟨-, -, -, -, -, -, -, -, e0, e1, e2, -⟩ := idx_facts3 t
  unfold iblk3
  rw [View.read_apply]
  show V c main_v0 _ = V c main_v0 _
  congr 1
  funext a; apply Fin.ext
  match a with
  | ⟨0, _⟩ => show win3_3.index t (0 : Fin 3) * 1 + 1 * 0 = 3; omega
  | ⟨1, _⟩ => show win3_3.index t (1 : Fin 3) * 1 + 1 * 0 = 0; omega
  | ⟨2, _⟩ => show win3_3.index t (2 : Fin 3) * 512 + 1 * q.val = o.val; omega

theorem iblk3_4_apply (c : Dev nD) (t : Fin cfg3.N) (q : Fin 512) (o : Fin 4096)
    (ho : o.val = 512 * (t.val / 4 % 8) + q.val) :
    (iblk3 V c 4 t : Vec Ideal S1x1x512 .f32) (ix3 (0 : Fin 1) (0 : Fin 1) q) = V c main_v1 (ix3 (3 : Fin 4) (0 : Fin 1) o) := by
  obtain ⟨-, -, -, -, -, -, -, -, -, -, -, e0, e1, e2, -⟩ := idx_facts3 t
  unfold iblk3
  rw [View.read_apply]
  show V c main_v1 _ = V c main_v1 _
  congr 1
  funext a; apply Fin.ext
  match a with
  | ⟨0, _⟩ => show win3_4.index t (0 : Fin 3) * 1 + 1 * 0 = 3; omega
  | ⟨1, _⟩ => show win3_4.index t (1 : Fin 3) * 1 + 1 * 0 = 0; omega
  | ⟨2, _⟩ => show win3_4.index t (2 : Fin 3) * 512 + 1 * q.val = o.val; omega

theorem iblk3_5_apply (c : Dev nD) (t : Fin cfg3.N) (p : Fin 1024) (q : Fin 512) (b o : Fin 4096)
    (hb : b.val = 1024 * (t.val / 32) + p.val) (ho : o.val = 512 * (t.val / 4 % 8) + q.val) :
    (iblk3 V c 5 t : Vec Ideal S1x1024x512 .f32) (ix3 (0 : Fin 1) p q) = V c main_arg5 (ix3 (3 : Fin 4) b o) := by
  obtain ⟨-, -, -, -, -, -, -, -, -, -, -, -, -, -, e0, e1, e2, -⟩ := idx_facts3 t
  unfold iblk3
  rw [View.read_apply]
  show V c main_arg5 _ = V c main_arg5 _
  congr 1
  funext a; apply Fin.ext
  match a with
  | ⟨0, _⟩ => show win3_5.index t (0 : Fin 3) * 1 + 1 * 0 = 3; omega
  | ⟨1, _⟩ => show win3_5.index t (1 : Fin 3) * 1024 + 1 * p.val = b.val; omega
  | ⟨2, _⟩ => show win3_5.index t (2 : Fin 3) * 512 + 1 * q.val = o.val; omega

end AtIdeal

section AtIdeal
variable (V : (c : Dev nD) → (b : Ref sig .tc) → Buf (Elt Ideal) ((c : Thread nD τ).loc b))

/-! ## The accumulator from point to point -/

/-- The summand of the layer's linear part at row b, output feature o: input feature i' contributes the activation
    times the masked weight. -/
def term3 (c : Dev nD) (b o i' : Fin 4096) : EReal :=
  termOf (3 : Fin 4) (V c main_v4) (V c main_arg1) (V c main_arg2) b o i'

/-- The product a point adds, at (p, q): the sum of the summands over the point's tile of input features. -/
theorem tile_sum3 (c : Dev nD) (t : Fin cfg3.N) (p : Fin 1024) (q : Fin 512)
    (x : Vec Ideal S1024x1024 .f32) (w mk : Vec Ideal S1x512x1024 .f32)
    (hx : x = iblk3 V c 0 t) (hw : w = iblk3 V c 1 t) (hmk : mk = iblk3 V c 2 t) :
    ∑ j : Fin 1024, x (ix2 p j) * (w (ix3 (0 : Fin 1) q j) * mk (ix3 (0 : Fin 1) q j))
      = ∑ j : Fin 1024, term3 V c (row3 t p) (col3 t q) (tileN (t.val % 4) j) := by
  subst hx hw hmk
  refine Finset.sum_congr rfl fun j _ => ?_
  have hi : (tileN (t.val % 4) j).val = 1024 * (t.val % 4) + j.val := by
    show (1024 * (t.val % 4) + j.val) % 4096 = _; omega
  unfold term3 termOf
  rw [iblk3_0_apply V c t p j (row3 t p) (tileN (t.val % 4) j) rfl hi,
    iblk3_1_apply V c t q j (col3 t q) (tileN (t.val % 4) j) rfl hi,
    iblk3_2_apply V c t q j (col3 t q) (tileN (t.val % 4) j) rfl hi]

/-- After position n, at k = n mod 4, the accumulator at (p, q) is zero plus the sums of tiles 0 to k of the linear
    part's summands at the point's row and output feature. -/
theorem acc_inv3 (c : Dev nD) : ∀ (n : ℕ) (hn : n < cfg3.N) (p : Fin 1024) (q : Fin 512),
    (outsAt3 V c n hn).2 (ix2 p q) = psum (term3 V c (row3 ⟨n, hn⟩ p) (col3 ⟨n, hn⟩ q)) (n % 4) := by
  intro n
  induction n with
  | zero =>
    intro hn p q
    have e := outs3_A V c ⟨0, hn⟩ rfl (by show ¬(0 : ℕ) % 4 = 3; decide)
    refine (congrFun e (ix2 p q)).trans ?_
    refine (Cert.KernelValue.pay3_2_apply _ _ _ _ p q).trans ?_
    rw [Cert.KernelValue.pay3_1_apply, tile_sum3 V c ⟨0, hn⟩ p q _ _ _ rfl rfl rfl]
    rfl
  | succ n ih =>
    intro hn p q
    have hN : cfg3.N = 128 := N_3
    have hprev := ih (Nat.lt_of_succ_lt hn) p q
    by_cases h0 : (n + 1) % 4 = 0
    · have e := outs3_A V c ⟨n + 1, hn⟩ h0 (by show ¬(n + 1) % 4 = 3; omega)
      refine (congrFun e (ix2 p q)).trans ?_
      refine (Cert.KernelValue.pay3_2_apply _ _ _ _ p q).trans ?_
      rw [Cert.KernelValue.pay3_1_apply, tile_sum3 V c ⟨n + 1, hn⟩ p q _ _ _ rfl rfl rfl, h0]
      rfl
    · have e : (outsAt3 V c (n + 1) hn).2 = k3_pay2 (iblk3 V c 0 ⟨n + 1, hn⟩) (iblk3 V c 1 ⟨n + 1, hn⟩) (iblk3 V c 2 ⟨n + 1, hn⟩)
          (outsAt3 V c n (Nat.lt_of_succ_lt hn)).2 := by
        by_cases h1 : (n + 1) % 4 = 3
        · exact outs3_C V c ⟨n + 1, hn⟩ h0 h1
        · exact outs3_B V c ⟨n + 1, hn⟩ h0 h1
      refine (congrFun e (ix2 p q)).trans ?_
      refine (Cert.KernelValue.pay3_2_apply _ _ _ _ p q).trans ?_
      rw [hprev, tile_sum3 V c ⟨n + 1, hn⟩ p q _ _ _ rfl rfl rfl]
      obtain ⟨k, hk⟩ : ∃ k, (n + 1) % 4 = k + 1 := ⟨(n + 1) % 4 - 1, by omega⟩
      have hk' : n % 4 = k := by omega
      have hr : row3 ⟨n, Nat.lt_of_succ_lt hn⟩ p = row3 ⟨n + 1, hn⟩ p :=
        Fin.ext (by show 1024 * (n / 32) + p.val = 1024 * ((n + 1) / 32) + p.val; omega)
      have hc : col3 ⟨n, Nat.lt_of_succ_lt hn⟩ q = col3 ⟨n + 1, hn⟩ q :=
        Fin.ext (by show 512 * (n / 4 % 8) + q.val = 512 * ((n + 1) / 4 % 8) + q.val; omega)
      rw [hr, hc, hk', show ((⟨n + 1, hn⟩ : Fin cfg3.N).val % 4) = k + 1 from hk]
      rfl

/-! ## What the region leaves in its output array -/

/-- The first layer applied to the arrays as the region finds them; the location and scale arrays are given through
    their reshaped copies. -/
def G3 (c : Dev nD) (MU SG : Cert.Spec.SPar.Idx → EReal) : Cert.Spec.SAct.Idx → EReal :=
  Cert.Spec.layer 3 (V c main_v4) (V c main_arg1) (V c main_arg2) MU SG (V c main_arg5)

theorem G3_apply (c : Dev nD) (MU SG : Cert.Spec.SPar.Idx → EReal) (b o : Fin 4096) :
    G3 V c MU SG (ix2 b o) = max ((∑ i' : Fin 4096, term3 V c b o i')
      + Ideal.exp (MU (ix2 (3 : Fin 4) o) + SG (ix2 (3 : Fin 4) o) * (V c main_arg5 (ix3 (3 : Fin 4) b o) : EReal))) Cert.Spec.zero := rfl

/-- An index of the array is in point t's output block iff each coordinate is in the block's range on its axis. -/
theorem mem_blk3_6 (t : Fin cfg3.N) (i : S4096x4096.Idx) :
    i ∈ ((cfg3.win 6).blk t).view.set ↔ ∀ a : Fin 2, win3_6.index t a * S1024x512.size a ≤ (i a).val ∧ (i a).val < win3_6.index t a * S1024x512.size a + S1024x512.size a := by
  show i ∈ ((View.whole main_v5).slice (win3_6.rect t)).set ↔ _
  rw [View.set_slice_whole, Rect.mem_set_unit]
  exact Iff.rfl

/-- What a point with k = 3 writes back is its block of the layer's output. -/
theorem flushed3_eq (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o))
    (t : Fin cfg3.N) (hf : (cfg3.win 6).flush t = true) :
    (dat3 V c).flushed 6 t = ((cfg3.win 6).blk t).view.read (Elt Ideal) (G3 V c MU SG) := by
  have h3 : t.val % 4 = 3 := (flush3_6 t).mp hf
  have h0 : ¬t.val % 4 = 0 := by omega
  obtain ⟨-, -, -, -, -, -, -, -, -, -, -, -, -, -, -, -, -, e0, e1⟩ := idx_facts3 t
  show (cfg3.win 6).cut (grid3.coords t) ((dat3 V c).after 6 t) = _
  rw [after3_6, outs3_C_out V c t h0 h3]
  funext y
  obtain ⟨p, q, rfl⟩ : ∃ (p : Fin 1024) (q : Fin 512), y = ix2 p q := ⟨y 0, y 1, eq_ix2 y⟩
  rw [View.read_apply]
  show k3_pay3 (F := Ideal) _ _ _ _ (ix2 p q) = G3 V c MU SG (((cfg3.win 6).blk t).view.emb (ix2 p q))
  have hemb : ((cfg3.win 6).blk t).view.emb (ix2 p q) = ix2 (row3 t p) (col3 t q) := by
    funext a; apply Fin.ext
    match a with
    | ⟨0, _⟩ => show win3_6.index t (0 : Fin 2) * 1024 + 1 * p.val = 1024 * (t.val / 32) + p.val; omega
    | ⟨1, _⟩ => show win3_6.index t (1 : Fin 2) * 512 + 1 * q.val = 512 * (t.val / 4 % 8) + q.val; omega
  rw [hemb, G3_apply]
  refine (Cert.KernelValue.pay3_3_apply _ _ _ _ p q).trans ?_
  have hacc := acc_inv3 V c t.val t.isLt p q
  rw [outs3_C V c t h0 h3] at hacc
  rw [hacc, h3, psum_three, iblk3_3_apply V c t q (col3 t q) rfl, iblk3_4_apply V c t q (col3 t q) rfl,
    iblk3_5_apply V c t p q (row3 t p) (col3 t q) rfl rfl, hMU, hSG]

/-- Every entry of the output array is in the block of a point with k = 3. -/
theorem cover3 (i : S4096x4096.Idx) :
    ∃ t : Fin cfg3.N, (cfg3.win 6).flush t = true ∧ i ∈ ((cfg3.win 6).blk t).view.set := by
  have hN : cfg3.N = 128 := N_3
  have hi0 : (i 0).val < 4096 := (i 0).isLt
  have hi1 : (i 1).val < 4096 := (i 1).isLt
  refine ⟨⟨32 * ((i 0).val / 1024) + 4 * ((i 1).val / 512) + 3, by omega⟩, (flush3_6 _).mpr (by show (32 * ((i 0).val / 1024) + 4 * ((i 1).val / 512) + 3) % 4 = 3; omega), ?_⟩
  rw [mem_blk3_6]
  obtain ⟨-, -, -, -, -, -, -, -, -, -, -, -, -, -, -, -, -, e0, e1⟩ :=
    idx_facts3 ⟨32 * ((i 0).val / 1024) + 4 * ((i 1).val / 512) + 3, by omega⟩
  intro a
  match a with
  | ⟨0, _⟩ =>
    show win3_6.index _ (0 : Fin 2) * 1024 ≤ (i 0).val ∧ (i 0).val < win3_6.index _ (0 : Fin 2) * 1024 + 1024
    rw [e0]; show (32 * ((i 0).val / 1024) + 4 * ((i 1).val / 512) + 3) / 32 * 1024 ≤ _ ∧ _ < (32 * ((i 0).val / 1024) + 4 * ((i 1).val / 512) + 3) / 32 * 1024 + 1024
    omega
  | ⟨1, _⟩ =>
    show win3_6.index _ (1 : Fin 2) * 512 ≤ (i 1).val ∧ (i 1).val < win3_6.index _ (1 : Fin 2) * 512 + 512
    rw [e1]; show (32 * ((i 0).val / 1024) + 4 * ((i 1).val / 512) + 3) / 4 % 8 * 512 ≤ _ ∧ _ < (32 * ((i 0).val / 1024) + 4 * ((i 1).val / 512) + 3) / 4 % 8 * 512 + 512
    omega

/-- So after the region its output array holds the first layer's output. -/
theorem final3 (c : Dev nD) (MU SG : Cert.Spec.SPar.Idx → EReal)
    (hMU : ∀ (l : Fin 4) (o : Fin 4096), (V c main_v0 (ix3 l (0 : Fin 1) o) : EReal) = MU (ix2 l o))
    (hSG : ∀ (l : Fin 4) (o : Fin 4096), (V c main_v1 (ix3 l (0 : Fin 1) o) : EReal) = SG (ix2 l o)) :
    (dat3 V c).arrAt 6 cfg3.N = G3 V c MU SG :=
  (dat3 V c).arrAt_eq_of_cover 6 (G3 V c MU SG) (flushed3_eq V c MU SG hMU hSG) cover3

end AtIdeal

end Cert.KernelIdeal.Hand

end
-- ==== Proof.KI_Reshape.lean ====
/-
  The kernel program's two host reshapes, read at an index. A reshape keeps the row-major order of the elements, so the
  array of shape [4, 1, 4096] made from an array of shape [4, 4096] holds, at layer l, unit coordinate 0 and feature o,
  the operand's element at layer l and feature o: both sit at row-major position l · 4096 + o. This holds for elements
  of any type.
-/
import proofs.«151625_j49460843381367_2_alg».proof.Proof.Gen.KernelIdeal
import Idealize.ShloMosaic.Lib.ValueIdx
import Idealize.ShloMosaic.Lib.ValueLayout
import Idealize.ShloMosaic.Lib.Pipeline.Value

noncomputable section

namespace Cert.KernelValue

open Cert.KernelIdeal Idealize.ShloMosaic Idealize.ShloMosaic.ValueIdx

/-- The [4, 4096] array recast to [4, 1, 4096], read at layer `l`, unit coordinate `0`, feature `o`, is the operand at
    layer `l`, feature `o`. -/
theorem reshape_par_apply {α : Type} (x : S4x4096.Idx → α) (h : S4x4096.ShapeCasts S4x1x4096) (l : Fin 4) (o : Fin 4096) :
    shapeCast S4x1x4096 x h (ix3 l (0 : Fin 1) o) = x (ix2 l o) :=
  shapeCast_apply x h (ix3 l (0 : Fin 1) o) (ix2 l o)
    (by rw [Shape.rowMajor_val_two, Shape.rowMajor_val_three]; show l.val * 4096 + o.val = (l.val * 1 + 0) * 4096 + o.val; omega)

end Cert.KernelValue

end
-- ==== Proof.KI_ReshapeRun.lean ====
/-
  The kernel program's opening host stretch, read at an index: after the two reshapes, the recast location array holds
  at layer l, unit coordinate 0, feature o what the location argument holds at layer l, feature o, and likewise the
  recast scale array and the scale argument. Elements of any float instance.
-/
import proofs.«151625_j49460843381367_2_alg».proof.Proof.KI_Reshape
import proofs.«151625_j49460843381367_2_alg».proof.Proof.Gen.KernelIdeal.Launch
import Idealize.ShloMosaic.Lib.StableHlo.Run

noncomputable section

namespace Cert.KernelValue

open Cert.KernelIdeal Idealize.ShloMosaic Idealize.ShloMosaic.ValueIdx Idealize.ShloMosaic.TcCoe Idealize.SL.Sem Idealize.ShloMosaic.StableHlo

variable [Cert.KernelIdeal.Facts] {F : FTy → Type} [FloatOps F]

/-- After the opening host stretch the recast location array, at layer `l`, unit coordinate `0`, feature `o`, is the
    location argument at layer `l`, feature `o`. -/
theorem hostOps0_v0_apply (V : Valuation τ sig (Elt F)) (l : Fin 4) (o : Fin 4096) :
    after (Cert.KernelIdeal.Gen.hostOps0 (F := F)) V (Proc.devRef .tc main_v0) (ix3 l (0 : Fin 1) o)
      = V (Proc.devRef .tc main_arg3) (ix2 l o) := by
  after_results
  exact reshape_par_apply _ _ l o

/-- After the opening host stretch the recast scale array, at layer `l`, unit coordinate `0`, feature `o`, is the
    scale argument at layer `l`, feature `o`. -/
theorem hostOps0_v1_apply (V : Valuation τ sig (Elt F)) (l : Fin 4) (o : Fin 4096) :
    after (Cert.KernelIdeal.Gen.hostOps0 (F := F)) V (Proc.devRef .tc main_v1) (ix3 l (0 : Fin 1) o)
      = V (Proc.devRef .tc main_arg4) (ix2 l o) := by
  after_results
  exact reshape_par_apply _ _ l o

end Cert.KernelValue

end
-- ==== Proof.KI_Value.lean ====
/-
  What the kernel program's result buffer holds at the end, on the extended reals: the four layers of the specification,
  each applied to the one before, side by side.

  Region K's output array is, by its pipeline's write-backs, layer K of the arrays the region found. The weights, masks and
  draws reach every region as launched; the location and scale arrays reach it reshaped, entry (l, 0, o) of the reshaped
  array being entry (l, o) of the launched one; region K ≥ 1 finds the previous region's output as its activation.
  So the outputs are the specification's chain, and the concatenation that ends the program puts them side by side.
-/
import proofs.«151625_j49460843381367_2_alg».proof.Proof.KI_Main
import proofs.«151625_j49460843381367_2_alg».proof.Proof.KI_R0Val
import proofs.«151625_j49460843381367_2_alg».proof.Proof.KI_R1Val
import proofs.«151625_j49460843381367_2_alg».proof.Proof.KI_R2Val
import proofs.«151625_j49460843381367_2_alg».proof.Proof.KI_R3Val
import proofs.«151625_j49460843381367_2_alg».proof.Proof.KI_ReshapeRun
import proofs.«151625_j49460843381367_2_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-! ## What every region finds -/

theorem V1_main_arg0 (c : Dev nD) : V1 m ρ c main_arg0 = m ((c : Thread nD τ).loc main_arg0) := (W1_of m ρ c main_arg0 (by decide)).trans rfl
theorem V1_main_arg1 (c : Dev nD) : V1 m ρ c main_arg1 = m ((c : Thread nD τ).loc main_arg1) := (W1_of m ρ c main_arg1 (by decide)).trans rfl
theorem V1_main_arg2 (c : Dev nD) : V1 m ρ c main_arg2 = m ((c : Thread nD τ).loc main_arg2) := (W1_of m ρ c main_arg2 (by decide)).trans rfl
theorem V1_main_arg3 (c : Dev nD) : V1 m ρ c main_arg3 = m ((c : Thread nD τ).loc main_arg3) := (W1_of m ρ c main_arg3 (by decide)).trans rfl
theorem V1_main_arg4 (c : Dev nD) : V1 m ρ c main_arg4 = m ((c : Thread nD τ).loc main_arg4) := (W1_of m ρ c main_arg4 (by decide)).trans rfl
theorem V1_main_arg5 (c : Dev nD) : V1 m ρ c main_arg5 = m ((c : Thread nD τ).loc main_arg5) := (W1_of m ρ c main_arg5 (by decide)).trans rfl
theorem V2_main_arg1 (c : Dev nD) : V2 m ρ c main_arg1 = m ((c : Thread nD τ).loc main_arg1) := (W2_main_arg1 m ρ c).trans (V1_main_arg1 m ρ c)
theorem V2_main_arg2 (c : Dev nD) : V2 m ρ c main_arg2 = m ((c : Thread nD τ).loc main_arg2) := (W2_main_arg2 m ρ c).trans (V1_main_arg2 m ρ c)
theorem V2_main_arg5 (c : Dev nD) : V2 m ρ c main_arg5 = m ((c : Thread nD τ).loc main_arg5) := (W2_main_arg5 m ρ c).trans (V1_main_arg5 m ρ c)
theorem V3_main_arg1 (c : Dev nD) : V3 m ρ c main_arg1 = m ((c : Thread nD τ).loc main_arg1) := (W3_main_arg1 m ρ c).trans (V2_main_arg1 m ρ c)
theorem V3_main_arg2 (c : Dev nD) : V3 m ρ c main_arg2 = m ((c : Thread nD τ).loc main_arg2) := (W3_main_arg2 m ρ c).trans (V2_main_arg2 m ρ c)
theorem V3_main_arg5 (c : Dev nD) : V3 m ρ c main_arg5 = m ((c : Thread nD τ).loc main_arg5) := (W3_main_arg5 m ρ c).trans (V2_main_arg5 m ρ c)
theorem V4_main_arg1 (c : Dev nD) : V4 m ρ c main_arg1 = m ((c : Thread nD τ).loc main_arg1) := (W4_main_arg1 m ρ c).trans (V3_main_arg1 m ρ c)
theorem V4_main_arg2 (c : Dev nD) : V4 m ρ c main_arg2 = m ((c : Thread nD τ).loc main_arg2) := (W4_main_arg2 m ρ c).trans (V3_main_arg2 m ρ c)
theorem V4_main_arg5 (c : Dev nD) : V4 m ρ c main_arg5 = m ((c : Thread nD τ).loc main_arg5) := (W4_main_arg5 m ρ c).trans (V3_main_arg5 m ρ c)

/-- The reshaped location array at (l, 0, o) is the launched one at (l, o), at every region's entry. -/
theorem hMU1 (c : Dev nD) (l : Fin 4) (o : Fin 4096) : (V1 m ρ c main_v0 (ix3 l (0 : Fin 1) o) : EReal) = (m ((c : Thread nD τ).loc main_arg3)) (ix2 l o) :=
  Cert.KernelValue.hostOps0_v0_apply (W0 m ρ c) l o
theorem hSG1 (c : Dev nD) (l : Fin 4) (o : Fin 4096) : (V1 m ρ c main_v1 (ix3 l (0 : Fin 1) o) : EReal) = (m ((c : Thread nD τ).loc main_arg4)) (ix2 l o) :=
  Cert.KernelValue.hostOps0_v1_apply (W0 m ρ c) l o
theorem hMU2 (c : Dev nD) (l : Fin 4) (o : Fin 4096) : (V2 m ρ c main_v0 (ix3 l (0 : Fin 1) o) : EReal) = (m ((c : Thread nD τ).loc main_arg3)) (ix2 l o) := by
  rw [show V2 m ρ c main_v0 = V1 m ρ c main_v0 from W2_main_v0 m ρ c]; exact hMU1 m ρ c l o
theorem hSG2 (c : Dev nD) (l : Fin 4) (o : Fin 4096) : (V2 m ρ c main_v1 (ix3 l (0 : Fin 1) o) : EReal) = (m ((c : Thread nD τ).loc main_arg4)) (ix2 l o) := by
  rw [show V2 m ρ c main_v1 = V1 m ρ c main_v1 from W2_main_v1 m ρ c]; exact hSG1 m ρ c l o
theorem hMU3 (c : Dev nD) (l : Fin 4) (o : Fin 4096) : (V3 m ρ c main_v0 (ix3 l (0 : Fin 1) o) : EReal) = (m ((c : Thread nD τ).loc main_arg3)) (ix2 l o) := by
  rw [show V3 m ρ c main_v0 = V2 m ρ c main_v0 from W3_main_v0 m ρ c]; exact hMU2 m ρ c l o
theorem hSG3 (c : Dev nD) (l : Fin 4) (o : Fin 4096) : (V3 m ρ c main_v1 (ix3 l (0 : Fin 1) o) : EReal) = (m ((c : Thread nD τ).loc main_arg4)) (ix2 l o) := by
  rw [show V3 m ρ c main_v1 = V2 m ρ c main_v1 from W3_main_v1 m ρ c]; exact hSG2 m ρ c l o
theorem hMU4 (c : Dev nD) (l : Fin 4) (o : Fin 4096) : (V4 m ρ c main_v0 (ix3 l (0 : Fin 1) o) : EReal) = (m ((c : Thread nD τ).loc main_arg3)) (ix2 l o) := by
  rw [show V4 m ρ c main_v0 = V3 m ρ c main_v0 from W4_main_v0 m ρ c]; exact hMU3 m ρ c l o
theorem hSG4 (c : Dev nD) (l : Fin 4) (o : Fin 4096) : (V4 m ρ c main_v1 (ix3 l (0 : Fin 1) o) : EReal) = (m ((c : Thread nD τ).loc main_arg4)) (ix2 l o) := by
  rw [show V4 m ρ c main_v1 = V3 m ρ c main_v1 from W4_main_v1 m ρ c]; exact hSG3 m ρ c l o

/-! ## The four outputs -/

theorem val0 (c : Dev nD) : (dat0 (V1 m ρ) c).arrAt 6 cfg0.N = Cert.Spec.act0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final0 (V1 m ρ) c (m ((c : Thread nD τ).loc main_arg3)) (m ((c : Thread nD τ).loc main_arg4)) (hMU1 m ρ c) (hSG1 m ρ c)]
  unfold G0 Cert.Spec.act0
  rw [V1_main_arg0, V1_main_arg1, V1_main_arg2, V1_main_arg5]

theorem V2_main_v2 (c : Dev nD) : V2 m ρ c main_v2 = Cert.Spec.act0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_main_v2 m ρ c).trans (val0 m ρ c)
theorem val1 (c : Dev nD) : (dat1 (V2 m ρ) c).arrAt 6 cfg1.N = Cert.Spec.act1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final1 (V2 m ρ) c (m ((c : Thread nD τ).loc main_arg3)) (m ((c : Thread nD τ).loc main_arg4)) (hMU2 m ρ c) (hSG2 m ρ c)]
  unfold G1 Cert.Spec.act1
  rw [V2_main_v2, V2_main_arg1, V2_main_arg2, V2_main_arg5]

theorem V3_main_v3 (c : Dev nD) : V3 m ρ c main_v3 = Cert.Spec.act1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W3_main_v3 m ρ c).trans (val1 m ρ c)
theorem val2 (c : Dev nD) : (dat2 (V3 m ρ) c).arrAt 6 cfg2.N = Cert.Spec.act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final2 (V3 m ρ) c (m ((c : Thread nD τ).loc main_arg3)) (m ((c : Thread nD τ).loc main_arg4)) (hMU3 m ρ c) (hSG3 m ρ c)]
  unfold G2 Cert.Spec.act2
  rw [V3_main_v3, V3_main_arg1, V3_main_arg2, V3_main_arg5]

theorem V4_main_v4 (c : Dev nD) : V4 m ρ c main_v4 = Cert.Spec.act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W4_main_v4 m ρ c).trans (val2 m ρ c)
theorem val3 (c : Dev nD) : (dat3 (V4 m ρ) c).arrAt 6 cfg3.N = Cert.Spec.act3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [final3 (V4 m ρ) c (m ((c : Thread nD τ).loc main_arg3)) (m ((c : Thread nD τ).loc main_arg4)) (hMU4 m ρ c) (hSG4 m ρ c)]
  unfold G3 Cert.Spec.act3
  rw [V4_main_v4, V4_main_arg1, V4_main_arg2, V4_main_arg5]

/-! ## The result buffer -/

theorem W5_out0 (c : Dev nD) : W5 m ρ c (Proc.devRef .tc main_v2) = Cert.Spec.act0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_main_v2 m ρ c).trans <| (W4_main_v2 m ρ c).trans <| (W3_main_v2 m ρ c).trans <| (W2_main_v2 m ρ c).trans (val0 m ρ c)
theorem W5_out1 (c : Dev nD) : W5 m ρ c (Proc.devRef .tc main_v3) = Cert.Spec.act1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_main_v3 m ρ c).trans <| (W4_main_v3 m ρ c).trans <| (W3_main_v3 m ρ c).trans (val1 m ρ c)
theorem W5_out2 (c : Dev nD) : W5 m ρ c (Proc.devRef .tc main_v4) = Cert.Spec.act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_main_v4 m ρ c).trans <| (W4_main_v4 m ρ c).trans (val2 m ρ c)
theorem W5_out3 (c : Dev nD) : W5 m ρ c (Proc.devRef .tc main_v5) = Cert.Spec.act3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_main_v5 m ρ c).trans (val3 m ρ c)

/-- The program's last operation puts the four outputs side by side. -/
theorem W6_main_v6 (c : Dev nD) : W6 m ρ c (Proc.devRef .tc main_v6)
    = concatenate S4096x16384 1 [⟨S4096x4096, Cert.Spec.act0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩, ⟨S4096x4096, Cert.Spec.act1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩, ⟨S4096x4096, Cert.Spec.act2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩, ⟨S4096x4096, Cert.Spec.act3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))⟩] concatenates_S4096x4096_S4096x4096_S4096x4096_S4096x4096_S4096x16384_d1 := by
  rw [← W5_out0 m ρ c, ← W5_out1 m ρ c, ← W5_out2 m ρ c, ← W5_out3 m ρ c]
  show StableHlo.after hostOps4 (W5 m ρ c) (Proc.devRef .tc main_v6) = _
  after_results
  rfl

end Cert.KernelIdeal.Hand

end
-- ==== Proof.RefValue.lean ====
/-
  The reference side of the comparison. The reference program computes, at the ideal instance, the four chained layers of
  the specification side by side.

  Each layer of the program slices the layer's weights, mask, location, scale and draws out of the stacked arrays,
  multiplies weights by mask, contracts the current activation with the product over the input features, adds
  exp(location + scale · draw), and takes the maximum with zero. Read at a row b and an output feature o this is

      max( Σ_i cur(b, i) · (w(l, o, i) · mk(l, o, i)) + exp(mu(l, o) + sg(l, o) · z(l, b, o)), 0 ),

  the specification's layer l. The program's result is the concatenation, along the feature axis, of the four activations.
-/
import proofs.«151625_j49460843381367_2_alg».proof.Proof.Gen.ReferenceIdeal.Read
import proofs.«151625_j49460843381367_2_alg».proof.Proof.Spec

noncomputable section

open scoped BigOperators

namespace Cert.RefValue

open Cert.ReferenceIdeal Cert.ReferenceIdeal.Read Idealize.ShloMosaic Idealize.ShloMosaic.ValueIdx Idealize.ShloMosaic.TcCoe Idealize.SL.Sem

variable [Cert.ReferenceIdeal.Facts]

/-! ## The first layer (layer index 0): where each operand is read, then the layer itself -/

/-- The contraction reads the current activation at row `b`, input feature `k`. -/
theorem l0_cur (b o k : Fin 4096) : lidx_main_v5 (ix2 b o) k = ix2 b k := by
  funext a
  match a with
  | ⟨0, _⟩ => rfl
  | ⟨1, _⟩ => rfl

/-- The contraction reads the weights at layer 0, output feature `o`, input feature `k`. -/
theorem l0_w (b o k : Fin 4096) : idx_main_v0 (idx_main_v1 (ridx_main_v5 (ix2 b o) k)) = ix3 (0 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The contraction reads the mask at layer 0, output feature `o`, input feature `k`. -/
theorem l0_mk (b o k : Fin 4096) : idx_main_v2 (idx_main_v3 (ridx_main_v5 (ix2 b o) k)) = ix3 (0 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The broadcast location is read at layer 0, feature `o`. -/
theorem l0_mu (b o : Fin 4096) : idx_main_v6 (idx_main_v7 (idx_main_v8 (idx_main_v16 (ix2 b o)))) = ix2 (0 : Fin 4) o := by
  funext a
  refine Fin.ext ?_
  match a with
  | ⟨0, _⟩ => rfl
  | ⟨1, _⟩ => show o.val % 4096 = o.val; omega

/-- The broadcast scale is read at layer 0, feature `o`. -/
theorem l0_sg (b o : Fin 4096) : idx_main_v9 (idx_main_v10 (idx_main_v11 (idx_main_v14 (ix2 b o)))) = ix2 (0 : Fin 4) o := by
  funext a
  refine Fin.ext ?_
  match a with
  | ⟨0, _⟩ => rfl
  | ⟨1, _⟩ => show o.val % 4096 = o.val; omega

/-- The draws are read at layer 0, row `b`, feature `o`. -/
theorem l0_z (b o : Fin 4096) : idx_main_v12 (idx_main_v13 (ix2 b o)) = ix3 (0 : Fin 4) b o := by
  funext a
  refine Fin.ext ?_
  match a with
  | ⟨0, _⟩ => rfl
  | ⟨1, _⟩ => show (b.val * 4096 + o.val) / 4096 % 4096 = b.val; omega
  | ⟨2, _⟩ => show (b.val * 4096 + o.val) % 4096 = o.val; omega

/-- The program's first rectified activation is the specification's layer 0 applied to the input. -/
theorem layer0 (x0 : (⟨S4096x4096, .f32⟩ : BufTy).Contents (Elt Ideal)) (x1 x2 : (⟨S4x4096x4096, .f32⟩ : BufTy).Contents (Elt Ideal))
    (x3 x4 : (⟨S4x4096, .f32⟩ : BufTy).Contents (Elt Ideal)) (x5 : (⟨S4x4096x4096, .f32⟩ : BufTy).Contents (Elt Ideal)) :
    val_main_v20 (F := Ideal) x0 x1 x2 x3 x4 x5 = Cert.Spec.act0 x0 x1 x2 x3 x4 x5 := by
  funext j
  obtain ⟨b, o, rfl⟩ : ∃ (b o : Fin 4096), j = ix2 b o := ⟨j 0, j 1, eq_ix2 j⟩
  rw [Cert.Spec.act0, Cert.Spec.layer_apply, Cert.Spec.actAt, Cert.Spec.lin, Cert.Spec.noise]
  rw [val_main_v20_apply, val_main_v19_apply, val_main_v5_apply, val_main_v18_apply, val_main_v17_apply, val_main_v16_apply,
    val_main_v8_apply, val_main_v7_apply, val_main_v6_apply, val_main_v15_apply, val_main_v14_apply, val_main_v11_apply,
    val_main_v10_apply, val_main_v9_apply, val_main_v13_apply, val_main_v12_apply, val_main_call0_v0_apply, val_main_call0_cst_apply,
    l0_mu, l0_sg, l0_z]
  simp only [val_main_v4_apply, val_main_v1_apply, val_main_v0_apply, val_main_v3_apply, val_main_v2_apply, l0_cur, l0_w, l0_mk,
    Ideal.mulf_def, Ideal.addf_def, Ideal.maximumf_def, Ideal.hostUnary_exp_def, Ideal.ofBits_def]

/-! ## The second layer (layer index 1): where each operand is read, then the layer itself -/

/-- The contraction reads the current activation at row `b`, input feature `k`. -/
theorem l1_cur (b o k : Fin 4096) : lidx_main_v26 (ix2 b o) k = ix2 b k := by
  funext a
  match a with
  | ⟨0, _⟩ => rfl
  | ⟨1, _⟩ => rfl

/-- The contraction reads the weights at layer 1, output feature `o`, input feature `k`. -/
theorem l1_w (b o k : Fin 4096) : idx_main_v21 (idx_main_v22 (ridx_main_v26 (ix2 b o) k)) = ix3 (1 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The contraction reads the mask at layer 1, output feature `o`, input feature `k`. -/
theorem l1_mk (b o k : Fin 4096) : idx_main_v23 (idx_main_v24 (ridx_main_v26 (ix2 b o) k)) = ix3 (1 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The broadcast location is read at layer 1, feature `o`. -/
theorem l1_mu (b o : Fin 4096) : idx_main_v27 (idx_main_v28 (idx_main_v29 (idx_main_v37 (ix2 b o)))) = ix2 (1 : Fin 4) o := by
  funext a
  refine Fin.ext ?_
  match a with
  | ⟨0, _⟩ => rfl
  | ⟨1, _⟩ => show o.val % 4096 = o.val; omega

/-- The broadcast scale is read at layer 1, feature `o`. -/
theorem l1_sg (b o : Fin 4096) : idx_main_v30 (idx_main_v31 (idx_main_v32 (idx_main_v35 (ix2 b o)))) = ix2 (1 : Fin 4) o := by
  funext a
  refine Fin.ext ?_
  match a with
  | ⟨0, _⟩ => rfl
  | ⟨1, _⟩ => show o.val % 4096 = o.val; omega

/-- The draws are read at layer 1, row `b`, feature `o`. -/
theorem l1_z (b o : Fin 4096) : idx_main_v33 (idx_main_v34 (ix2 b o)) = ix3 (1 : Fin 4) b o := by
  funext a
  refine Fin.ext ?_
  match a with
  | ⟨0, _⟩ => rfl
  | ⟨1, _⟩ => show (b.val * 4096 + o.val) / 4096 % 4096 = b.val; omega
  | ⟨2, _⟩ => show (b.val * 4096 + o.val) % 4096 = o.val; omega

/-- The program's second rectified activation is the specification's layer 1 applied to the first activation. -/
theorem layer1 (x0 : (⟨S4096x4096, .f32⟩ : BufTy).Contents (Elt Ideal)) (x1 x2 : (⟨S4x4096x4096, .f32⟩ : BufTy).Contents (Elt Ideal))
    (x3 x4 : (⟨S4x4096, .f32⟩ : BufTy).Contents (Elt Ideal)) (x5 : (⟨S4x4096x4096, .f32⟩ : BufTy).Contents (Elt Ideal)) :
    val_main_v41 (F := Ideal) x0 x1 x2 x3 x4 x5 = Cert.Spec.act1 x0 x1 x2 x3 x4 x5 := by
  funext j
  obtain ⟨b, o, rfl⟩ : ∃ (b o : Fin 4096), j = ix2 b o := ⟨j 0, j 1, eq_ix2 j⟩
  rw [Cert.Spec.act1, Cert.Spec.layer_apply, Cert.Spec.actAt, Cert.Spec.lin, Cert.Spec.noise]
  rw [val_main_v41_apply, val_main_v40_apply, val_main_v26_apply, val_main_v39_apply, val_main_v38_apply, val_main_v37_apply,
    val_main_v29_apply, val_main_v28_apply, val_main_v27_apply, val_main_v36_apply, val_main_v35_apply, val_main_v32_apply,
    val_main_v31_apply, val_main_v30_apply, val_main_v34_apply, val_main_v33_apply, val_main_call1_v0_apply, val_main_call1_cst_apply,
    l1_mu, l1_sg, l1_z]
  simp only [layer0, val_main_v25_apply, val_main_v22_apply, val_main_v21_apply, val_main_v24_apply, val_main_v23_apply, l1_cur, l1_w, l1_mk,
    Ideal.mulf_def, Ideal.addf_def, Ideal.maximumf_def, Ideal.hostUnary_exp_def, Ideal.ofBits_def]

/-! ## The third layer (layer index 2): where each operand is read, then the layer itself -/

/-- The contraction reads the current activation at row `b`, input feature `k`. -/
theorem l2_cur (b o k : Fin 4096) : lidx_main_v47 (ix2 b o) k = ix2 b k := by
  funext a
  match a with
  | ⟨0, _⟩ => rfl
  | ⟨1, _⟩ => rfl

/-- The contraction reads the weights at layer 2, output feature `o`, input feature `k`. -/
theorem l2_w (b o k : Fin 4096) : idx_main_v42 (idx_main_v43 (ridx_main_v47 (ix2 b o) k)) = ix3 (2 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The contraction reads the mask at layer 2, output feature `o`, input feature `k`. -/
theorem l2_mk (b o k : Fin 4096) : idx_main_v44 (idx_main_v45 (ridx_main_v47 (ix2 b o) k)) = ix3 (2 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The broadcast location is read at layer 2, feature `o`. -/
theorem l2_mu (b o : Fin 4096) : idx_main_v48 (idx_main_v49 (idx_main_v50 (idx_main_v58 (ix2 b o)))) = ix2 (2 : Fin 4) o := by
  funext a
  refine Fin.ext ?_
  match a with
  | ⟨0, _⟩ => rfl
  | ⟨1, _⟩ => show o.val % 4096 = o.val; omega

/-- The broadcast scale is read at layer 2, feature `o`. -/
theorem l2_sg (b o : Fin 4096) : idx_main_v51 (idx_main_v52 (idx_main_v53 (idx_main_v56 (ix2 b o)))) = ix2 (2 : Fin 4) o := by
  funext a
  refine Fin.ext ?_
  match a with
  | ⟨0, _⟩ => rfl
  | ⟨1, _⟩ => show o.val % 4096 = o.val; omega

/-- The draws are read at layer 2, row `b`, feature `o`. -/
theorem l2_z (b o : Fin 4096) : idx_main_v54 (idx_main_v55 (ix2 b o)) = ix3 (2 : Fin 4) b o := by
  funext a
  refine Fin.ext ?_
  match a with
  | ⟨0, _⟩ => rfl
  | ⟨1, _⟩ => show (b.val * 4096 + o.val) / 4096 % 4096 = b.val; omega
  | ⟨2, _⟩ => show (b.val * 4096 + o.val) % 4096 = o.val; omega

/-- The program's third rectified activation is the specification's layer 2 applied to the second activation. -/
theorem layer2 (x0 : (⟨S4096x4096, .f32⟩ : BufTy).Contents (Elt Ideal)) (x1 x2 : (⟨S4x4096x4096, .f32⟩ : BufTy).Contents (Elt Ideal))
    (x3 x4 : (⟨S4x4096, .f32⟩ : BufTy).Contents (Elt Ideal)) (x5 : (⟨S4x4096x4096, .f32⟩ : BufTy).Contents (Elt Ideal)) :
    val_main_v62 (F := Ideal) x0 x1 x2 x3 x4 x5 = Cert.Spec.act2 x0 x1 x2 x3 x4 x5 := by
  funext j
  obtain ⟨b, o, rfl⟩ : ∃ (b o : Fin 4096), j = ix2 b o := ⟨j 0, j 1, eq_ix2 j⟩
  rw [Cert.Spec.act2, Cert.Spec.layer_apply, Cert.Spec.actAt, Cert.Spec.lin, Cert.Spec.noise]
  rw [val_main_v62_apply, val_main_v61_apply, val_main_v47_apply, val_main_v60_apply, val_main_v59_apply, val_main_v58_apply,
    val_main_v50_apply, val_main_v49_apply, val_main_v48_apply, val_main_v57_apply, val_main_v56_apply, val_main_v53_apply,
    val_main_v52_apply, val_main_v51_apply, val_main_v55_apply, val_main_v54_apply, val_main_call2_v0_apply, val_main_call2_cst_apply,
    l2_mu, l2_sg, l2_z]
  simp only [layer1, val_main_v46_apply, val_main_v43_apply, val_main_v42_apply, val_main_v45_apply, val_main_v44_apply, l2_cur, l2_w, l2_mk,
    Ideal.mulf_def, Ideal.addf_def, Ideal.maximumf_def, Ideal.hostUnary_exp_def, Ideal.ofBits_def]

/-! ## The fourth layer (layer index 3): where each operand is read, then the layer itself -/

/-- The contraction reads the current activation at row `b`, input feature `k`. -/
theorem l3_cur (b o k : Fin 4096) : lidx_main_v68 (ix2 b o) k = ix2 b k := by
  funext a
  match a with
  | ⟨0, _⟩ => rfl
  | ⟨1, _⟩ => rfl

/-- The contraction reads the weights at layer 3, output feature `o`, input feature `k`. -/
theorem l3_w (b o k : Fin 4096) : idx_main_v63 (idx_main_v64 (ridx_main_v68 (ix2 b o) k)) = ix3 (3 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The contraction reads the mask at layer 3, output feature `o`, input feature `k`. -/
theorem l3_mk (b o k : Fin 4096) : idx_main_v65 (idx_main_v66 (ridx_main_v68 (ix2 b o) k)) = ix3 (3 : Fin 4) o k := by
  funext a
  refine Fin.ext ?_
  match a with
  | ⟨0, _⟩ => rfl
  | ⟨1, _⟩ => show (o.val * 4096 + k.val) / 4096 % 4096 = o.val; omega
  | ⟨2, _⟩ => show (o.val * 4096 + k.val) % 4096 = k.val; omega

/-- The broadcast location is read at layer 3, feature `o`. -/
theorem l3_mu (b o : Fin 4096) : idx_main_v69 (idx_main_v70 (idx_main_v71 (idx_main_v79 (ix2 b o)))) = ix2 (3 : Fin 4) o := by
  funext a
  refine Fin.ext ?_
  match a with
  | ⟨0, _⟩ => rfl
  | ⟨1, _⟩ => show o.val % 4096 = o.val; omega

/-- The broadcast scale is read at layer 3, feature `o`. -/
theorem l3_sg (b o : Fin 4096) : idx_main_v72 (idx_main_v73 (idx_main_v74 (idx_main_v77 (ix2 b o)))) = ix2 (3 : Fin 4) o := by
  funext a
  refine Fin.ext ?_
  match a with
  | ⟨0, _⟩ => rfl
  | ⟨1, _⟩ => show o.val % 4096 = o.val; omega

/-- The draws are read at layer 3, row `b`, feature `o`. -/
theorem l3_z (b o : Fin 4096) : idx_main_v75 (idx_main_v76 (ix2 b o)) = ix3 (3 : Fin 4) b o := by
  funext a
  refine Fin.ext ?_
  match a with
  | ⟨0, _⟩ => rfl
  | ⟨1, _⟩ => show (b.val * 4096 + o.val) / 4096 % 4096 = b.val; omega
  | ⟨2, _⟩ => show (b.val * 4096 + o.val) % 4096 = o.val; omega

/-- The program's fourth rectified activation is the specification's layer 3 applied to the third activation. -/
theorem layer3 (x0 : (⟨S4096x4096, .f32⟩ : BufTy).Contents (Elt Ideal)) (x1 x2 : (⟨S4x4096x4096, .f32⟩ : BufTy).Contents (Elt Ideal))
    (x3 x4 : (⟨S4x4096, .f32⟩ : BufTy).Contents (Elt Ideal)) (x5 : (⟨S4x4096x4096, .f32⟩ : BufTy).Contents (Elt Ideal)) :
    val_main_v83 (F := Ideal) x0 x1 x2 x3 x4 x5 = Cert.Spec.act3 x0 x1 x2 x3 x4 x5 := by
  funext j
  obtain ⟨b, o, rfl⟩ : ∃ (b o : Fin 4096), j = ix2 b o := ⟨j 0, j 1, eq_ix2 j⟩
  rw [Cert.Spec.act3, Cert.Spec.layer_apply, Cert.Spec.actAt, Cert.Spec.lin, Cert.Spec.noise]
  rw [val_main_v83_apply, val_main_v82_apply, val_main_v68_apply, val_main_v81_apply, val_main_v80_apply, val_main_v79_apply,
    val_main_v71_apply, val_main_v70_apply, val_main_v69_apply, val_main_v78_apply, val_main_v77_apply, val_main_v74_apply,
    val_main_v73_apply, val_main_v72_apply, val_main_v76_apply, val_main_v75_apply, val_main_call3_v0_apply, val_main_call3_cst_apply,
    l3_mu, l3_sg, l3_z]
  simp only [layer2, val_main_v67_apply, val_main_v64_apply, val_main_v63_apply, val_main_v66_apply, val_main_v65_apply, l3_cur, l3_w, l3_mk,
    Ideal.mulf_def, Ideal.addf_def, Ideal.maximumf_def, Ideal.hostUnary_exp_def, Ideal.ofBits_def]

/-! ## The program's result -/

/-- The four activations of the specification, side by side along the feature axis. -/
def result (x : (⟨S4096x4096, .f32⟩ : BufTy).Contents (Elt Ideal)) (w mk : (⟨S4x4096x4096, .f32⟩ : BufTy).Contents (Elt Ideal))
    (mu sg : (⟨S4x4096, .f32⟩ : BufTy).Contents (Elt Ideal)) (z : (⟨S4x4096x4096, .f32⟩ : BufTy).Contents (Elt Ideal)) :
    (⟨S4096x16384, .f32⟩ : BufTy).Contents (Elt Ideal) :=
  concatenate Cert.ReferenceIdeal.S4096x16384 1 [⟨S4096x4096, Cert.Spec.act0 x w mk mu sg z⟩, ⟨S4096x4096, Cert.Spec.act1 x w mk mu sg z⟩,
    ⟨S4096x4096, Cert.Spec.act2 x w mk mu sg z⟩, ⟨S4096x4096, Cert.Spec.act3 x w mk mu sg z⟩]
    Cert.ReferenceIdeal.Facts₀.concatenates_S4096x4096_S4096x4096_S4096x4096_S4096x4096_S4096x16384_d1

/-- Four arrays that are the four activations of the specification, concatenated along the feature axis, are `result`. -/
theorem result_of_parts (x : (⟨S4096x4096, .f32⟩ : BufTy).Contents (Elt Ideal)) (w mk : (⟨S4x4096x4096, .f32⟩ : BufTy).Contents (Elt Ideal))
    (mu sg : (⟨S4x4096, .f32⟩ : BufTy).Contents (Elt Ideal)) (z : (⟨S4x4096x4096, .f32⟩ : BufTy).Contents (Elt Ideal))
    (a0 a1 a2 a3 : (⟨S4096x4096, .f32⟩ : BufTy).Contents (Elt Ideal))
    (h : Shape.Concatenates [S4096x4096, S4096x4096, S4096x4096, S4096x4096] S4096x16384 1)
    (h0 : a0 = Cert.Spec.act0 x w mk mu sg z) (h1 : a1 = Cert.Spec.act1 x w mk mu sg z)
    (h2 : a2 = Cert.Spec.act2 x w mk mu sg z) (h3 : a3 = Cert.Spec.act3 x w mk mu sg z) :
    concatenate S4096x16384 1 [⟨S4096x4096, a0⟩, ⟨S4096x4096, a1⟩, ⟨S4096x4096, a2⟩, ⟨S4096x4096, a3⟩] h = result x w mk mu sg z := by
  subst h0 h1 h2 h3
  unfold result
  rfl

/-- The program's concatenated result is the four activations of the specification, side by side. -/
theorem value_eq (x0 : (⟨S4096x4096, .f32⟩ : BufTy).Contents (Elt Ideal)) (x1 x2 : (⟨S4x4096x4096, .f32⟩ : BufTy).Contents (Elt Ideal))
    (x3 x4 : (⟨S4x4096, .f32⟩ : BufTy).Contents (Elt Ideal)) (x5 : (⟨S4x4096x4096, .f32⟩ : BufTy).Contents (Elt Ideal)) :
    val_main_v84 (F := Ideal) x0 x1 x2 x3 x4 x5 = result x0 x1 x2 x3 x4 x5 := by
  unfold val_main_v84 result
  rw [layer0, layer1, layer2, layer3]

/-- Every weakly fair execution of the reference program from any memory with zero counters terminates with its result
    buffer at the four activations of the specification side by side, computed from the argument arrays, and the
    argument arrays unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v84)
        = result (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans ((val_main_v84_eq (F := Ideal) m' c).trans (value_eq _ _ _ _ _ _)), (h c).2⟩)
    (Cert.ReferenceIdeal.Value.run (F := Ideal) m' ρ')

/-- The reference program runs to completion from any memory with zero counters and leaves its argument arrays unchanged. -/
theorem frame (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono (fun _ h c => (h c).2) (run m' ρ')

end Cert.RefValue

end
-- ==== Proof.lean ====
/-
  A four-layer masked perceptron with log-normal noise, computed layer by layer in tiles, against its plain statement.

  Each layer maps an activation `cur` (4096 rows, 4096 features) to

      act(b, o) = max( Σ_i cur(b, i) · (w(l, o, i) · mask(l, o, i)) + exp(mu(l, o) + sigma(l, o) · z(l, b, o)), 0 ),

  and the result is the four activations side by side. The kernel program computes a layer block by block: for an output
  block of 1024 rows by 512 features it walks the contracted axis in four tiles of 1024, keeping a running sum that starts
  at zero, and after the last tile adds the noise, rectifies and writes the block out. The reference takes the whole
  contraction at once. On the extended reals addition is associative and commutative with no exception, so the running sum
  over the four tiles IS the whole sum, and no finiteness of the inputs is needed: the precondition is never opened.

  The three frames: each program runs to its end, faults nowhere and leaves its six arguments as launched — for the kernel
  program (read at machine words and at the extended reals) from the run of its six segments, for the reference from its
  run read back. The idealization changed no operation, so there is nothing to preserve. The last claim compares the two
  results through the specification: both are the concatenation of the specification's four chained layers.
-/
import proofs.«151625_j49460843381367_2_alg».proof.Defs
import proofs.«151625_j49460843381367_2_alg».proof.Proof.Gen.Kernel
import proofs.«151625_j49460843381367_2_alg».proof.Proof.Gen.KernelIdeal
import proofs.«151625_j49460843381367_2_alg».proof.Proof.Gen.ReferenceIdeal
import proofs.«151625_j49460843381367_2_alg».proof.Proof.Gen.Pre_finite_inputs
import proofs.«151625_j49460843381367_2_alg».proof.Proof.K_Main
import proofs.«151625_j49460843381367_2_alg».proof.Proof.KI_Main
import proofs.«151625_j49460843381367_2_alg».proof.Proof.KI_Value
import proofs.«151625_j49460843381367_2_alg».proof.Proof.RefValue
import Idealize.ShloMosaic.Adequacy
import Idealize.ShloMosaic.Init

noncomputable section

namespace Cert.Proof

open Idealize.ShloMosaic Idealize.SL.Sem

/-- The kernel program, read at machine words, runs and leaves its arguments as launched. -/
theorem frame_k : Cert.frame_Kernel := fun m ρ _ => Cert.Kernel.Hand.frame m ρ
/-- The same program read at the extended reals. -/
theorem frame_ki : Cert.frame_KernelIdeal := fun m ρ _ => Cert.KernelIdeal.Hand.frame m ρ
/-- The reference runs and leaves its arguments as launched. -/
theorem frame_ri : Cert.frame_ReferenceIdeal := fun m ρ _ => Cert.RefValue.frame m ρ

/-- Both programs end with the specification's four chained layers side by side, of arguments that agree. -/
theorem algebraic : Cert.algebraic_KernelIdeal_ReferenceIdeal := by
  intro m ρ m' ρ' _ hagree
  refine ⟨fun c => Cert.RefValue.result (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)), ?_, Cert.RefValue.run m' ρ'⟩
  refine (θ_run Cert.KernelIdeal.defs _ _).mono (fun r h c => ⟨?_,
      (h c _ (Cert.KernelIdeal.Hand.mem_uc Cert.KernelIdeal.main_arg0 (by decide))).trans (Cert.KernelIdeal.Hand.W6_main_arg0_launch m ρ c),
      (h c _ (Cert.KernelIdeal.Hand.mem_uc Cert.KernelIdeal.main_arg1 (by decide))).trans (Cert.KernelIdeal.Hand.W6_main_arg1_launch m ρ c),
      (h c _ (Cert.KernelIdeal.Hand.mem_uc Cert.KernelIdeal.main_arg2 (by decide))).trans (Cert.KernelIdeal.Hand.W6_main_arg2_launch m ρ c),
      (h c _ (Cert.KernelIdeal.Hand.mem_uc Cert.KernelIdeal.main_arg3 (by decide))).trans (Cert.KernelIdeal.Hand.W6_main_arg3_launch m ρ c),
      (h c _ (Cert.KernelIdeal.Hand.mem_uc Cert.KernelIdeal.main_arg4 (by decide))).trans (Cert.KernelIdeal.Hand.W6_main_arg4_launch m ρ c),
      (h c _ (Cert.KernelIdeal.Hand.mem_uc Cert.KernelIdeal.main_arg5 (by decide))).trans (Cert.KernelIdeal.Hand.W6_main_arg5_launch m ρ c)⟩)
    (Cert.KernelIdeal.Hand.run_all m ρ)
  refine ((h c _ (Cert.KernelIdeal.Hand.mem_uc Cert.KernelIdeal.main_v6 (by decide))).trans (Cert.KernelIdeal.Hand.W6_main_v6 m ρ c)).trans ?_
  beta_reduce
  rw [(hagree c).1, (hagree c).2.1, (hagree c).2.2.1, (hagree c).2.2.2.1, (hagree c).2.2.2.2.1, (hagree c).2.2.2.2.2]
  exact Cert.RefValue.result_of_parts _ _ _ _ _ _ _ _ _ _ _ rfl rfl rfl rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
